-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x256x256 : Shape := ⟨4, ![32, 8, 256, 256]⟩
abbrev S_ : Shape := ⟨0, ![]⟩

class Facts : Prop where
  bcast_S_S32x8x256x256 : S_.BroadcastsInDim S32x8x256x256 (![] : Fin 0 → Fin S32x8x256x256.rank)
  reducesTo_S32x8x256x256_S_d0_1_2_3 : S32x8x256x256.ReducesTo [0, 1, 2, 3] S_
  h_S_ : 0 < S_.numel

variable [Facts]

def fn {F : FTy → Type} [FloatOps F] (main_arg0 : FVec F S32x8x256x256 .f32) (main_arg1 : FVec F S32x8x256x256 .f32) : IVec S_ 1 :=
  let main_v0 : FVec F S32x8x256x256 .f32 := Host.absf main_arg0
  let main_cst : FVec F S_ .f32 := constant S_ .f32 0x7F800000#32
  let main_v1 : FVec F S32x8x256x256 .f32 := broadcastInDim S32x8x256x256 ![] bcast_S_S32x8x256x256 main_cst
  let main_v2 : IVec S32x8x256x256 1 := cmpf .olt main_v0 main_v1
  let main_c : IVec S_ 1 := constantI S_ 1 1#1
  let main_v3 : IVec S_ 1 := (fun x v => Host.reduce IntOp.andi x v reducesTo_S32x8x256x256_S_d0_1_2_3 h_S_) main_v2 main_c
  let main_v4 : FVec F S32x8x256x256 .f32 := Host.absf main_arg1
  let main_cst_0 : FVec F S_ .f32 := constant S_ .f32 0x7F800000#32
  let main_v5 : FVec F S32x8x256x256 .f32 := broadcastInDim S32x8x256x256 ![] bcast_S_S32x8x256x256 main_cst_0
  let main_v6 : IVec S32x8x256x256 1 := cmpf .olt main_v4 main_v5
  let main_c_1 : IVec S_ 1 := constantI S_ 1 1#1
  let main_v7 : IVec S_ 1 := (fun x v => Host.reduce IntOp.andi x v reducesTo_S32x8x256x256_S_d0_1_2_3 h_S_) main_v6 main_c_1
  let main_v8 : IVec S_ 1 := andi main_v3 main_v7
  main_v8
-- ==== Kernel.lean ====
abbrev S32x8x256x256 : Shape := ⟨4, ![32, 8, 256, 256]⟩
abbrev S32x2 : Shape := ⟨2, ![32, 2]⟩
abbrev S16x8x32x256 : Shape := ⟨4, ![16, 8, 32, 256]⟩
abbrev S16x2 : Shape := ⟨2, ![16, 2]⟩
abbrev S16x1x32x256 : Shape := ⟨4, ![16, 1, 32, 256]⟩
abbrev S16x32x256 : Shape := ⟨3, ![16, 32, 256]⟩
abbrev S16x32 : Shape := ⟨2, ![16, 32]⟩
abbrev S16 : Shape := ⟨1, ![16]⟩
abbrev S16x3x32x256 : Shape := ⟨4, ![16, 3, 32, 256]⟩
abbrev S16x1 : Shape := ⟨2, ![16, 1]⟩
abbrev S_ : Shape := ⟨0, ![]⟩
abbrev S2 : Shape := ⟨1, ![2]⟩

abbrev nBuf : Space → Nat
  | .hbm => 42
  | .vmem => 16
  | .smem => 0
  | _ => 0

abbrev bufTy : (tb : Table) → Fin (tcTables nBuf tb) → BufTy
  | .hbm, ⟨0, _⟩ => ⟨S32x8x256x256, .f32⟩
  | .hbm, ⟨1, _⟩ => ⟨S32x8x256x256, .f32⟩
  | .hbm, ⟨2, _⟩ => ⟨S32x2, .f32⟩
  | .hbm, ⟨3, _⟩ => ⟨S32x2, .f32⟩
  | .hbm, ⟨4, _⟩ => ⟨S32x2, .f32⟩
  | .hbm, ⟨5, _⟩ => ⟨S32x2, .f32⟩
  | .hbm, ⟨6, _⟩ => ⟨S_, .f32⟩
  | .hbm, ⟨7, _⟩ => ⟨S2, .f32⟩
  | .hbm, ⟨8, _⟩ => ⟨S_, .f32⟩
  | .hbm, ⟨9, _⟩ => ⟨S2, .f32⟩
  | .hbm, ⟨10, _⟩ => ⟨S2, .f32⟩
  | .hbm, ⟨11, _⟩ => ⟨S2, .f32⟩
  | .hbm, ⟨12, _⟩ => ⟨S_, .f32⟩
  | .hbm, ⟨13, _⟩ => ⟨S2, .f32⟩
  | .hbm, ⟨14, _⟩ => ⟨S2, .f32⟩
  | .hbm, ⟨15, _⟩ => ⟨S_, .f32⟩
  | .hbm, ⟨16, _⟩ => ⟨S32x2, .f32⟩
  | .hbm, ⟨17, _⟩ => ⟨S32x2, .f32⟩
  | .hbm, ⟨18, _⟩ => ⟨S_, .f32⟩
  | .hbm, ⟨19, _⟩ => ⟨S32x2, .f32⟩
  | .hbm, ⟨20, _⟩ => ⟨S32x2, .i1⟩
  | .hbm, ⟨21, _⟩ => ⟨S_, .f32⟩
  | .hbm, ⟨22, _⟩ => ⟨S32x2, .f32⟩
  | .hbm, ⟨23, _⟩ => ⟨S32x2, .f32⟩
  | .hbm, ⟨24, _⟩ => ⟨S32x2, .f32⟩
  | .hbm, ⟨25, _⟩ => ⟨S32x2, .f32⟩
  | .hbm, ⟨26, _⟩ => ⟨S_, .f32⟩
  | .hbm, ⟨27, _⟩ => ⟨S2, .f32⟩
  | .hbm, ⟨28, _⟩ => ⟨S_, .f32⟩
  | .hbm, ⟨29, _⟩ => ⟨S2, .f32⟩
  | .hbm, ⟨30, _⟩ => ⟨S2, .f32⟩
  | .hbm, ⟨31, _⟩ => ⟨S_, .f32⟩
  | .hbm, ⟨32, _⟩ => ⟨S2, .f32⟩
  | .hbm, ⟨33, _⟩ => ⟨S2, .f32⟩
  | .hbm, ⟨34, _⟩ => ⟨S_, .f32⟩
  | .hbm, ⟨35, _⟩ => ⟨S2, .f32⟩
  | .hbm, ⟨36, _⟩ => ⟨S2, .f32⟩
  | .hbm, ⟨37, _⟩ => ⟨S2, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S16x8x32x256, .f32⟩
  | .local _ .vmem, ⟨1, _⟩ => ⟨S16x8x32x256, .f32⟩
  | .local _ .vmem, ⟨2, _⟩ => ⟨S16x8x32x256, .f32⟩
  | .local _ .vmem, ⟨3, _⟩ => ⟨S16x8x32x256, .f32⟩
  | .local _ .vmem, ⟨4, _⟩ => ⟨S16x2, .f32⟩
  | .local _ .vmem, ⟨5, _⟩ => ⟨S16x2, .f32⟩
  | .local _ .vmem, ⟨6, _⟩ => ⟨S16x2, .f32⟩
  | .local _ .vmem, ⟨7, _⟩ => ⟨S16x2, .f32⟩
  | .local _ .vmem, ⟨8, _⟩ => ⟨S16x2, .f32⟩
  | .local _ .vmem, ⟨9, _⟩ => ⟨S16x2, .f32⟩
  | .local _ .vmem, ⟨10, _⟩ => ⟨S16x2, .f32⟩
  | .local _ .vmem, ⟨11, _⟩ => ⟨S16x2, .f32⟩
  | .local _ .vmem, ⟨12, _⟩ => ⟨S16x2, .f32⟩
  | .local _ .vmem, ⟨13, _⟩ => ⟨S16x2, .f32⟩
  | .local _ .vmem, ⟨14, _⟩ => ⟨S16x2, .f32⟩
  | .local _ .vmem, ⟨15, _⟩ => ⟨S16x2, .f32⟩
  | _, _ => ⟨S32x8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_v17 : Ref sig .tc := ⟨.hbm, 30, rfl⟩
abbrev main_cst_7 : Ref sig .tc := ⟨.hbm, 31, rfl⟩
abbrev main_v18 : Ref sig .tc := ⟨.hbm, 32, rfl⟩
abbrev main_v19 : Ref sig .tc := ⟨.hbm, 33, rfl⟩
abbrev main_cst_8 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_9 : Ref sig .tc := ⟨.hbm, 38, rfl⟩
abbrev main_v23 : Ref sig .tc := ⟨.hbm, 39, rfl⟩
abbrev main_cst_10 : Ref sig .tc := ⟨.hbm, 40, rfl⟩
abbrev main_v24 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg1 : BitVec 32 := BitVec.ofNat 32 (i 1).val
  let c7_i32 : BitVec 32 := 7#32
  let v98 : BitVec 1 := Scalar.cmpi .eq arg1 c7_i32
  let v99 : BitVec 32 := Scalar.extui v98
  let c0_i32_62 : BitVec 32 := 0#32
  let v100 : BitVec 1 := Scalar.cmpi .ne v99 c0_i32_62
  v100

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x8x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x8x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S16x8x32x256_S16x1x32x256_0_3_0_0 : ∀ a, (![0, 3, 0, 0] : Fin 4 → Nat) a + S16x1x32x256.size a ≤ S16x8x32x256.size a
  h_S16x1x32x256 : 0 < S16x1x32x256.numel
  shapeCasts_S16x1x32x256_S16x32x256 : S16x1x32x256.ShapeCasts S16x32x256
  reduces_S16x32x256_S16x32 : S16x32x256.Reduces [2] S16x32
  reduces_S16x32_S16 : S16x32.Reduces [1] S16
  inb_S16x8x32x256_S16x3x32x256_0_0_0_0 : ∀ a, (![0, 0, 0, 0] : Fin 4 → Nat) a + S16x3x32x256.size a ≤ S16x8x32x256.size a
  h_S16x3x32x256 : 0 < S16x3x32x256.numel
  reduces_S16x3x32x256_S16x32x256 : S16x3x32x256.Reduces [1] S16x32x256
  natLt_1_32 : 1 < 32
  inb_S16x8x32x256_S16x1x32x256_0_7_0_0 : ∀ a, (![0, 7, 0, 0] : Fin 4 → Nat) a + S16x1x32x256.size a ≤ S16x8x32x256.size a
  inb_S16x8x32x256_S16x3x32x256_0_4_0_0 : ∀ a, (![0, 4, 0, 0] : Fin 4 → Nat) a + S16x3x32x256.size a ≤ S16x8x32x256.size a
  shapeCasts_S16_S16x1 : S16.ShapeCasts S16x1
  concatenates_S16x1_S16x1_S16x2_d1 : Shape.Concatenates [S16x1, S16x1] S16x2 1
  inb_S16x2_S16x2_0_0 : ∀ a, (![0, 0] : Fin 2 → Nat) a + S16x2.size a ≤ S16x2.size a
  h_S16x2 : 0 < S16x2.numel
  shapeCasts_S16x2_S16x2 : S16x2.ShapeCasts S16x2
  reducesTo_S32x2_S2_d0 : S32x2.ReducesTo [0] S2
  h_S_ : 0 < S_.numel
  bcast_S_S2 : S_.BroadcastsInDim S2 (![] : Fin 0 → Fin S2.rank)
  bcast_S_S32x2 : S_.BroadcastsInDim S32x2 (![] : Fin 0 → Fin S32x2.rank)
  reducesTo_S2_S_d0 : S2.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x8x32x256.size a ≤ S32x8x256x256.size a
  hwx0_0 : ∀ i : grid0.Coords, EltTy.bits .f32 = 32 ∨ (Rect.block (s := S32x8x256x256) S16x8x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x8x32x256.size a ≤ S32x8x256x256.size a
  hwx0_1 : ∀ i : grid0.Coords, EltTy.bits .f32 = 32 ∨ (Rect.block (s := S32x8x256x256) S16x8x32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x2.size a ≤ S32x2.size a
  hwx0_2 : ∀ i : grid0.Coords, EltTy.bits .f32 = 32 ∨ (Rect.block (s := S32x2) S16x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x2.size a ≤ S32x2.size a
  hwx0_3 : ∀ i : grid0.Coords, EltTy.bits .f32 = 32 ∨ (Rect.block (s := S32x2) S16x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x2.size a ≤ S32x2.size a
  hwx0_4 : ∀ i : grid0.Coords, EltTy.bits .f32 = 32 ∨ (Rect.block (s := S32x2) S16x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x2.size a ≤ S32x2.size a
  hwx0_5 : ∀ i : grid0.Coords, EltTy.bits .f32 = 32 ∨ (Rect.block (s := S32x2) S16x2.size (cc0_transform_5 i) (hinb0_5 i)).WholeWords (EltTy.packing .f32)

variable [Facts₀]

abbrev win0_0 : Pipeline.Window sig grid0 :=
  Pipeline.Window.ofSpec (Memref.whole main_arg0) S16x8x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x8x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S16x2.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S16x2.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S16x2.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S16x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun i => !(k0_cond3 i == 1#1) | 3 => fun i => !(k0_cond3 i == 1#1) | 4 => fun i => !(k0_cond3 i == 1#1) | 5 => fun i => !(k0_cond3 i == 1#1) | ⟨_ + 6, h⟩ => absurd h (Nat.not_lt.2 (Nat.le_add_left _ _))

class Facts : Prop extends Facts₀ where

variable [Facts]
-- ==== ReferenceIdeal.lean ====
abbrev S32x8x256x256 : Shape := ⟨4, ![32, 8, 256, 256]⟩
abbrev S32x2x4x256x256 : Shape := ⟨5, ![32, 2, 4, 256, 256]⟩
abbrev S32x2x1x256x256 : Shape := ⟨5, ![32, 2, 1, 256, 256]⟩
abbrev S32x2x256x256 : Shape := ⟨4, ![32, 2, 256, 256]⟩
abbrev S_ : Shape := ⟨0, ![]⟩
abbrev S2 : Shape := ⟨1, ![2]⟩
abbrev S32x2x3x256x256 : Shape := ⟨5, ![32, 2, 3, 256, 256]⟩
abbrev S32x2 : Shape := ⟨2, ![32, 2]⟩

abbrev nBuf : Space → Nat
  | .hbm => 91
  | .vmem => 0
  | .smem => 0
  | _ => 0

abbrev bufTy : (tb : Table) → Fin (tcTables nBuf tb) → BufTy
  | .hbm, ⟨0, _⟩ => ⟨S32x8x256x256, .f32⟩
  | .hbm, ⟨1, _⟩ => ⟨S32x8x256x256, .f32⟩
  | .hbm, ⟨2, _⟩ => ⟨S32x2x4x256x256, .f32⟩
  | .hbm, ⟨3, _⟩ => ⟨S32x2x4x256x256, .f32⟩
  | .hbm, ⟨4, _⟩ => ⟨S32x2x1x256x256, .f32⟩
  | .hbm, ⟨5, _⟩ => ⟨S32x2x256x256, .f32⟩
  | .hbm, ⟨6, _⟩ => ⟨S32x2x256x256, .f32⟩
  | .hbm, ⟨7, _⟩ => ⟨S32x2x256x256, .f32⟩
  | .hbm, ⟨8, _⟩ => ⟨S_, .f32⟩
  | .hbm, ⟨9, _⟩ => ⟨S32x2x256x256, .f32⟩
  | .hbm, ⟨10, _⟩ => ⟨S32x2x256x256, .f32⟩
  | .hbm, ⟨11, _⟩ => ⟨S_, .f32⟩
  | .hbm, ⟨12, _⟩ => ⟨S32x2x256x256, .f32⟩
  | .hbm, ⟨13, _⟩ => ⟨S32x2x256x256, .f32⟩
  | .hbm, ⟨14, _⟩ => ⟨S32x2x1x256x256, .f32⟩
  | .hbm, ⟨15, _⟩ => ⟨S32x2x256x256, .f32⟩
  | .hbm, ⟨16, _⟩ => ⟨S32x2x256x256, .f32⟩
  | .hbm, ⟨17, _⟩ => ⟨S_, .f32⟩
  | .hbm, ⟨18, _⟩ => ⟨S_, .f32⟩
  | .hbm, ⟨19, _⟩ => ⟨S32x2x256x256, .f32⟩
  | .hbm, ⟨20, _⟩ => ⟨S32x2x256x256, .f32⟩
  | .hbm, ⟨21, _⟩ => ⟨S32x2x256x256, .f32⟩
  | .hbm, ⟨22, _⟩ => ⟨S32x2x256x256, .f32⟩
  | .hbm, ⟨23, _⟩ => ⟨S_, .f32⟩
  | .hbm, ⟨24, _⟩ => ⟨S_, .f32⟩
  | .hbm, ⟨25, _⟩ => ⟨S32x2x256x256, .f32⟩
  | .hbm, ⟨26, _⟩ => ⟨S32x2x256x256, .f32⟩
  | .hbm, ⟨27, _⟩ => ⟨S32x2x256x256, .f32⟩
  | .hbm, ⟨28, _⟩ => ⟨S_, .f32⟩
  | .hbm, ⟨29, _⟩ => ⟨S32x2x256x256, .f32⟩
  | .hbm, ⟨30, _⟩ => ⟨S32x2x256x256, .f32⟩
  | .hbm, ⟨31, _⟩ => ⟨S32x2x256x256, .f32⟩
  | .hbm, ⟨32, _⟩ => ⟨S32x2x256x256, .f32⟩
  | .hbm, ⟨33, _⟩ => ⟨S_, .f32⟩
  | .hbm, ⟨34, _⟩ => ⟨S2, .f32⟩
  | .hbm, ⟨35, _⟩ => ⟨S_, .f32⟩
  | .hbm, ⟨36, _⟩ => ⟨S2, .f32⟩
  | .hbm, ⟨37, _⟩ => ⟨S2, .f32⟩
  | .hbm, ⟨38, _⟩ => ⟨S2, .f32⟩
  | .hbm, ⟨39, _⟩ => ⟨S32x2x3x256x256, .f32⟩
  | .hbm, ⟨40, _⟩ => ⟨S32x2x3x256x256, .f32⟩
  | .hbm, ⟨41, _⟩ => ⟨S32x2x3x256x256, .f32⟩
  | .hbm, ⟨42, _⟩ => ⟨S32x2x3x256x256, .f32⟩
  | .hbm, ⟨43, _⟩ => ⟨S_, .f32⟩
  | .hbm, ⟨44, _⟩ => ⟨S32x2x256x256, .f32⟩
  | .hbm, ⟨45, _⟩ => ⟨S32x2x256x256, .f32⟩
  | .hbm, ⟨46, _⟩ => ⟨S_, .f32⟩
  | .hbm, ⟨47, _⟩ => ⟨S32x2x256x256, .f32⟩
  | .hbm, ⟨48, _⟩ => ⟨S32x2x256x256, .i1⟩
  | .hbm, ⟨49, _⟩ => ⟨S_, .f32⟩
  | .hbm, ⟨50, _⟩ => ⟨S_, .f32⟩
  | .hbm, ⟨51, _⟩ => ⟨S32x2x256x256, .f32⟩
  | .hbm, ⟨52, _⟩ => ⟨S32x2x256x256, .f32⟩
  | .hbm, ⟨53, _⟩ => ⟨S_, .f32⟩
  | .hbm, ⟨54, _⟩ => ⟨S32x2x256x256, .f32⟩
  | .hbm, ⟨55, _⟩ => ⟨S32x2x256x256, .i1⟩
  | .hbm, ⟨56, _⟩ => ⟨S32x2x256x256, .i32⟩
  | .hbm, ⟨57, _⟩ => ⟨S_, .i32⟩
  | .hbm, ⟨58, _⟩ => ⟨S32x2, .i32⟩
  | .hbm, ⟨59, _⟩ => ⟨S32x2, .f32⟩
  | .hbm, ⟨60, _⟩ => ⟨S_, .f32⟩
  | .hbm, ⟨61, _⟩ => ⟨S32x2, .f32⟩
  | .hbm, ⟨62, _⟩ => ⟨S_, .f32⟩
  | .hbm, ⟨63, _⟩ => ⟨S32x2, .f32⟩
  | .hbm, ⟨64, _⟩ => ⟨S_, .f32⟩
  | .hbm, ⟨65, _⟩ => ⟨S32x2, .f32⟩
  | .hbm, ⟨66, _⟩ => ⟨S32x2, .f32⟩
  | .hbm, ⟨67, _⟩ => ⟨S_, .f32⟩
  | .hbm, ⟨68, _⟩ => ⟨S32x2, .f32⟩
  | .hbm, ⟨69, _⟩ => ⟨S32x2, .i1⟩
  | .hbm, ⟨70, _⟩ => ⟨S_, .f32⟩
  | .hbm, ⟨71, _⟩ => ⟨S32x2, .f32⟩
  | .hbm, ⟨72, _⟩ => ⟨S32x2, .f32⟩
  | .hbm, ⟨73, _⟩ => ⟨S32x2, .f32⟩
  | .hbm, ⟨74, _⟩ => ⟨S32x2, .f32⟩
  | .hbm, ⟨75, _⟩ => ⟨S_, .f32⟩
  | .hbm, ⟨76, _⟩ => ⟨S2, .f32⟩
  | .hbm, ⟨77, _⟩ => ⟨S_, .f32⟩
  | .hbm, ⟨78, _⟩ => ⟨S2, .f32⟩
  | .hbm, ⟨79, _⟩ => ⟨S2, .f32⟩
  | .hbm, ⟨80, _⟩ => ⟨S_, .f32⟩
  | .hbm, ⟨81, _⟩ => ⟨S2, .f32⟩
  | .hbm, ⟨82, _⟩ => ⟨S2, .f32⟩
  | .hbm, ⟨83, _⟩ => ⟨S_, .f32⟩
  | .hbm, ⟨84, _⟩ => ⟨S2, .f32⟩
  | .hbm, ⟨85, _⟩ => ⟨S2, .f32⟩
  | .hbm, ⟨86, _⟩ => ⟨S2, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S32x8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call1_v0 : Ref sig .tc := ⟨.hbm, 24, rfl⟩
abbrev main_call1_v1 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_call2_v0 : Ref sig .tc := ⟨.hbm, 50, rfl⟩
abbrev main_call2_v1 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_cst_11 : Ref sig .tc := ⟨.hbm, 62, rfl⟩
abbrev main_v41 : Ref sig .tc := ⟨.hbm, 63, rfl⟩
abbrev main_cst_12 : Ref sig .tc := ⟨.hbm, 64, rfl⟩
abbrev main_v42 : Ref sig .tc := ⟨.hbm, 65, rfl⟩
abbrev main_v43 : Ref sig .tc := ⟨.hbm, 66, rfl⟩
abbrev main_cst_13 : Ref sig .tc := ⟨.hbm, 67, rfl⟩
abbrev main_v44 : Ref sig .tc := ⟨.hbm, 68, rfl⟩
abbrev main_v45 : Ref sig .tc := ⟨.hbm, 69, rfl⟩
abbrev main_cst_14 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_15 : Ref sig .tc := ⟨.hbm, 75, rfl⟩
abbrev main_v50 : Ref sig .tc := ⟨.hbm, 76, rfl⟩
abbrev main_cst_16 : Ref sig .tc := ⟨.hbm, 77, rfl⟩
abbrev main_v51 : Ref sig .tc := ⟨.hbm, 78, rfl⟩
abbrev main_v52 : Ref sig .tc := ⟨.hbm, 79, rfl⟩
abbrev main_cst_17 : Ref sig .tc := ⟨.hbm, 80, rfl⟩
abbrev main_v53 : Ref sig .tc := ⟨.hbm, 81, rfl⟩
abbrev main_v54 : Ref sig .tc := ⟨.hbm, 82, rfl⟩
abbrev main_cst_18 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_19 : Ref sig .tc := ⟨.hbm, 87, rfl⟩
abbrev main_v58 : Ref sig .tc := ⟨.hbm, 88, rfl⟩
abbrev main_cst_20 : Ref sig .tc := ⟨.hbm, 89, rfl⟩
abbrev main_v59 : Ref sig .tc := ⟨.hbm, 90, rfl⟩

abbrev nD : Nat := 1
abbrev τ : Topo := Topo.v7x

variable {F : FTy → Type} [FloatOps F]

class Facts₀ : Prop where
  shapeCasts_S32x8x256x256_S32x2x4x256x256 : S32x8x256x256.ShapeCasts S32x2x4x256x256
  slices_S32x2x4x256x256_S32x2x1x256x256_0_0_3_0_0 : S32x2x4x256x256.Slices ![0, 0, 3, 0, 0] S32x2x1x256x256
  shapeCasts_S32x2x1x256x256_S32x2x256x256 : S32x2x1x256x256.ShapeCasts S32x2x256x256
  bcast_S_S32x2x256x256 : S_.BroadcastsInDim S32x2x256x256 (![] : Fin 0 → Fin S32x2x256x256.rank)
  reducesTo_S32x2x256x256_S2_d0_2_3 : S32x2x256x256.ReducesTo [0, 2, 3] S2
  h_S_ : 0 < S_.numel
  bcast_S_S2 : S_.BroadcastsInDim S2 (![] : Fin 0 → Fin S2.rank)
  slices_S32x2x4x256x256_S32x2x3x256x256_0_0_0_0_0 : S32x2x4x256x256.Slices ![0, 0, 0, 0, 0] S32x2x3x256x256
  reducesTo_S32x2x3x256x256_S32x2x256x256_d2 : S32x2x3x256x256.ReducesTo [2] S32x2x256x256
  natLt_1_32 : 1 < 32
  reducesTo_S32x2x256x256_S32x2_d2_3 : S32x2x256x256.ReducesTo [2, 3] S32x2
  bcast_S_S32x2 : S_.BroadcastsInDim S32x2 (![] : Fin 0 → Fin S32x2.rank)
  reducesTo_S32x2_S2_d0 : S32x2.ReducesTo [0] S2
  reducesTo_S2_S_d0 : S2.ReducesTo [0] S_

variable [Facts₀]

class Facts : Prop extends Facts₀ where

variable [Facts]
-- ==== Proof.FrameKernel.Conds.lean ====
/-
  The kernel body's three branches as conditions on the grid point, and the memory the body is handed.

  The grid is 2 × 8: point t has coordinates (t / 8, t % 8); the second coordinate h walks the eight row-blocks
  of one half of the batch. The body branches three times on h: "h = 0" (the four accumulators are overwritten
  with this block's sums), "h ≠ 0" (the block's sums are added to them), "h = 7" (the accumulators are copied to
  the four output blocks). So a point is in one of three cases:
    A  h = 0        first, not second, not third
    B  0 < h < 7    not first, second, not third
    C  h = 7        not first, second, third
  The four output windows are stored only in case C; elsewhere they are idle and not written back.
-/
import proofs.«148723_j17265768529972_2_alg».proof.Proof.Gen.Kernel.Launch
import proofs.«148723_j17265768529972_2_alg».proof.Proof.Gen.Kernel.Skeleton
import proofs.«148723_j17265768529972_2_alg».proof.Proof.Gen.Kernel.Points
import proofs.«148723_j17265768529972_2_alg».proof.Proof.Gen.Kernel.Frame

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The conditions -/

/-- "h = 0", as the body computes it from the second grid coordinate. -/
abbrev isFirst (i : grid0.Coords) : Prop :=
  (Scalar.cmpi .ne (Scalar.extui (Scalar.cmpi .eq (BitVec.ofNat 32 (i 1).val) 0#32)) 0#32) = 1#1
/-- "h ≠ 0". -/
abbrev isLater (i : grid0.Coords) : Prop :=
  (Scalar.cmpi .ne (Scalar.extui (Scalar.cmpi .ne (BitVec.ofNat 32 (i 1).val) 0#32)) 0#32) = 1#1
/-- "h = 7": the last row-block. -/
abbrev isLast (i : grid0.Coords) : Prop := k0_cond3 i = 1#1

theorem isFirst_iff : ∀ t : Fin cfg0.N, isFirst (grid0.coords t) ↔ t.val % 8 = 0 :=
  (by decide +kernel : ∀ t : Fin grid0.N, isFirst (grid0.coords t) ↔ t.val % 8 = 0)
theorem isLater_iff : ∀ t : Fin cfg0.N, isLater (grid0.coords t) ↔ ¬ t.val % 8 = 0 :=
  (by decide +kernel : ∀ t : Fin grid0.N, isLater (grid0.coords t) ↔ ¬ t.val % 8 = 0)
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel

/-- Off the last row-block an output window is idle … -/
theorem idle_out : ∀ t : Fin cfg0.N, ¬ isLast (grid0.coords t) →
    cfg0.idle 2 (grid0.coords t) = true ∧ cfg0.idle 3 (grid0.coords t) = true
      ∧ cfg0.idle 4 (grid0.coords t) = true ∧ cfg0.idle 5 (grid0.coords t) = true := by decide +kernel
/-- … and is not written back; -/
theorem noFlush_out : ∀ t : Fin cfg0.N, ¬ isLast (grid0.coords t) →
    (cfg0.win 2).flush t = false ∧ (cfg0.win 3).flush t = false
      ∧ (cfg0.win 4).flush t = false ∧ (cfg0.win 5).flush t = false := by decide +kernel
/-- on it, it is live. -/
theorem live_out : ∀ t : Fin cfg0.N, isLast (grid0.coords t) →
    cfg0.idle 2 (grid0.coords t) = false ∧ cfg0.idle 3 (grid0.coords t) = false
      ∧ cfg0.idle 4 (grid0.coords t) = false ∧ cfg0.idle 5 (grid0.coords t) = false := by decide +kernel

/-! ## The memory the body is handed -/

/-- One staging buffer of each output window, as a view: the contents are stated through it. -/
abbrev VO2 : View sig .tc .vmem S16x2 .f32 := (Memref.whole cc0_stg2_0 : Memref sig .tc .vmem S16x2 .f32).view
abbrev VO3 : View sig .tc .vmem S16x2 .f32 := (Memref.whole cc0_stg3_0 : Memref sig .tc .vmem S16x2 .f32).view
abbrev VO4 : View sig .tc .vmem S16x2 .f32 := (Memref.whole cc0_stg4_0 : Memref sig .tc .vmem S16x2 .f32).view
abbrev VO5 : View sig .tc .vmem S16x2 .f32 := (Memref.whole cc0_stg5_0 : Memref sig .tc .vmem S16x2 .f32).view

/-- Each window's current staging memref at point t, as the pipeline passes it, and its wholeness. -/
abbrev ms0 (t : Fin cfg0.N) : Memref sig .tc .vmem S16x8x32x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x8x32x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x2 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x2 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x2 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x2 .f32 := win0_5.stage (cfg0.slots t 5)
abbrev hs5 (t : Fin cfg0.N) : (ms5 t).IsWhole := hstage0_5 ((cfg0.slots t 5).cast nbuf0_5)

/-- The four accumulators: whole scoped buffers of the kernel's own. -/
abbrev acc0 : Memref sig .tc .vmem S16x2 .f32 := Memref.whole cc0_scratch0
abbrev acc1 : Memref sig .tc .vmem S16x2 .f32 := Memref.whole cc0_scratch1
abbrev acc2 : Memref sig .tc .vmem S16x2 .f32 := Memref.whole cc0_scratch2
abbrev acc3 : Memref sig .tc .vmem S16x2 .f32 := Memref.whole cc0_scratch3
abbrev VS0 : View sig .tc .vmem S16x2 .f32 := acc0.view
abbrev VS1 : View sig .tc .vmem S16x2 .f32 := acc1.view
abbrev VS2 : View sig .tc .vmem S16x2 .f32 := acc2.view
abbrev VS3 : View sig .tc .vmem S16x2 .f32 := acc3.view

/-- What the region is handed besides its windows: the four accumulators at some contents, and the generator register. -/
theorem PhiA_eq (c : Dev nD) :
    (Pipeline.ΦA spec0 c : sProp 𝕄)
      = iprop(iprop((∃ d, owns (c : Thread nD τ) acc0 fullShare d) ∗ (∃ d, owns (c : Thread nD τ) acc1 fullShare d)
          ∗ (∃ d, owns (c : Thread nD τ) acc2 fullShare d) ∗ (∃ d, owns (c : Thread nD τ) acc3 fullShare d)) ∗ (∃ r, prngReg c r)) := by
  unfold Pipeline.ΦA; rw [scopedRest0_eq]; simp only [acc0, acc1, acc2, acc3, owns_whole]; try rfl

end Cert.Kernel.Body

end
-- ==== Proof.FrameKernel.RunA.lean ====
/-
  The kernel body run in case A: the pieces each buffer ends with are found by the run.
-/
import proofs.«148723_j17265768529972_2_alg».proof.Proof.FrameKernel.Conds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case A (the first row-block): with the two input blocks at x0, x1, the output buffers at anything (handed back untouched) and the
    accumulators at anything, the body runs, leaves the inputs and outputs as they were and each accumulator with the pieces LS· written. -/
noncomputable def bodyRunA (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) :
    Σ' (LS0 LS1 LS2 : List (View.Piece (Elt F) S16x2 .f32)), { LS3 : List (View.Piece (Elt F) S16x2 .f32) //
      ∀ (xi2 xi3 xi4 xi5 : Vec F S16x2 .f32) (E : Set ℕ) (K : PUnit → sProp 𝕄),
        iprop(owns (c : Thread nD τ) arg2 fullShare x0
            ∗ owns (c : Thread nD τ) arg3 fullShare x1
            ∗ owns (c : Thread nD τ) arg4 fullShare xi2
            ∗ owns (c : Thread nD τ) arg5 fullShare xi3
            ∗ owns (c : Thread nD τ) arg6 fullShare xi4
            ∗ owns (c : Thread nD τ) arg7 fullShare xi5
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (iprop(owns (c : Thread nD τ) arg2 fullShare x0
                ∗ owns (c : Thread nD τ) arg3 fullShare x1
                ∗ owns (c : Thread nD τ) arg4 fullShare xi2
                ∗ owns (c : Thread nD τ) arg5 fullShare xi3
                ∗ owns (c : Thread nD τ) arg6 fullShare xi4
                ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)) -∗ K ⟨⟩))
          ⊢ wp frame (wpE (defs₀ (F := F)) Variants.none c none) E (cc0__lp_mask_stats_kernel i arg2 harg2 arg3 harg3 arg4 harg4 arg5 harg5 arg6 harg6 arg7 harg7 arg8 harg8 arg9 harg9 arg10 harg10 arg11 harg11) K } := by
  refine ⟨?_, ?_, ?_, ?_, fun xi2 xi3 xi4 xi5 E K => ?run⟩
  case run =>
    simp only [cc0__lp_mask_stats_kernel_eq_skeleton]; unfold cc0__lp_mask_stats_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.Kernel.Body

end
-- ==== Proof.FrameKernel.RunB.lean ====
/-
  The kernel body run in case B: the pieces each buffer ends with are found by the run.
-/
import proofs.«148723_j17265768529972_2_alg».proof.Proof.FrameKernel.RunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case B (a middle row-block): with the two input blocks at x0, x1, the accumulators at xs·, and the output buffers at anything (handed
    back untouched), the body runs, leaves the inputs and outputs as they were and each accumulator with the pieces LS· written. -/
noncomputable def bodyRunB (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) :
    Σ' (LS0 LS1 LS2 : List (View.Piece (Elt F) S16x2 .f32)), { LS3 : List (View.Piece (Elt F) S16x2 .f32) //
      ∀ (xi2 xi3 xi4 xi5 : Vec F S16x2 .f32) (E : Set ℕ) (K : PUnit → sProp 𝕄),
        iprop(owns (c : Thread nD τ) arg2 fullShare x0
            ∗ owns (c : Thread nD τ) arg3 fullShare x1
            ∗ owns (c : Thread nD τ) arg4 fullShare xi2
            ∗ owns (c : Thread nD τ) arg5 fullShare xi3
            ∗ owns (c : Thread nD τ) arg6 fullShare xi4
            ∗ owns (c : Thread nD τ) arg7 fullShare xi5
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ (iprop(owns (c : Thread nD τ) arg2 fullShare x0
                ∗ owns (c : Thread nD τ) arg3 fullShare x1
                ∗ owns (c : Thread nD τ) arg4 fullShare xi2
                ∗ owns (c : Thread nD τ) arg5 fullShare xi3
                ∗ owns (c : Thread nD τ) arg6 fullShare xi4
                ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)) -∗ K ⟨⟩))
          ⊢ wp frame (wpE (defs₀ (F := F)) Variants.none c none) E (cc0__lp_mask_stats_kernel i arg2 harg2 arg3 harg3 arg4 harg4 arg5 harg5 arg6 harg6 arg7 harg7 arg8 harg8 arg9 harg9 arg10 harg10 arg11 harg11) K } := by
  refine ⟨?_, ?_, ?_, ?_, fun xi2 xi3 xi4 xi5 E K => ?run⟩
  case run =>
    simp only [cc0__lp_mask_stats_kernel_eq_skeleton]; unfold cc0__lp_mask_stats_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2; obtain rfl := harg11.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.Kernel.Body

end
-- ==== Proof.FrameKernel.RunC.lean ====
/-
  The kernel body run in case C: the pieces each buffer ends with are found by the run.
-/
import proofs.«148723_j17265768529972_2_alg».proof.Proof.FrameKernel.RunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case C (the last row-block): with the two input blocks at x0, x1, the accumulators at xs·, and the output buffers at anything,
    the body runs, leaves the inputs as they were, each accumulator with the pieces LS· written and each output buffer with the pieces L· written. -/
noncomputable def bodyRunC (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) :
    Σ' (L2 L3 L4 L5 LS0 LS1 LS2 : List (View.Piece (Elt F) S16x2 .f32)), { LS3 : List (View.Piece (Elt F) S16x2 .f32) //
      ∀ (E : Set ℕ) (K : PUnit → sProp 𝕄),
        iprop(owns (c : Thread nD τ) arg2 fullShare x0
            ∗ owns (c : Thread nD τ) arg3 fullShare x1
            ∗ (∃ d, owns (c : Thread nD τ) arg4 fullShare d)
            ∗ (∃ d, owns (c : Thread nD τ) arg5 fullShare d)
            ∗ (∃ d, owns (c : Thread nD τ) arg6 fullShare d)
            ∗ (∃ d, owns (c : Thread nD τ) arg7 fullShare d)
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ (iprop(owns (c : Thread nD τ) arg2 fullShare x0
                ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)) -∗ K ⟨⟩))
          ⊢ wp frame (wpE (defs₀ (F := F)) Variants.none c none) E (cc0__lp_mask_stats_kernel i arg2 harg2 arg3 harg3 arg4 harg4 arg5 harg5 arg6 harg6 arg7 harg7 arg8 harg8 arg9 harg9 arg10 harg10 arg11 harg11) K } := by
  refine ⟨?_, ?_, ?_, ?_, ?_, ?_, ?_, ?_, fun E K => ?run⟩
  case run =>
    simp only [cc0__lp_mask_stats_kernel_eq_skeleton]; unfold cc0__lp_mask_stats_kernel_skel
    simp only [k0_part1_eq_skeleton, k0_part2_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg8.eq_unread hfs0; obtain rfl := harg9.eq_unread hfs1; obtain rfl := harg10.eq_unread hfs2; obtain rfl := harg11.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    isplitl [HS0]; · iexists _; iexact HS0
    isplitl [HS1]; · iexists _; iexact HS1
    isplitl [HS2]; · iexists _; iexact HS2
    iexists _; iexact HS3

end Cert.Kernel.Body

end
-- ==== Proof.FrameKernel.Frame.lean ====
/-
  The frame of the kernel as printed: what the four accumulators hold after each grid point, the region's invariant,
  the pipeline's proof data, the body obligation at every point, and the run of @main.

  After point t the accumulators hold: at a first row-block (t % 8 = 0) this block's four sums; at a later one what
  the point before left plus this block's sums. The four output blocks are written at the last row-block
  (t % 8 = 7) only, with what the accumulators then hold; at the other points their buffers are idle.
-/
import proofs.«148723_j17265768529972_2_alg».proof.Proof.FrameKernel.RunC

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each buffer it stores -/

/-- Case A's pieces for accumulator 0 cover it. -/
theorem scoverA_0 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) (y : S16x2.Idx) :
    ∃ pc ∈ (bodyRunA c i arg2 harg2 arg3 harg3 arg4 harg4 arg5 harg5 arg6 harg6 arg7 harg7 arg8 harg8 arg9 harg9 arg10 harg10 arg11 harg11 hc0 hc1 hc2 x0 x1).1, y ∈ pc.1.set :=
  View.cover_of_tiledL (bodyRunA c i arg2 harg2 arg3 harg3 arg4 harg4 arg5 harg5 arg6 harg6 arg7 harg7 arg8 harg8 arg9 harg9 arg10 harg10 arg11 harg11 hc0 hc1 hc2 x0 x1).1 S16x2.size (by sl_kernel_rfl) y

/-- What case A leaves in accumulator 0: its pieces read back. -/
def soutA_0 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) : Vec F S16x2 .f32 :=
  VS0.read (Elt F) (VS0.writes (Elt F) VS0.junk (bodyRunA c i arg2 harg2 arg3 harg3 arg4 harg4 arg5 harg5 arg6 harg6 arg7 harg7 arg8 harg8 arg9 harg9 arg10 harg10 arg11 harg11 hc0 hc1 hc2 x0 x1).1)

/-- Case A's pieces for accumulator 1 cover it. -/
theorem scoverA_1 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) (y : S16x2.Idx) :
    ∃ pc ∈ (bodyRunA c i arg2 harg2 arg3 harg3 arg4 harg4 arg5 harg5 arg6 harg6 arg7 harg7 arg8 harg8 arg9 harg9 arg10 harg10 arg11 harg11 hc0 hc1 hc2 x0 x1).2.1, y ∈ pc.1.set :=
  View.cover_of_tiledL (bodyRunA c i arg2 harg2 arg3 harg3 arg4 harg4 arg5 harg5 arg6 harg6 arg7 harg7 arg8 harg8 arg9 harg9 arg10 harg10 arg11 harg11 hc0 hc1 hc2 x0 x1).2.1 S16x2.size (by sl_kernel_rfl) y

/-- What case A leaves in accumulator 1: its pieces read back. -/
def soutA_1 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) : Vec F S16x2 .f32 :=
  VS1.read (Elt F) (VS1.writes (Elt F) VS1.junk (bodyRunA c i arg2 harg2 arg3 harg3 arg4 harg4 arg5 harg5 arg6 harg6 arg7 harg7 arg8 harg8 arg9 harg9 arg10 harg10 arg11 harg11 hc0 hc1 hc2 x0 x1).2.1)

/-- Case A's pieces for accumulator 2 cover it. -/
theorem scoverA_2 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) (y : S16x2.Idx) :
    ∃ pc ∈ (bodyRunA c i arg2 harg2 arg3 harg3 arg4 harg4 arg5 harg5 arg6 harg6 arg7 harg7 arg8 harg8 arg9 harg9 arg10 harg10 arg11 harg11 hc0 hc1 hc2 x0 x1).2.2.1, y ∈ pc.1.set :=
  View.cover_of_tiledL (bodyRunA c i arg2 harg2 arg3 harg3 arg4 harg4 arg5 harg5 arg6 harg6 arg7 harg7 arg8 harg8 arg9 harg9 arg10 harg10 arg11 harg11 hc0 hc1 hc2 x0 x1).2.2.1 S16x2.size (by sl_kernel_rfl) y

/-- What case A leaves in accumulator 2: its pieces read back. -/
def soutA_2 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) : Vec F S16x2 .f32 :=
  VS2.read (Elt F) (VS2.writes (Elt F) VS2.junk (bodyRunA c i arg2 harg2 arg3 harg3 arg4 harg4 arg5 harg5 arg6 harg6 arg7 harg7 arg8 harg8 arg9 harg9 arg10 harg10 arg11 harg11 hc0 hc1 hc2 x0 x1).2.2.1)

/-- Case A's pieces for accumulator 3 cover it. -/
theorem scoverA_3 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) (y : S16x2.Idx) :
    ∃ pc ∈ (bodyRunA c i arg2 harg2 arg3 harg3 arg4 harg4 arg5 harg5 arg6 harg6 arg7 harg7 arg8 harg8 arg9 harg9 arg10 harg10 arg11 harg11 hc0 hc1 hc2 x0 x1).2.2.2.1, y ∈ pc.1.set :=
  View.cover_of_tiledL (bodyRunA c i arg2 harg2 arg3 harg3 arg4 harg4 arg5 harg5 arg6 harg6 arg7 harg7 arg8 harg8 arg9 harg9 arg10 harg10 arg11 harg11 hc0 hc1 hc2 x0 x1).2.2.2.1 S16x2.size (by sl_kernel_rfl) y

/-- What case A leaves in accumulator 3: its pieces read back. -/
def soutA_3 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) : Vec F S16x2 .f32 :=
  VS3.read (Elt F) (VS3.writes (Elt F) VS3.junk (bodyRunA c i arg2 harg2 arg3 harg3 arg4 harg4 arg5 harg5 arg6 harg6 arg7 harg7 arg8 harg8 arg9 harg9 arg10 harg10 arg11 harg11 hc0 hc1 hc2 x0 x1).2.2.2.1)

/-- Case B's pieces for accumulator 0 cover it. -/
theorem scoverB_0 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) (y : S16x2.Idx) :
    ∃ pc ∈ (bodyRunB c i arg2 harg2 arg3 harg3 arg4 harg4 arg5 harg5 arg6 harg6 arg7 harg7 arg8 harg8 arg9 harg9 arg10 harg10 arg11 harg11 hc0 hc1 hc2 x0 x1 xs0 xs1 xs2 xs3).1, y ∈ pc.1.set :=
  View.cover_of_tiledL (bodyRunB c i arg2 harg2 arg3 harg3 arg4 harg4 arg5 harg5 arg6 harg6 arg7 harg7 arg8 harg8 arg9 harg9 arg10 harg10 arg11 harg11 hc0 hc1 hc2 x0 x1 xs0 xs1 xs2 xs3).1 S16x2.size (by sl_kernel_rfl) y

/-- What case B leaves in accumulator 0: its pieces read back. -/
def soutB_0 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) : Vec F S16x2 .f32 :=
  VS0.read (Elt F) (VS0.writes (Elt F) VS0.junk (bodyRunB c i arg2 harg2 arg3 harg3 arg4 harg4 arg5 harg5 arg6 harg6 arg7 harg7 arg8 harg8 arg9 harg9 arg10 harg10 arg11 harg11 hc0 hc1 hc2 x0 x1 xs0 xs1 xs2 xs3).1)

/-- Case B's pieces for accumulator 1 cover it. -/
theorem scoverB_1 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) (y : S16x2.Idx) :
    ∃ pc ∈ (bodyRunB c i arg2 harg2 arg3 harg3 arg4 harg4 arg5 harg5 arg6 harg6 arg7 harg7 arg8 harg8 arg9 harg9 arg10 harg10 arg11 harg11 hc0 hc1 hc2 x0 x1 xs0 xs1 xs2 xs3).2.1, y ∈ pc.1.set :=
  View.cover_of_tiledL (bodyRunB c i arg2 harg2 arg3 harg3 arg4 harg4 arg5 harg5 arg6 harg6 arg7 harg7 arg8 harg8 arg9 harg9 arg10 harg10 arg11 harg11 hc0 hc1 hc2 x0 x1 xs0 xs1 xs2 xs3).2.1 S16x2.size (by sl_kernel_rfl) y

/-- What case B leaves in accumulator 1: its pieces read back. -/
def soutB_1 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) : Vec F S16x2 .f32 :=
  VS1.read (Elt F) (VS1.writes (Elt F) VS1.junk (bodyRunB c i arg2 harg2 arg3 harg3 arg4 harg4 arg5 harg5 arg6 harg6 arg7 harg7 arg8 harg8 arg9 harg9 arg10 harg10 arg11 harg11 hc0 hc1 hc2 x0 x1 xs0 xs1 xs2 xs3).2.1)

/-- Case B's pieces for accumulator 2 cover it. -/
theorem scoverB_2 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) (y : S16x2.Idx) :
    ∃ pc ∈ (bodyRunB c i arg2 harg2 arg3 harg3 arg4 harg4 arg5 harg5 arg6 harg6 arg7 harg7 arg8 harg8 arg9 harg9 arg10 harg10 arg11 harg11 hc0 hc1 hc2 x0 x1 xs0 xs1 xs2 xs3).2.2.1, y ∈ pc.1.set :=
  View.cover_of_tiledL (bodyRunB c i arg2 harg2 arg3 harg3 arg4 harg4 arg5 harg5 arg6 harg6 arg7 harg7 arg8 harg8 arg9 harg9 arg10 harg10 arg11 harg11 hc0 hc1 hc2 x0 x1 xs0 xs1 xs2 xs3).2.2.1 S16x2.size (by sl_kernel_rfl) y

/-- What case B leaves in accumulator 2: its pieces read back. -/
def soutB_2 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) : Vec F S16x2 .f32 :=
  VS2.read (Elt F) (VS2.writes (Elt F) VS2.junk (bodyRunB c i arg2 harg2 arg3 harg3 arg4 harg4 arg5 harg5 arg6 harg6 arg7 harg7 arg8 harg8 arg9 harg9 arg10 harg10 arg11 harg11 hc0 hc1 hc2 x0 x1 xs0 xs1 xs2 xs3).2.2.1)

/-- Case B's pieces for accumulator 3 cover it. -/
theorem scoverB_3 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) (y : S16x2.Idx) :
    ∃ pc ∈ (bodyRunB c i arg2 harg2 arg3 harg3 arg4 harg4 arg5 harg5 arg6 harg6 arg7 harg7 arg8 harg8 arg9 harg9 arg10 harg10 arg11 harg11 hc0 hc1 hc2 x0 x1 xs0 xs1 xs2 xs3).2.2.2.1, y ∈ pc.1.set :=
  View.cover_of_tiledL (bodyRunB c i arg2 harg2 arg3 harg3 arg4 harg4 arg5 harg5 arg6 harg6 arg7 harg7 arg8 harg8 arg9 harg9 arg10 harg10 arg11 harg11 hc0 hc1 hc2 x0 x1 xs0 xs1 xs2 xs3).2.2.2.1 S16x2.size (by sl_kernel_rfl) y

/-- What case B leaves in accumulator 3: its pieces read back. -/
def soutB_3 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) : Vec F S16x2 .f32 :=
  VS3.read (Elt F) (VS3.writes (Elt F) VS3.junk (bodyRunB c i arg2 harg2 arg3 harg3 arg4 harg4 arg5 harg5 arg6 harg6 arg7 harg7 arg8 harg8 arg9 harg9 arg10 harg10 arg11 harg11 hc0 hc1 hc2 x0 x1 xs0 xs1 xs2 xs3).2.2.2.1)

/-- Case C's pieces for accumulator 0 cover it. -/
theorem scoverC_0 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) (y : S16x2.Idx) :
    ∃ pc ∈ (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.1, y ∈ pc.1.set :=
  View.cover_of_tiledL (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.1 S16x2.size (by sl_kernel_rfl) y

/-- What case C leaves in accumulator 0: its pieces read back. -/
def soutC_0 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) : Vec F S16x2 .f32 :=
  VS0.read (Elt F) (VS0.writes (Elt F) VS0.junk (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.1)

/-- Case C's pieces for accumulator 1 cover it. -/
theorem scoverC_1 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) (y : S16x2.Idx) :
    ∃ pc ∈ (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.2.1, y ∈ pc.1.set :=
  View.cover_of_tiledL (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.2.1 S16x2.size (by sl_kernel_rfl) y

/-- What case C leaves in accumulator 1: its pieces read back. -/
def soutC_1 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) : Vec F S16x2 .f32 :=
  VS1.read (Elt F) (VS1.writes (Elt F) VS1.junk (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.2.1)

/-- Case C's pieces for accumulator 2 cover it. -/
theorem scoverC_2 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) (y : S16x2.Idx) :
    ∃ pc ∈ (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.2.2.1, y ∈ pc.1.set :=
  View.cover_of_tiledL (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.2.2.1 S16x2.size (by sl_kernel_rfl) y

/-- What case C leaves in accumulator 2: its pieces read back. -/
def soutC_2 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) : Vec F S16x2 .f32 :=
  VS2.read (Elt F) (VS2.writes (Elt F) VS2.junk (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.2.2.1)

/-- Case C's pieces for accumulator 3 cover it. -/
theorem scoverC_3 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) (y : S16x2.Idx) :
    ∃ pc ∈ (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.2.2.2.1, y ∈ pc.1.set :=
  View.cover_of_tiledL (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.2.2.2.1 S16x2.size (by sl_kernel_rfl) y

/-- What case C leaves in accumulator 3: its pieces read back. -/
def soutC_3 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) : Vec F S16x2 .f32 :=
  VS3.read (Elt F) (VS3.writes (Elt F) VS3.junk (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.2.2.2.1)

/-- Case C's pieces for output window 2 cover its block. -/
theorem coverC_2 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) (y : S16x2.Idx) :
    ∃ pc ∈ (bodyRunC c i arg2 harg2 arg3 harg3 arg4 harg4 arg5 harg5 arg6 harg6 arg7 harg7 arg8 harg8 arg9 harg9 arg10 harg10 arg11 harg11 hc0 hc1 hc2 x0 x1 xs0 xs1 xs2 xs3).1, y ∈ pc.1.set :=
  View.cover_of_tiledL (bodyRunC c i arg2 harg2 arg3 harg3 arg4 harg4 arg5 harg5 arg6 harg6 arg7 harg7 arg8 harg8 arg9 harg9 arg10 harg10 arg11 harg11 hc0 hc1 hc2 x0 x1 xs0 xs1 xs2 xs3).1 S16x2.size (by sl_kernel_rfl) y

/-- What case C leaves in output window 2's staging buffer. -/
def outC_2 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) : Vec F S16x2 .f32 :=
  VO2.read (Elt F) (VO2.writes (Elt F) VO2.junk (bodyRunC c i arg2 harg2 arg3 harg3 arg4 harg4 arg5 harg5 arg6 harg6 arg7 harg7 arg8 harg8 arg9 harg9 arg10 harg10 arg11 harg11 hc0 hc1 hc2 x0 x1 xs0 xs1 xs2 xs3).1)

/-- Case C's pieces for output window 3 cover its block. -/
theorem coverC_3 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) (y : S16x2.Idx) :
    ∃ pc ∈ (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.1, y ∈ pc.1.set :=
  View.cover_of_tiledL (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.1 S16x2.size (by sl_kernel_rfl) y

/-- What case C leaves in output window 3's staging buffer. -/
def outC_3 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) : Vec F S16x2 .f32 :=
  VO3.read (Elt F) (VO3.writes (Elt F) VO3.junk (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.1)

/-- Case C's pieces for output window 4 cover its block. -/
theorem coverC_4 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) (y : S16x2.Idx) :
    ∃ pc ∈ (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.1, y ∈ pc.1.set :=
  View.cover_of_tiledL (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.1 S16x2.size (by sl_kernel_rfl) y

/-- What case C leaves in output window 4's staging buffer. -/
def outC_4 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) : Vec F S16x2 .f32 :=
  VO4.read (Elt F) (VO4.writes (Elt F) VO4.junk (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.1)

/-- Case C's pieces for output window 5 cover its block. -/
theorem coverC_5 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) (y : S16x2.Idx) :
    ∃ pc ∈ (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.1, y ∈ pc.1.set :=
  View.cover_of_tiledL (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.1 S16x2.size (by sl_kernel_rfl) y

/-- What case C leaves in output window 5's staging buffer. -/
def outC_5 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) : Vec F S16x2 .f32 :=
  VO5.read (Elt F) (VO5.writes (Elt F) VO5.junk (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.1)

/-! ## The case of a point -/

theorem hypA (t : Fin cfg0.N) (h0 : t.val % 8 = 0) :
    isFirst (grid0.coords t) ∧ ¬ isLater (grid0.coords t) ∧ ¬ isLast (grid0.coords t) :=
  ⟨(isFirst_iff t).mpr h0, fun h => (isLater_iff t).mp h h0, fun h => by have := (isLast_iff t).mp h; omega⟩
theorem hypB (t : Fin cfg0.N) (h0 : ¬ t.val % 8 = 0) (h7 : ¬ t.val % 8 = 7) :
    ¬ isFirst (grid0.coords t) ∧ isLater (grid0.coords t) ∧ ¬ isLast (grid0.coords t) :=
  ⟨fun h => h0 ((isFirst_iff t).mp h), (isLater_iff t).mpr h0, fun h => h7 ((isLast_iff t).mp h)⟩
theorem hypC (t : Fin cfg0.N) (h7 : t.val % 8 = 7) :
    ¬ isFirst (grid0.coords t) ∧ isLater (grid0.coords t) ∧ isLast (grid0.coords t) :=
  ⟨fun h => by have := (isFirst_iff t).mp h; omega, (isLater_iff t).mpr (by omega), (isLast_iff t).mpr h7⟩

/-! ## What the accumulators hold after each point -/

/-- The four accumulators after the body at position n: this block's sums at a first row-block, else the point before's
    contents with this block's sums added. -/
def accAt (c : Dev nD) : (n : ℕ) → n < cfg0.N → Vec F S16x2 .f32 × Vec F S16x2 .f32 × Vec F S16x2 .f32 × Vec F S16x2 .f32
  | 0, hn => (soutA_0 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) acc0 (Memref.isWhole_whole _) acc1 (Memref.isWhole_whole _) acc2 (Memref.isWhole_whole _) acc3 (Memref.isWhole_whole _) (hypA ⟨0, hn⟩ (Nat.zero_mod _)).1 (hypA ⟨0, hn⟩ (Nat.zero_mod _)).2.1 (hypA ⟨0, hn⟩ (Nat.zero_mod _)).2.2 (Gen.iblk m c 0 ⟨0, hn⟩) (Gen.iblk m c 1 ⟨0, hn⟩),
        soutA_1 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) acc0 (Memref.isWhole_whole _) acc1 (Memref.isWhole_whole _) acc2 (Memref.isWhole_whole _) acc3 (Memref.isWhole_whole _) (hypA ⟨0, hn⟩ (Nat.zero_mod _)).1 (hypA ⟨0, hn⟩ (Nat.zero_mod _)).2.1 (hypA ⟨0, hn⟩ (Nat.zero_mod _)).2.2 (Gen.iblk m c 0 ⟨0, hn⟩) (Gen.iblk m c 1 ⟨0, hn⟩),
        soutA_2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) acc0 (Memref.isWhole_whole _) acc1 (Memref.isWhole_whole _) acc2 (Memref.isWhole_whole _) acc3 (Memref.isWhole_whole _) (hypA ⟨0, hn⟩ (Nat.zero_mod _)).1 (hypA ⟨0, hn⟩ (Nat.zero_mod _)).2.1 (hypA ⟨0, hn⟩ (Nat.zero_mod _)).2.2 (Gen.iblk m c 0 ⟨0, hn⟩) (Gen.iblk m c 1 ⟨0, hn⟩),
        soutA_3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) acc0 (Memref.isWhole_whole _) acc1 (Memref.isWhole_whole _) acc2 (Memref.isWhole_whole _) acc3 (Memref.isWhole_whole _) (hypA ⟨0, hn⟩ (Nat.zero_mod _)).1 (hypA ⟨0, hn⟩ (Nat.zero_mod _)).2.1 (hypA ⟨0, hn⟩ (Nat.zero_mod _)).2.2 (Gen.iblk m c 0 ⟨0, hn⟩) (Gen.iblk m c 1 ⟨0, hn⟩))
  | n + 1, hn =>
    if h0 : (n + 1) % 8 = 0 then
      (soutA_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypA ⟨n + 1, hn⟩ h0).1 (hypA ⟨n + 1, hn⟩ h0).2.1 (hypA ⟨n + 1, hn⟩ h0).2.2 (Gen.iblk m c 0 ⟨n + 1, hn⟩) (Gen.iblk m c 1 ⟨n + 1, hn⟩),
        soutA_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypA ⟨n + 1, hn⟩ h0).1 (hypA ⟨n + 1, hn⟩ h0).2.1 (hypA ⟨n + 1, hn⟩ h0).2.2 (Gen.iblk m c 0 ⟨n + 1, hn⟩) (Gen.iblk m c 1 ⟨n + 1, hn⟩),
        soutA_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypA ⟨n + 1, hn⟩ h0).1 (hypA ⟨n + 1, hn⟩ h0).2.1 (hypA ⟨n + 1, hn⟩ h0).2.2 (Gen.iblk m c 0 ⟨n + 1, hn⟩) (Gen.iblk m c 1 ⟨n + 1, hn⟩),
        soutA_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypA ⟨n + 1, hn⟩ h0).1 (hypA ⟨n + 1, hn⟩ h0).2.1 (hypA ⟨n + 1, hn⟩ h0).2.2 (Gen.iblk m c 0 ⟨n + 1, hn⟩) (Gen.iblk m c 1 ⟨n + 1, hn⟩))
    else if h7 : (n + 1) % 8 = 7 then
      (soutC_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypC ⟨n + 1, hn⟩ h7).1 (hypC ⟨n + 1, hn⟩ h7).2.1 (hypC ⟨n + 1, hn⟩ h7).2.2 (Gen.iblk m c 0 ⟨n + 1, hn⟩) (Gen.iblk m c 1 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        soutC_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypC ⟨n + 1, hn⟩ h7).1 (hypC ⟨n + 1, hn⟩ h7).2.1 (hypC ⟨n + 1, hn⟩ h7).2.2 (Gen.iblk m c 0 ⟨n + 1, hn⟩) (Gen.iblk m c 1 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        soutC_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypC ⟨n + 1, hn⟩ h7).1 (hypC ⟨n + 1, hn⟩ h7).2.1 (hypC ⟨n + 1, hn⟩ h7).2.2 (Gen.iblk m c 0 ⟨n + 1, hn⟩) (Gen.iblk m c 1 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        soutC_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypC ⟨n + 1, hn⟩ h7).1 (hypC ⟨n + 1, hn⟩ h7).2.1 (hypC ⟨n + 1, hn⟩ h7).2.2 (Gen.iblk m c 0 ⟨n + 1, hn⟩) (Gen.iblk m c 1 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2)
    else
      (soutB_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypB ⟨n + 1, hn⟩ h0 h7).1 (hypB ⟨n + 1, hn⟩ h0 h7).2.1 (hypB ⟨n + 1, hn⟩ h0 h7).2.2 (Gen.iblk m c 0 ⟨n + 1, hn⟩) (Gen.iblk m c 1 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        soutB_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypB ⟨n + 1, hn⟩ h0 h7).1 (hypB ⟨n + 1, hn⟩ h0 h7).2.1 (hypB ⟨n + 1, hn⟩ h0 h7).2.2 (Gen.iblk m c 0 ⟨n + 1, hn⟩) (Gen.iblk m c 1 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        soutB_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypB ⟨n + 1, hn⟩ h0 h7).1 (hypB ⟨n + 1, hn⟩ h0 h7).2.1 (hypB ⟨n + 1, hn⟩ h0 h7).2.2 (Gen.iblk m c 0 ⟨n + 1, hn⟩) (Gen.iblk m c 1 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        soutB_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypB ⟨n + 1, hn⟩ h0 h7).1 (hypB ⟨n + 1, hn⟩ h0 h7).2.1 (hypB ⟨n + 1, hn⟩ h0 h7).2.2 (Gen.iblk m c 0 ⟨n + 1, hn⟩) (Gen.iblk m c 1 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2)

/-- The point before's accumulators (at the first point: anything). -/
abbrev accPrev (c : Dev nD) (t : Fin cfg0.N) : Vec F S16x2 .f32 × Vec F S16x2 .f32 × Vec F S16x2 .f32 × Vec F S16x2 .f32 :=
  accAt m c (t.val - 1) (Nat.lt_of_le_of_lt (Nat.sub_le _ _) t.isLt)

theorem accAt_A (c : Dev nD) (t : Fin cfg0.N) (h0 : t.val % 8 = 0) :
    accAt m c t.val t.isLt = (soutA_0 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypA t h0).1 (hypA t h0).2.1 (hypA t h0).2.2 (Gen.iblk m c 0 t) (Gen.iblk m c 1 t),
        soutA_1 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypA t h0).1 (hypA t h0).2.1 (hypA t h0).2.2 (Gen.iblk m c 0 t) (Gen.iblk m c 1 t),
        soutA_2 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypA t h0).1 (hypA t h0).2.1 (hypA t h0).2.2 (Gen.iblk m c 0 t) (Gen.iblk m c 1 t),
        soutA_3 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypA t h0).1 (hypA t h0).2.1 (hypA t h0).2.2 (Gen.iblk m c 0 t) (Gen.iblk m c 1 t)) := by
  obtain ⟨n, hn⟩ := t
  cases n with
  | zero => exact rfl
  | succ n => exact (dif_pos h0).trans rfl

theorem accAt_B (c : Dev nD) (t : Fin cfg0.N) (h0 : ¬ t.val % 8 = 0) (h7 : ¬ t.val % 8 = 7) :
    accAt m c t.val t.isLt = (soutB_0 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypB t h0 h7).1 (hypB t h0 h7).2.1 (hypB t h0 h7).2.2 (Gen.iblk m c 0 t) (Gen.iblk m c 1 t) (accPrev m c t).1 (accPrev m c t).2.1 (accPrev m c t).2.2.1 (accPrev m c t).2.2.2,
        soutB_1 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypB t h0 h7).1 (hypB t h0 h7).2.1 (hypB t h0 h7).2.2 (Gen.iblk m c 0 t) (Gen.iblk m c 1 t) (accPrev m c t).1 (accPrev m c t).2.1 (accPrev m c t).2.2.1 (accPrev m c t).2.2.2,
        soutB_2 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypB t h0 h7).1 (hypB t h0 h7).2.1 (hypB t h0 h7).2.2 (Gen.iblk m c 0 t) (Gen.iblk m c 1 t) (accPrev m c t).1 (accPrev m c t).2.1 (accPrev m c t).2.2.1 (accPrev m c t).2.2.2,
        soutB_3 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypB t h0 h7).1 (hypB t h0 h7).2.1 (hypB t h0 h7).2.2 (Gen.iblk m c 0 t) (Gen.iblk m c 1 t) (accPrev m c t).1 (accPrev m c t).2.1 (accPrev m c t).2.2.1 (accPrev m c t).2.2.2) := by
  obtain ⟨n, hn⟩ := t
  cases n with
  | zero => exact (by exfalso; (try dsimp only at h0); exact absurd (Nat.zero_mod _) h0)
  | succ n => exact (dif_neg h0).trans ((dif_neg h7).trans rfl)

theorem accAt_C (c : Dev nD) (t : Fin cfg0.N) (h7 : t.val % 8 = 7) :
    accAt m c t.val t.isLt = (soutC_0 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2,
        soutC_1 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2,
        soutC_2 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2,
        soutC_3 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2) := by
  obtain ⟨n, hn⟩ := t
  cases n with
  | zero => exact (by exfalso; (try dsimp only at h7); omega)
  | succ n => exact (dif_neg (by (try dsimp only at h7); omega)).trans ((dif_pos h7).trans rfl)

/-- What output window 2's staging buffer holds after the body at point t: at a last row-block what case C stores
    (the accumulator's contents there); elsewhere the buffer is idle and this value is never consulted. -/
def out2At (c : Dev nD) (t : Fin cfg0.N) : Vec F S16x2 .f32 :=
  if h7 : t.val % 8 = 7 then outC_2 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2
  else VO2.read (Elt F) VO2.junk

theorem out2At_C (c : Dev nD) (t : Fin cfg0.N) (h7 : t.val % 8 = 7) :
    out2At m c t = outC_2 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2 := dif_pos h7

/-- What output window 3's staging buffer holds after the body at point t: at a last row-block what case C stores
    (the accumulator's contents there); elsewhere the buffer is idle and this value is never consulted. -/
def out3At (c : Dev nD) (t : Fin cfg0.N) : Vec F S16x2 .f32 :=
  if h7 : t.val % 8 = 7 then outC_3 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2
  else VO3.read (Elt F) VO3.junk

theorem out3At_C (c : Dev nD) (t : Fin cfg0.N) (h7 : t.val % 8 = 7) :
    out3At m c t = outC_3 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2 := dif_pos h7

/-- What output window 4's staging buffer holds after the body at point t: at a last row-block what case C stores
    (the accumulator's contents there); elsewhere the buffer is idle and this value is never consulted. -/
def out4At (c : Dev nD) (t : Fin cfg0.N) : Vec F S16x2 .f32 :=
  if h7 : t.val % 8 = 7 then outC_4 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2
  else VO4.read (Elt F) VO4.junk

theorem out4At_C (c : Dev nD) (t : Fin cfg0.N) (h7 : t.val % 8 = 7) :
    out4At m c t = outC_4 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2 := dif_pos h7

/-- What output window 5's staging buffer holds after the body at point t: at a last row-block what case C stores
    (the accumulator's contents there); elsewhere the buffer is idle and this value is never consulted. -/
def out5At (c : Dev nD) (t : Fin cfg0.N) : Vec F S16x2 .f32 :=
  if h7 : t.val % 8 = 7 then outC_5 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2
  else VO5.read (Elt F) VO5.junk

theorem out5At_C (c : Dev nD) (t : Fin cfg0.N) (h7 : t.val % 8 = 7) :
    out5At m c t = outC_5 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2 := dif_pos h7

/-! ## The region's invariant -/

/-- Before position n: at the start what the region is handed (the accumulators at anything); afterwards the accumulators at
    what the point before left, and the generator register at some state. -/
def PhiS (c : Dev nD) : (n : ℕ) → n ≤ cfg0.N → sProp 𝕄
  | 0, _ => Pipeline.ΦA spec0 c
  | n + 1, hn => iprop(iprop(owns (c : Thread nD τ) acc0 fullShare ((accAt m c n hn).1) ∗ owns (c : Thread nD τ) acc1 fullShare ((accAt m c n hn).2.1) ∗ owns (c : Thread nD τ) acc2 fullShare ((accAt m c n hn).2.2.1) ∗ owns (c : Thread nD τ) acc3 fullShare ((accAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) acc0 fullShare ((accAt m c n hn).1) ∗ owns (c : Thread nD τ) acc1 fullShare ((accAt m c n hn).2.1) ∗ owns (c : Thread nD τ) acc2 fullShare ((accAt m c n hn).2.2.1) ∗ owns (c : Thread nD τ) acc3 fullShare ((accAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) acc0 fullShare ((accAt m c (n - 1) (by omega)).1) ∗ owns (c : Thread nD τ) acc1 fullShare ((accAt m c (n - 1) (by omega)).2.1) ∗ owns (c : Thread nD τ) acc2 fullShare ((accAt m c (n - 1) (by omega)).2.2.1) ∗ owns (c : Thread nD τ) acc3 fullShare ((accAt m c (n - 1) (by omega)).2.2.2)) ∗ (∃ r, prngReg c r)) := by
  cases n with
  | zero => exact absurd rfl hz
  | succ n => rfl

/-! ## The pipeline's proof data -/

/-- The arrays as the region finds them; after the body each input's buffer at its block, each output's at `out·At`; the
    invariant `PhiS`; nothing owed; full shares. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => out2At m c t
    | ⟨3, _⟩ => out3At m c t
    | ⟨4, _⟩ => out4At m c t
    | ⟨5, _⟩ => out5At m c t
  Φ t := PhiS m c t.val (Nat.le_of_lt_succ t.isLt)
  q _ := fullShare
  owed _ := 0

theorem A_eq (c : Dev nD) (w : Fin cfg0.W) : (dats m 0 c).A w = Gen.V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = Gen.iblk m c 0 t := by dsimp only [dats]
theorem after1 (c : Dev nD) (t : Fin cfg0.N) : (dats m 0 c).after 1 t = Gen.iblk m c 1 t := by dsimp only [dats]
theorem after2 (c : Dev nD) (t : Fin cfg0.N) : (dats m 0 c).after 2 t = out2At m c t := by dsimp only [dats]
theorem after3 (c : Dev nD) (t : Fin cfg0.N) : (dats m 0 c).after 3 t = out3At m c t := by dsimp only [dats]
theorem after4 (c : Dev nD) (t : Fin cfg0.N) : (dats m 0 c).after 4 t = out4At m c t := by dsimp only [dats]
theorem after5 (c : Dev nD) (t : Fin cfg0.N) : (dats m 0 c).after 5 t = out5At m c t := by dsimp only [dats]

/-- Each input's current staging buffer holds its block at every point, fetched there or not. -/
theorem before0 (c : Dev nD) (t : Fin cfg0.N) (d) : (dats m 0 c).before 0 t d = Gen.iblk m c 0 t :=
  Gen.before0_0_of m (dats m 0 c) (A_eq m c 0) (after0 m c) t d
theorem before1 (c : Dev nD) (t : Fin cfg0.N) (d) : (dats m 0 c).before 1 t d = Gen.iblk m c 1 t :=
  Gen.before0_1_of m (dats m 0 c) (A_eq m c 1) (after1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 8000000 in
/-- The body at any point: the inputs' buffers hold their blocks; the point's case is decided by t % 8; the invariant hands the
    body the accumulators at what the point before left (at anything at the very first point) and takes them back at this
    point's contents; an output buffer is handed back untouched off the last row-block and with its stored block on it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  have hN : t.val < 16 := lt_of_lt_of_eq t.isLt (show cfg0.N = 16 from N_0)
  by_cases h0 : t.val % 8 = 0
  · have hl := (hypA t h0).2.2
    rw [Dat.leavesExact_idle (dats m 0 c) 2 t (idle_out t hl).1 (noFlush_out t hl).1,
      Dat.leavesExact_idle (dats m 0 c) 3 t (idle_out t hl).2.1 (noFlush_out t hl).2.1,
      Dat.leavesExact_idle (dats m 0 c) 4 t (idle_out t hl).2.2.1 (noFlush_out t hl).2.2.1,
      Dat.leavesExact_idle (dats m 0 c) 5 t (idle_out t hl).2.2.2 (noFlush_out t hl).2.2.2]
    rw [accAt_A m c t h0]
    unfold soutA_0 soutA_1 soutA_2 soutA_3; (try dsimp only)
    by_cases hz : t.val = 0
    · rw [PhiS_castSucc m c t, PhiS_zero m c _ _ hz, PhiA_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((bodyRunA c (grid0.coords t) _ _ _ _ _ _ _ _ _ _ _ _ _ _ _ _ _ _ _ _ (hypA t h0).1 (hypA t h0).2.1 (hypA t h0).2.2 (Gen.iblk m c 0 t) (Gen.iblk m c 1 t)).2.2.2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, ⟨%es3, HS3⟩⟩
      isplitl [HS0 HS1 HS2 HS3 Hg]
      · isplitl [HS0 HS1 HS2 HS3]
        ·
          isplitl [HS0]
          · unfold owns; iexists _; isplitr
            swap; · iexact HS0
            ipureintro; exact View.read_writes_of_cover _ _ _ _ _ (scoverA_0 _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverA_2 _ _ _ _ _ _ _ _ _ _ _ _ _ _ _ _ _ _ _ _ _ _ _ _ _ _ _)
          unfold owns; iexists _; isplitr
          swap; · iexact HS3
          ipureintro; exact View.read_writes_of_cover _ _ _ _ _ (scoverA_3 _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexists _; iexact H5
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((bodyRunA c (grid0.coords t) _ _ _ _ _ _ _ _ _ _ _ _ _ _ _ _ _ _ _ _ (hypA t h0).1 (hypA t h0).2.1 (hypA t h0).2.2 (Gen.iblk m c 0 t) (Gen.iblk m c 1 t)).2.2.2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      iintro ⟨H0, H1, H2, H3, H4, H5, ⟨%es0, HS0⟩, ⟨%es1, HS1⟩, ⟨%es2, HS2⟩, ⟨%es3, HS3⟩⟩
      isplitl [HS0 HS1 HS2 HS3 Hg]
      · isplitl [HS0 HS1 HS2 HS3]
        ·
          isplitl [HS0]
          · unfold owns; iexists _; isplitr
            swap; · iexact HS0
            ipureintro; exact View.read_writes_of_cover _ _ _ _ _ (scoverA_0 _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverA_2 _ _ _ _ _ _ _ _ _ _ _ _ _ _ _ _ _ _ _ _ _ _ _ _ _ _ _)
          unfold owns; iexists _; isplitr
          swap; · iexact HS3
          ipureintro; exact View.read_writes_of_cover _ _ _ _ _ (scoverA_3 _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexists _; iexact H5
  · have hz : t.val ≠ 0 := fun hz => h0 (by rw [hz])
    by_cases h7 : t.val % 8 = 7
    · have hl := (hypC t h7).2.2
      rw [show (dats m 0 c).leavesExact 2 t = owns (c : Thread nD τ) (ms2 t) fullShare ((dats m 0 c).after 2 t) from by
        unfold Dat.leavesExact; rw [(live_out t hl).1], after2, out2At_C m c t h7]
      rw [show (dats m 0 c).leavesExact 3 t = owns (c : Thread nD τ) (ms3 t) fullShare ((dats m 0 c).after 3 t) from by
        unfold Dat.leavesExact; rw [(live_out t hl).2.1], after3, out3At_C m c t h7]
      rw [show (dats m 0 c).leavesExact 4 t = owns (c : Thread nD τ) (ms4 t) fullShare ((dats m 0 c).after 4 t) from by
        unfold Dat.leavesExact; rw [(live_out t hl).2.2.1], after4, out4At_C m c t h7]
      rw [show (dats m 0 c).leavesExact 5 t = owns (c : Thread nD τ) (ms5 t) fullShare ((dats m 0 c).after 5 t) from by
        unfold Dat.leavesExact; rw [(live_out t hl).2.2.2], after5, out5At_C m c t h7]
      rw [accAt_C m c t h7]
      unfold outC_2 outC_3 outC_4 outC_5 soutC_0 soutC_1 soutC_2 soutC_3; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((bodyRunC c (grid0.coords t) _ _ _ _ _ _ _ _ _ _ _ _ _ _ _ _ _ _ _ _ (hypC t h7).1 (hypC t h7).2.1 (hypC t h7).2.2 (Gen.iblk m c 0 t) (Gen.iblk m c 1 t) _ _ _ _).2.2.2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      isplitl [HS3]; · iexact HS3
      iintro ⟨H0, H1, ⟨%e2, H2⟩, ⟨%e3, H3⟩, ⟨%e4, H4⟩, ⟨%e5, H5⟩, ⟨%es0, HS0⟩, ⟨%es1, HS1⟩, ⟨%es2, HS2⟩, ⟨%es3, HS3⟩⟩
      isplitl [HS0 HS1 HS2 HS3 Hg]
      · isplitl [HS0 HS1 HS2 HS3]
        ·
          isplitl [HS0]
          · unfold owns; iexists _; isplitr
            swap; · iexact HS0
            ipureintro; exact View.read_writes_of_cover _ _ _ _ _ (scoverC_0 _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverC_1 _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverC_2 _ _ _ _ _ _ _ _ _ _ _ _ _ _ _ _ _ _ _ _ _ _ _ _ _ _ _ _ _ _ _)
          unfold owns; iexists _; isplitr
          swap; · iexact HS3
          ipureintro; exact View.read_writes_of_cover _ _ _ _ _ (scoverC_3 _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC_2 _ _ _ _ _ _ _ _ _ _ _ _ _ _ _ _ _ _ _ _ _ _ _ _ _ _ _ _ _ _ _)
      isplitl [H3]
      · unfold owns; iexists _; isplitr
        swap; · iexact H3
        ipureintro; exact View.read_writes_of_cover _ _ _ _ _ (coverC_3 _ _ _ _ _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (coverC_4 _ _ _ _ _ _ _ _ _ _ _ _ _ _ _ _ _ _ _ _ _ _ _ _ _ _ _ _ _ _ _)
      unfold owns; iexists _; isplitr
      swap; · iexact H5
      ipureintro; exact View.read_writes_of_cover _ _ _ _ _ (coverC_5 _ _ _ _ _ _ _ _ _ _ _ _ _ _ _ _ _ _ _ _ _ _ _ _ _ _ _ _ _ _ _)
    · have hl := (hypB t h0 h7).2.2
      rw [Dat.leavesExact_idle (dats m 0 c) 2 t (idle_out t hl).1 (noFlush_out t hl).1,
        Dat.leavesExact_idle (dats m 0 c) 3 t (idle_out t hl).2.1 (noFlush_out t hl).2.1,
        Dat.leavesExact_idle (dats m 0 c) 4 t (idle_out t hl).2.2.1 (noFlush_out t hl).2.2.1,
        Dat.leavesExact_idle (dats m 0 c) 5 t (idle_out t hl).2.2.2 (noFlush_out t hl).2.2.2]
      rw [accAt_B m c t h0 h7]
      unfold soutB_0 soutB_1 soutB_2 soutB_3; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((bodyRunB c (grid0.coords t) _ _ _ _ _ _ _ _ _ _ _ _ _ _ _ _ _ _ _ _ (hypB t h0 h7).1 (hypB t h0 h7).2.1 (hypB t h0 h7).2.2 (Gen.iblk m c 0 t) (Gen.iblk m c 1 t) _ _ _ _).2.2.2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, ⟨%es3, HS3⟩⟩
      isplitl [HS0 HS1 HS2 HS3 Hg]
      · isplitl [HS0 HS1 HS2 HS3]
        ·
          isplitl [HS0]
          · unfold owns; iexists _; isplitr
            swap; · iexact HS0
            ipureintro; exact View.read_writes_of_cover _ _ _ _ _ (scoverB_0 _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverB_1 _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverB_2 _ _ _ _ _ _ _ _ _ _ _ _ _ _ _ _ _ _ _ _ _ _ _ _ _ _ _ _ _ _ _)
          unfold owns; iexists _; isplitr
          swap; · iexact HS3
          ipureintro; exact View.read_writes_of_cover _ _ _ _ _ (scoverB_3 _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives it back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, and every final state has every array of the pipeline at what the library
    computes from the proof data and every other unscoped buffer as the host lines after the region leave it. -/
theorem run_main : θ_run defs (onTc (τ := τ) (main (F := F))) (s₀ m ρ) (Pipeline.FramePost cfgs (dats m) 0 (Pipeline.afterTail₀ cfgs (dats m) 0 (Gen.V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := Gen.V0 m) (opss := [hostOps1, hostOps1_1, hostOps1_2]) (hsub := Gen.sfx_sub) (hfresh := Gen.sfx_fresh) (hkeep := Gen.sfx_keeps)
    (hmain := Gen.hmain m Variants.none) (hA := A_eq m) (hin := hin m) (hout := hout m)

/-- The frame claim at any float instance: @main runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_of m ρ (dats m) (A_eq m) (run_main m ρ)

end Cert.Kernel.Body

end
-- ==== Proof.FrameKernelIdeal.Conds.lean ====
/-
  The kernel body's three branches as conditions on the grid point, and the memory the body is handed.

  The grid is 2 × 8: point t has coordinates (t / 8, t % 8); the second coordinate h walks the eight row-blocks
  of one half of the batch. The body branches three times on h: "h = 0" (the four accumulators are overwritten
  with this block's sums), "h ≠ 0" (the block's sums are added to them), "h = 7" (the accumulators are copied to
  the four output blocks). So a point is in one of three cases:
    A  h = 0        first, not second, not third
    B  0 < h < 7    not first, second, not third
    C  h = 7        not first, second, third
  The four output windows are stored only in case C; elsewhere they are idle and not written back.
-/
import proofs.«148723_j17265768529972_2_alg».proof.Proof.Gen.KernelIdeal.Launch
import proofs.«148723_j17265768529972_2_alg».proof.Proof.Gen.KernelIdeal.Skeleton
import proofs.«148723_j17265768529972_2_alg».proof.Proof.Gen.KernelIdeal.Points
import proofs.«148723_j17265768529972_2_alg».proof.Proof.Gen.KernelIdeal.Frame

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The conditions -/

/-- "h = 0", as the body computes it from the second grid coordinate. -/
abbrev isFirst (i : grid0.Coords) : Prop :=
  (Scalar.cmpi .ne (Scalar.extui (Scalar.cmpi .eq (BitVec.ofNat 32 (i 1).val) 0#32)) 0#32) = 1#1
/-- "h ≠ 0". -/
abbrev isLater (i : grid0.Coords) : Prop :=
  (Scalar.cmpi .ne (Scalar.extui (Scalar.cmpi .ne (BitVec.ofNat 32 (i 1).val) 0#32)) 0#32) = 1#1
/-- "h = 7": the last row-block. -/
abbrev isLast (i : grid0.Coords) : Prop := k0_cond3 i = 1#1

theorem isFirst_iff : ∀ t : Fin cfg0.N, isFirst (grid0.coords t) ↔ t.val % 8 = 0 :=
  (by decide +kernel : ∀ t : Fin grid0.N, isFirst (grid0.coords t) ↔ t.val % 8 = 0)
theorem isLater_iff : ∀ t : Fin cfg0.N, isLater (grid0.coords t) ↔ ¬ t.val % 8 = 0 :=
  (by decide +kernel : ∀ t : Fin grid0.N, isLater (grid0.coords t) ↔ ¬ t.val % 8 = 0)
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel

/-- Off the last row-block an output window is idle … -/
theorem idle_out : ∀ t : Fin cfg0.N, ¬ isLast (grid0.coords t) →
    cfg0.idle 2 (grid0.coords t) = true ∧ cfg0.idle 3 (grid0.coords t) = true
      ∧ cfg0.idle 4 (grid0.coords t) = true ∧ cfg0.idle 5 (grid0.coords t) = true := by decide +kernel
/-- … and is not written back; -/
theorem noFlush_out : ∀ t : Fin cfg0.N, ¬ isLast (grid0.coords t) →
    (cfg0.win 2).flush t = false ∧ (cfg0.win 3).flush t = false
      ∧ (cfg0.win 4).flush t = false ∧ (cfg0.win 5).flush t = false := by decide +kernel
/-- on it, it is live. -/
theorem live_out : ∀ t : Fin cfg0.N, isLast (grid0.coords t) →
    cfg0.idle 2 (grid0.coords t) = false ∧ cfg0.idle 3 (grid0.coords t) = false
      ∧ cfg0.idle 4 (grid0.coords t) = false ∧ cfg0.idle 5 (grid0.coords t) = false := by decide +kernel

/-! ## The memory the body is handed -/

/-- One staging buffer of each output window, as a view: the contents are stated through it. -/
abbrev VO2 : View sig .tc .vmem S16x2 .f32 := (Memref.whole cc0_stg2_0 : Memref sig .tc .vmem S16x2 .f32).view
abbrev VO3 : View sig .tc .vmem S16x2 .f32 := (Memref.whole cc0_stg3_0 : Memref sig .tc .vmem S16x2 .f32).view
abbrev VO4 : View sig .tc .vmem S16x2 .f32 := (Memref.whole cc0_stg4_0 : Memref sig .tc .vmem S16x2 .f32).view
abbrev VO5 : View sig .tc .vmem S16x2 .f32 := (Memref.whole cc0_stg5_0 : Memref sig .tc .vmem S16x2 .f32).view

/-- Each window's current staging memref at point t, as the pipeline passes it, and its wholeness. -/
abbrev ms0 (t : Fin cfg0.N) : Memref sig .tc .vmem S16x8x32x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x8x32x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x2 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x2 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x2 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x2 .f32 := win0_5.stage (cfg0.slots t 5)
abbrev hs5 (t : Fin cfg0.N) : (ms5 t).IsWhole := hstage0_5 ((cfg0.slots t 5).cast nbuf0_5)

/-- The four accumulators: whole scoped buffers of the kernel's own. -/
abbrev acc0 : Memref sig .tc .vmem S16x2 .f32 := Memref.whole cc0_scratch0
abbrev acc1 : Memref sig .tc .vmem S16x2 .f32 := Memref.whole cc0_scratch1
abbrev acc2 : Memref sig .tc .vmem S16x2 .f32 := Memref.whole cc0_scratch2
abbrev acc3 : Memref sig .tc .vmem S16x2 .f32 := Memref.whole cc0_scratch3
abbrev VS0 : View sig .tc .vmem S16x2 .f32 := acc0.view
abbrev VS1 : View sig .tc .vmem S16x2 .f32 := acc1.view
abbrev VS2 : View sig .tc .vmem S16x2 .f32 := acc2.view
abbrev VS3 : View sig .tc .vmem S16x2 .f32 := acc3.view

/-- What the region is handed besides its windows: the four accumulators at some contents, and the generator register. -/
theorem PhiA_eq (c : Dev nD) :
    (Pipeline.ΦA spec0 c : sProp 𝕄)
      = iprop(iprop((∃ d, owns (c : Thread nD τ) acc0 fullShare d) ∗ (∃ d, owns (c : Thread nD τ) acc1 fullShare d)
          ∗ (∃ d, owns (c : Thread nD τ) acc2 fullShare d) ∗ (∃ d, owns (c : Thread nD τ) acc3 fullShare d)) ∗ (∃ r, prngReg c r)) := by
  unfold Pipeline.ΦA; rw [scopedRest0_eq]; simp only [acc0, acc1, acc2, acc3, owns_whole]; try rfl

end Cert.KernelIdeal.Body

end
-- ==== Proof.FrameKernelIdeal.RunA.lean ====
/-
  The kernel body run in case A: the pieces each buffer ends with are found by the run.
-/
import proofs.«148723_j17265768529972_2_alg».proof.Proof.FrameKernelIdeal.Conds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case A (the first row-block): with the two input blocks at x0, x1, the output buffers at anything (handed back untouched) and the
    accumulators at anything, the body runs, leaves the inputs and outputs as they were and each accumulator with the pieces LS· written. -/
noncomputable def bodyRunA (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) :
    Σ' (LS0 LS1 LS2 : List (View.Piece (Elt F) S16x2 .f32)), { LS3 : List (View.Piece (Elt F) S16x2 .f32) //
      ∀ (xi2 xi3 xi4 xi5 : Vec F S16x2 .f32) (E : Set ℕ) (K : PUnit → sProp 𝕄),
        iprop(owns (c : Thread nD τ) arg2 fullShare x0
            ∗ owns (c : Thread nD τ) arg3 fullShare x1
            ∗ owns (c : Thread nD τ) arg4 fullShare xi2
            ∗ owns (c : Thread nD τ) arg5 fullShare xi3
            ∗ owns (c : Thread nD τ) arg6 fullShare xi4
            ∗ owns (c : Thread nD τ) arg7 fullShare xi5
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (iprop(owns (c : Thread nD τ) arg2 fullShare x0
                ∗ owns (c : Thread nD τ) arg3 fullShare x1
                ∗ owns (c : Thread nD τ) arg4 fullShare xi2
                ∗ owns (c : Thread nD τ) arg5 fullShare xi3
                ∗ owns (c : Thread nD τ) arg6 fullShare xi4
                ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)) -∗ K ⟨⟩))
          ⊢ wp frame (wpE (defs₀ (F := F)) Variants.none c none) E (cc0__lp_mask_stats_kernel i arg2 harg2 arg3 harg3 arg4 harg4 arg5 harg5 arg6 harg6 arg7 harg7 arg8 harg8 arg9 harg9 arg10 harg10 arg11 harg11) K } := by
  refine ⟨?_, ?_, ?_, ?_, fun xi2 xi3 xi4 xi5 E K => ?run⟩
  case run =>
    simp only [cc0__lp_mask_stats_kernel_eq_skeleton]; unfold cc0__lp_mask_stats_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.KernelIdeal.Body

end
-- ==== Proof.FrameKernelIdeal.RunB.lean ====
/-
  The kernel body run in case B: the pieces each buffer ends with are found by the run.
-/
import proofs.«148723_j17265768529972_2_alg».proof.Proof.FrameKernelIdeal.RunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case B (a middle row-block): with the two input blocks at x0, x1, the accumulators at xs·, and the output buffers at anything (handed
    back untouched), the body runs, leaves the inputs and outputs as they were and each accumulator with the pieces LS· written. -/
noncomputable def bodyRunB (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) :
    Σ' (LS0 LS1 LS2 : List (View.Piece (Elt F) S16x2 .f32)), { LS3 : List (View.Piece (Elt F) S16x2 .f32) //
      ∀ (xi2 xi3 xi4 xi5 : Vec F S16x2 .f32) (E : Set ℕ) (K : PUnit → sProp 𝕄),
        iprop(owns (c : Thread nD τ) arg2 fullShare x0
            ∗ owns (c : Thread nD τ) arg3 fullShare x1
            ∗ owns (c : Thread nD τ) arg4 fullShare xi2
            ∗ owns (c : Thread nD τ) arg5 fullShare xi3
            ∗ owns (c : Thread nD τ) arg6 fullShare xi4
            ∗ owns (c : Thread nD τ) arg7 fullShare xi5
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ (iprop(owns (c : Thread nD τ) arg2 fullShare x0
                ∗ owns (c : Thread nD τ) arg3 fullShare x1
                ∗ owns (c : Thread nD τ) arg4 fullShare xi2
                ∗ owns (c : Thread nD τ) arg5 fullShare xi3
                ∗ owns (c : Thread nD τ) arg6 fullShare xi4
                ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)) -∗ K ⟨⟩))
          ⊢ wp frame (wpE (defs₀ (F := F)) Variants.none c none) E (cc0__lp_mask_stats_kernel i arg2 harg2 arg3 harg3 arg4 harg4 arg5 harg5 arg6 harg6 arg7 harg7 arg8 harg8 arg9 harg9 arg10 harg10 arg11 harg11) K } := by
  refine ⟨?_, ?_, ?_, ?_, fun xi2 xi3 xi4 xi5 E K => ?run⟩
  case run =>
    simp only [cc0__lp_mask_stats_kernel_eq_skeleton]; unfold cc0__lp_mask_stats_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2; obtain rfl := harg11.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.KernelIdeal.Body

end
-- ==== Proof.FrameKernelIdeal.RunC.lean ====
/-
  The kernel body run in case C: the pieces each buffer ends with are found by the run.
-/
import proofs.«148723_j17265768529972_2_alg».proof.Proof.FrameKernelIdeal.RunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case C (the last row-block): with the two input blocks at x0, x1, the accumulators at xs·, and the output buffers at anything,
    the body runs, leaves the inputs as they were, each accumulator with the pieces LS· written and each output buffer with the pieces L· written. -/
noncomputable def bodyRunC (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) :
    Σ' (L2 L3 L4 L5 LS0 LS1 LS2 : List (View.Piece (Elt F) S16x2 .f32)), { LS3 : List (View.Piece (Elt F) S16x2 .f32) //
      ∀ (E : Set ℕ) (K : PUnit → sProp 𝕄),
        iprop(owns (c : Thread nD τ) arg2 fullShare x0
            ∗ owns (c : Thread nD τ) arg3 fullShare x1
            ∗ (∃ d, owns (c : Thread nD τ) arg4 fullShare d)
            ∗ (∃ d, owns (c : Thread nD τ) arg5 fullShare d)
            ∗ (∃ d, owns (c : Thread nD τ) arg6 fullShare d)
            ∗ (∃ d, owns (c : Thread nD τ) arg7 fullShare d)
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ (iprop(owns (c : Thread nD τ) arg2 fullShare x0
                ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ (∃ f, arg11.view.loc (c : Thread nD τ) ↦[arg11.view.set]{fullShare} arg11.view.writes (Elt F) f LS3)) -∗ K ⟨⟩))
          ⊢ wp frame (wpE (defs₀ (F := F)) Variants.none c none) E (cc0__lp_mask_stats_kernel i arg2 harg2 arg3 harg3 arg4 harg4 arg5 harg5 arg6 harg6 arg7 harg7 arg8 harg8 arg9 harg9 arg10 harg10 arg11 harg11) K } := by
  refine ⟨?_, ?_, ?_, ?_, ?_, ?_, ?_, ?_, fun E K => ?run⟩
  case run =>
    simp only [cc0__lp_mask_stats_kernel_eq_skeleton]; unfold cc0__lp_mask_stats_kernel_skel
    simp only [k0_part1_eq_skeleton, k0_part2_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg8.eq_unread hfs0; obtain rfl := harg9.eq_unread hfs1; obtain rfl := harg10.eq_unread hfs2; obtain rfl := harg11.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    isplitl [HS0]; · iexists _; iexact HS0
    isplitl [HS1]; · iexists _; iexact HS1
    isplitl [HS2]; · iexists _; iexact HS2
    iexists _; iexact HS3

end Cert.KernelIdeal.Body

end
-- ==== Proof.FrameKernelIdeal.Frame.lean ====
/-
  The frame of the idealized kernel: what the four accumulators hold after each grid point, the region's invariant,
  the pipeline's proof data, the body obligation at every point, and the run of @main.

  After point t the accumulators hold: at a first row-block (t % 8 = 0) this block's four sums; at a later one what
  the point before left plus this block's sums. The four output blocks are written at the last row-block
  (t % 8 = 7) only, with what the accumulators then hold; at the other points their buffers are idle.
-/
import proofs.«148723_j17265768529972_2_alg».proof.Proof.FrameKernelIdeal.RunC

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each buffer it stores -/

/-- Case A's pieces for accumulator 0 cover it. -/
theorem scoverA_0 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) (y : S16x2.Idx) :
    ∃ pc ∈ (bodyRunA c i arg2 harg2 arg3 harg3 arg4 harg4 arg5 harg5 arg6 harg6 arg7 harg7 arg8 harg8 arg9 harg9 arg10 harg10 arg11 harg11 hc0 hc1 hc2 x0 x1).1, y ∈ pc.1.set :=
  View.cover_of_tiledL (bodyRunA c i arg2 harg2 arg3 harg3 arg4 harg4 arg5 harg5 arg6 harg6 arg7 harg7 arg8 harg8 arg9 harg9 arg10 harg10 arg11 harg11 hc0 hc1 hc2 x0 x1).1 S16x2.size (by sl_kernel_rfl) y

/-- What case A leaves in accumulator 0: its pieces read back. -/
def soutA_0 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) : Vec F S16x2 .f32 :=
  VS0.read (Elt F) (VS0.writes (Elt F) VS0.junk (bodyRunA c i arg2 harg2 arg3 harg3 arg4 harg4 arg5 harg5 arg6 harg6 arg7 harg7 arg8 harg8 arg9 harg9 arg10 harg10 arg11 harg11 hc0 hc1 hc2 x0 x1).1)

/-- Case A's pieces for accumulator 1 cover it. -/
theorem scoverA_1 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) (y : S16x2.Idx) :
    ∃ pc ∈ (bodyRunA c i arg2 harg2 arg3 harg3 arg4 harg4 arg5 harg5 arg6 harg6 arg7 harg7 arg8 harg8 arg9 harg9 arg10 harg10 arg11 harg11 hc0 hc1 hc2 x0 x1).2.1, y ∈ pc.1.set :=
  View.cover_of_tiledL (bodyRunA c i arg2 harg2 arg3 harg3 arg4 harg4 arg5 harg5 arg6 harg6 arg7 harg7 arg8 harg8 arg9 harg9 arg10 harg10 arg11 harg11 hc0 hc1 hc2 x0 x1).2.1 S16x2.size (by sl_kernel_rfl) y

/-- What case A leaves in accumulator 1: its pieces read back. -/
def soutA_1 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) : Vec F S16x2 .f32 :=
  VS1.read (Elt F) (VS1.writes (Elt F) VS1.junk (bodyRunA c i arg2 harg2 arg3 harg3 arg4 harg4 arg5 harg5 arg6 harg6 arg7 harg7 arg8 harg8 arg9 harg9 arg10 harg10 arg11 harg11 hc0 hc1 hc2 x0 x1).2.1)

/-- Case A's pieces for accumulator 2 cover it. -/
theorem scoverA_2 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) (y : S16x2.Idx) :
    ∃ pc ∈ (bodyRunA c i arg2 harg2 arg3 harg3 arg4 harg4 arg5 harg5 arg6 harg6 arg7 harg7 arg8 harg8 arg9 harg9 arg10 harg10 arg11 harg11 hc0 hc1 hc2 x0 x1).2.2.1, y ∈ pc.1.set :=
  View.cover_of_tiledL (bodyRunA c i arg2 harg2 arg3 harg3 arg4 harg4 arg5 harg5 arg6 harg6 arg7 harg7 arg8 harg8 arg9 harg9 arg10 harg10 arg11 harg11 hc0 hc1 hc2 x0 x1).2.2.1 S16x2.size (by sl_kernel_rfl) y

/-- What case A leaves in accumulator 2: its pieces read back. -/
def soutA_2 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) : Vec F S16x2 .f32 :=
  VS2.read (Elt F) (VS2.writes (Elt F) VS2.junk (bodyRunA c i arg2 harg2 arg3 harg3 arg4 harg4 arg5 harg5 arg6 harg6 arg7 harg7 arg8 harg8 arg9 harg9 arg10 harg10 arg11 harg11 hc0 hc1 hc2 x0 x1).2.2.1)

/-- Case A's pieces for accumulator 3 cover it. -/
theorem scoverA_3 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) (y : S16x2.Idx) :
    ∃ pc ∈ (bodyRunA c i arg2 harg2 arg3 harg3 arg4 harg4 arg5 harg5 arg6 harg6 arg7 harg7 arg8 harg8 arg9 harg9 arg10 harg10 arg11 harg11 hc0 hc1 hc2 x0 x1).2.2.2.1, y ∈ pc.1.set :=
  View.cover_of_tiledL (bodyRunA c i arg2 harg2 arg3 harg3 arg4 harg4 arg5 harg5 arg6 harg6 arg7 harg7 arg8 harg8 arg9 harg9 arg10 harg10 arg11 harg11 hc0 hc1 hc2 x0 x1).2.2.2.1 S16x2.size (by sl_kernel_rfl) y

/-- What case A leaves in accumulator 3: its pieces read back. -/
def soutA_3 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) : Vec F S16x2 .f32 :=
  VS3.read (Elt F) (VS3.writes (Elt F) VS3.junk (bodyRunA c i arg2 harg2 arg3 harg3 arg4 harg4 arg5 harg5 arg6 harg6 arg7 harg7 arg8 harg8 arg9 harg9 arg10 harg10 arg11 harg11 hc0 hc1 hc2 x0 x1).2.2.2.1)

/-- Case B's pieces for accumulator 0 cover it. -/
theorem scoverB_0 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) (y : S16x2.Idx) :
    ∃ pc ∈ (bodyRunB c i arg2 harg2 arg3 harg3 arg4 harg4 arg5 harg5 arg6 harg6 arg7 harg7 arg8 harg8 arg9 harg9 arg10 harg10 arg11 harg11 hc0 hc1 hc2 x0 x1 xs0 xs1 xs2 xs3).1, y ∈ pc.1.set :=
  View.cover_of_tiledL (bodyRunB c i arg2 harg2 arg3 harg3 arg4 harg4 arg5 harg5 arg6 harg6 arg7 harg7 arg8 harg8 arg9 harg9 arg10 harg10 arg11 harg11 hc0 hc1 hc2 x0 x1 xs0 xs1 xs2 xs3).1 S16x2.size (by sl_kernel_rfl) y

/-- What case B leaves in accumulator 0: its pieces read back. -/
def soutB_0 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) : Vec F S16x2 .f32 :=
  VS0.read (Elt F) (VS0.writes (Elt F) VS0.junk (bodyRunB c i arg2 harg2 arg3 harg3 arg4 harg4 arg5 harg5 arg6 harg6 arg7 harg7 arg8 harg8 arg9 harg9 arg10 harg10 arg11 harg11 hc0 hc1 hc2 x0 x1 xs0 xs1 xs2 xs3).1)

/-- Case B's pieces for accumulator 1 cover it. -/
theorem scoverB_1 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) (y : S16x2.Idx) :
    ∃ pc ∈ (bodyRunB c i arg2 harg2 arg3 harg3 arg4 harg4 arg5 harg5 arg6 harg6 arg7 harg7 arg8 harg8 arg9 harg9 arg10 harg10 arg11 harg11 hc0 hc1 hc2 x0 x1 xs0 xs1 xs2 xs3).2.1, y ∈ pc.1.set :=
  View.cover_of_tiledL (bodyRunB c i arg2 harg2 arg3 harg3 arg4 harg4 arg5 harg5 arg6 harg6 arg7 harg7 arg8 harg8 arg9 harg9 arg10 harg10 arg11 harg11 hc0 hc1 hc2 x0 x1 xs0 xs1 xs2 xs3).2.1 S16x2.size (by sl_kernel_rfl) y

/-- What case B leaves in accumulator 1: its pieces read back. -/
def soutB_1 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) : Vec F S16x2 .f32 :=
  VS1.read (Elt F) (VS1.writes (Elt F) VS1.junk (bodyRunB c i arg2 harg2 arg3 harg3 arg4 harg4 arg5 harg5 arg6 harg6 arg7 harg7 arg8 harg8 arg9 harg9 arg10 harg10 arg11 harg11 hc0 hc1 hc2 x0 x1 xs0 xs1 xs2 xs3).2.1)

/-- Case B's pieces for accumulator 2 cover it. -/
theorem scoverB_2 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) (y : S16x2.Idx) :
    ∃ pc ∈ (bodyRunB c i arg2 harg2 arg3 harg3 arg4 harg4 arg5 harg5 arg6 harg6 arg7 harg7 arg8 harg8 arg9 harg9 arg10 harg10 arg11 harg11 hc0 hc1 hc2 x0 x1 xs0 xs1 xs2 xs3).2.2.1, y ∈ pc.1.set :=
  View.cover_of_tiledL (bodyRunB c i arg2 harg2 arg3 harg3 arg4 harg4 arg5 harg5 arg6 harg6 arg7 harg7 arg8 harg8 arg9 harg9 arg10 harg10 arg11 harg11 hc0 hc1 hc2 x0 x1 xs0 xs1 xs2 xs3).2.2.1 S16x2.size (by sl_kernel_rfl) y

/-- What case B leaves in accumulator 2: its pieces read back. -/
def soutB_2 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) : Vec F S16x2 .f32 :=
  VS2.read (Elt F) (VS2.writes (Elt F) VS2.junk (bodyRunB c i arg2 harg2 arg3 harg3 arg4 harg4 arg5 harg5 arg6 harg6 arg7 harg7 arg8 harg8 arg9 harg9 arg10 harg10 arg11 harg11 hc0 hc1 hc2 x0 x1 xs0 xs1 xs2 xs3).2.2.1)

/-- Case B's pieces for accumulator 3 cover it. -/
theorem scoverB_3 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) (y : S16x2.Idx) :
    ∃ pc ∈ (bodyRunB c i arg2 harg2 arg3 harg3 arg4 harg4 arg5 harg5 arg6 harg6 arg7 harg7 arg8 harg8 arg9 harg9 arg10 harg10 arg11 harg11 hc0 hc1 hc2 x0 x1 xs0 xs1 xs2 xs3).2.2.2.1, y ∈ pc.1.set :=
  View.cover_of_tiledL (bodyRunB c i arg2 harg2 arg3 harg3 arg4 harg4 arg5 harg5 arg6 harg6 arg7 harg7 arg8 harg8 arg9 harg9 arg10 harg10 arg11 harg11 hc0 hc1 hc2 x0 x1 xs0 xs1 xs2 xs3).2.2.2.1 S16x2.size (by sl_kernel_rfl) y

/-- What case B leaves in accumulator 3: its pieces read back. -/
def soutB_3 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) : Vec F S16x2 .f32 :=
  VS3.read (Elt F) (VS3.writes (Elt F) VS3.junk (bodyRunB c i arg2 harg2 arg3 harg3 arg4 harg4 arg5 harg5 arg6 harg6 arg7 harg7 arg8 harg8 arg9 harg9 arg10 harg10 arg11 harg11 hc0 hc1 hc2 x0 x1 xs0 xs1 xs2 xs3).2.2.2.1)

/-- Case C's pieces for accumulator 0 cover it. -/
theorem scoverC_0 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) (y : S16x2.Idx) :
    ∃ pc ∈ (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.1, y ∈ pc.1.set :=
  View.cover_of_tiledL (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.1 S16x2.size (by sl_kernel_rfl) y

/-- What case C leaves in accumulator 0: its pieces read back. -/
def soutC_0 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) : Vec F S16x2 .f32 :=
  VS0.read (Elt F) (VS0.writes (Elt F) VS0.junk (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.1)

/-- Case C's pieces for accumulator 1 cover it. -/
theorem scoverC_1 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) (y : S16x2.Idx) :
    ∃ pc ∈ (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.2.1, y ∈ pc.1.set :=
  View.cover_of_tiledL (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.2.1 S16x2.size (by sl_kernel_rfl) y

/-- What case C leaves in accumulator 1: its pieces read back. -/
def soutC_1 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) : Vec F S16x2 .f32 :=
  VS1.read (Elt F) (VS1.writes (Elt F) VS1.junk (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.2.1)

/-- Case C's pieces for accumulator 2 cover it. -/
theorem scoverC_2 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) (y : S16x2.Idx) :
    ∃ pc ∈ (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.2.2.1, y ∈ pc.1.set :=
  View.cover_of_tiledL (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.2.2.1 S16x2.size (by sl_kernel_rfl) y

/-- What case C leaves in accumulator 2: its pieces read back. -/
def soutC_2 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) : Vec F S16x2 .f32 :=
  VS2.read (Elt F) (VS2.writes (Elt F) VS2.junk (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.2.2.1)

/-- Case C's pieces for accumulator 3 cover it. -/
theorem scoverC_3 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) (y : S16x2.Idx) :
    ∃ pc ∈ (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.2.2.2.1, y ∈ pc.1.set :=
  View.cover_of_tiledL (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.2.2.2.1 S16x2.size (by sl_kernel_rfl) y

/-- What case C leaves in accumulator 3: its pieces read back. -/
def soutC_3 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) : Vec F S16x2 .f32 :=
  VS3.read (Elt F) (VS3.writes (Elt F) VS3.junk (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.2.2.2.2.1)

/-- Case C's pieces for output window 2 cover its block. -/
theorem coverC_2 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) (y : S16x2.Idx) :
    ∃ pc ∈ (bodyRunC c i arg2 harg2 arg3 harg3 arg4 harg4 arg5 harg5 arg6 harg6 arg7 harg7 arg8 harg8 arg9 harg9 arg10 harg10 arg11 harg11 hc0 hc1 hc2 x0 x1 xs0 xs1 xs2 xs3).1, y ∈ pc.1.set :=
  View.cover_of_tiledL (bodyRunC c i arg2 harg2 arg3 harg3 arg4 harg4 arg5 harg5 arg6 harg6 arg7 harg7 arg8 harg8 arg9 harg9 arg10 harg10 arg11 harg11 hc0 hc1 hc2 x0 x1 xs0 xs1 xs2 xs3).1 S16x2.size (by sl_kernel_rfl) y

/-- What case C leaves in output window 2's staging buffer. -/
def outC_2 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) : Vec F S16x2 .f32 :=
  VO2.read (Elt F) (VO2.writes (Elt F) VO2.junk (bodyRunC c i arg2 harg2 arg3 harg3 arg4 harg4 arg5 harg5 arg6 harg6 arg7 harg7 arg8 harg8 arg9 harg9 arg10 harg10 arg11 harg11 hc0 hc1 hc2 x0 x1 xs0 xs1 xs2 xs3).1)

/-- Case C's pieces for output window 3 cover its block. -/
theorem coverC_3 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) (y : S16x2.Idx) :
    ∃ pc ∈ (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.1, y ∈ pc.1.set :=
  View.cover_of_tiledL (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.1 S16x2.size (by sl_kernel_rfl) y

/-- What case C leaves in output window 3's staging buffer. -/
def outC_3 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) : Vec F S16x2 .f32 :=
  VO3.read (Elt F) (VO3.writes (Elt F) VO3.junk (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.1)

/-- Case C's pieces for output window 4 cover its block. -/
theorem coverC_4 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) (y : S16x2.Idx) :
    ∃ pc ∈ (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.1, y ∈ pc.1.set :=
  View.cover_of_tiledL (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.1 S16x2.size (by sl_kernel_rfl) y

/-- What case C leaves in output window 4's staging buffer. -/
def outC_4 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) : Vec F S16x2 .f32 :=
  VO4.read (Elt F) (VO4.writes (Elt F) VO4.junk (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.1)

/-- Case C's pieces for output window 5 cover its block. -/
theorem coverC_5 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) (y : S16x2.Idx) :
    ∃ pc ∈ (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.1, y ∈ pc.1.set :=
  View.cover_of_tiledL (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.1 S16x2.size (by sl_kernel_rfl) y

/-- What case C leaves in output window 5's staging buffer. -/
def outC_5 (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) : Vec F S16x2 .f32 :=
  VO5.read (Elt F) (VO5.writes (Elt F) VO5.junk (bodyRunC c i arg2 harg2 arg3 harg3 arg4 harg4 arg5 harg5 arg6 harg6 arg7 harg7 arg8 harg8 arg9 harg9 arg10 harg10 arg11 harg11 hc0 hc1 hc2 x0 x1 xs0 xs1 xs2 xs3).2.2.2.1)

/-! ## The case of a point -/

theorem hypA (t : Fin cfg0.N) (h0 : t.val % 8 = 0) :
    isFirst (grid0.coords t) ∧ ¬ isLater (grid0.coords t) ∧ ¬ isLast (grid0.coords t) :=
  ⟨(isFirst_iff t).mpr h0, fun h => (isLater_iff t).mp h h0, fun h => by have := (isLast_iff t).mp h; omega⟩
theorem hypB (t : Fin cfg0.N) (h0 : ¬ t.val % 8 = 0) (h7 : ¬ t.val % 8 = 7) :
    ¬ isFirst (grid0.coords t) ∧ isLater (grid0.coords t) ∧ ¬ isLast (grid0.coords t) :=
  ⟨fun h => h0 ((isFirst_iff t).mp h), (isLater_iff t).mpr h0, fun h => h7 ((isLast_iff t).mp h)⟩
theorem hypC (t : Fin cfg0.N) (h7 : t.val % 8 = 7) :
    ¬ isFirst (grid0.coords t) ∧ isLater (grid0.coords t) ∧ isLast (grid0.coords t) :=
  ⟨fun h => by have := (isFirst_iff t).mp h; omega, (isLater_iff t).mpr (by omega), (isLast_iff t).mpr h7⟩

/-! ## What the accumulators hold after each point -/

/-- The four accumulators after the body at position n: this block's sums at a first row-block, else the point before's
    contents with this block's sums added. -/
def accAt (c : Dev nD) : (n : ℕ) → n < cfg0.N → Vec F S16x2 .f32 × Vec F S16x2 .f32 × Vec F S16x2 .f32 × Vec F S16x2 .f32
  | 0, hn => (soutA_0 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) acc0 (Memref.isWhole_whole _) acc1 (Memref.isWhole_whole _) acc2 (Memref.isWhole_whole _) acc3 (Memref.isWhole_whole _) (hypA ⟨0, hn⟩ (Nat.zero_mod _)).1 (hypA ⟨0, hn⟩ (Nat.zero_mod _)).2.1 (hypA ⟨0, hn⟩ (Nat.zero_mod _)).2.2 (Gen.iblk m c 0 ⟨0, hn⟩) (Gen.iblk m c 1 ⟨0, hn⟩),
        soutA_1 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) acc0 (Memref.isWhole_whole _) acc1 (Memref.isWhole_whole _) acc2 (Memref.isWhole_whole _) acc3 (Memref.isWhole_whole _) (hypA ⟨0, hn⟩ (Nat.zero_mod _)).1 (hypA ⟨0, hn⟩ (Nat.zero_mod _)).2.1 (hypA ⟨0, hn⟩ (Nat.zero_mod _)).2.2 (Gen.iblk m c 0 ⟨0, hn⟩) (Gen.iblk m c 1 ⟨0, hn⟩),
        soutA_2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) acc0 (Memref.isWhole_whole _) acc1 (Memref.isWhole_whole _) acc2 (Memref.isWhole_whole _) acc3 (Memref.isWhole_whole _) (hypA ⟨0, hn⟩ (Nat.zero_mod _)).1 (hypA ⟨0, hn⟩ (Nat.zero_mod _)).2.1 (hypA ⟨0, hn⟩ (Nat.zero_mod _)).2.2 (Gen.iblk m c 0 ⟨0, hn⟩) (Gen.iblk m c 1 ⟨0, hn⟩),
        soutA_3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) acc0 (Memref.isWhole_whole _) acc1 (Memref.isWhole_whole _) acc2 (Memref.isWhole_whole _) acc3 (Memref.isWhole_whole _) (hypA ⟨0, hn⟩ (Nat.zero_mod _)).1 (hypA ⟨0, hn⟩ (Nat.zero_mod _)).2.1 (hypA ⟨0, hn⟩ (Nat.zero_mod _)).2.2 (Gen.iblk m c 0 ⟨0, hn⟩) (Gen.iblk m c 1 ⟨0, hn⟩))
  | n + 1, hn =>
    if h0 : (n + 1) % 8 = 0 then
      (soutA_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypA ⟨n + 1, hn⟩ h0).1 (hypA ⟨n + 1, hn⟩ h0).2.1 (hypA ⟨n + 1, hn⟩ h0).2.2 (Gen.iblk m c 0 ⟨n + 1, hn⟩) (Gen.iblk m c 1 ⟨n + 1, hn⟩),
        soutA_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypA ⟨n + 1, hn⟩ h0).1 (hypA ⟨n + 1, hn⟩ h0).2.1 (hypA ⟨n + 1, hn⟩ h0).2.2 (Gen.iblk m c 0 ⟨n + 1, hn⟩) (Gen.iblk m c 1 ⟨n + 1, hn⟩),
        soutA_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypA ⟨n + 1, hn⟩ h0).1 (hypA ⟨n + 1, hn⟩ h0).2.1 (hypA ⟨n + 1, hn⟩ h0).2.2 (Gen.iblk m c 0 ⟨n + 1, hn⟩) (Gen.iblk m c 1 ⟨n + 1, hn⟩),
        soutA_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypA ⟨n + 1, hn⟩ h0).1 (hypA ⟨n + 1, hn⟩ h0).2.1 (hypA ⟨n + 1, hn⟩ h0).2.2 (Gen.iblk m c 0 ⟨n + 1, hn⟩) (Gen.iblk m c 1 ⟨n + 1, hn⟩))
    else if h7 : (n + 1) % 8 = 7 then
      (soutC_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypC ⟨n + 1, hn⟩ h7).1 (hypC ⟨n + 1, hn⟩ h7).2.1 (hypC ⟨n + 1, hn⟩ h7).2.2 (Gen.iblk m c 0 ⟨n + 1, hn⟩) (Gen.iblk m c 1 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        soutC_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypC ⟨n + 1, hn⟩ h7).1 (hypC ⟨n + 1, hn⟩ h7).2.1 (hypC ⟨n + 1, hn⟩ h7).2.2 (Gen.iblk m c 0 ⟨n + 1, hn⟩) (Gen.iblk m c 1 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        soutC_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypC ⟨n + 1, hn⟩ h7).1 (hypC ⟨n + 1, hn⟩ h7).2.1 (hypC ⟨n + 1, hn⟩ h7).2.2 (Gen.iblk m c 0 ⟨n + 1, hn⟩) (Gen.iblk m c 1 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        soutC_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypC ⟨n + 1, hn⟩ h7).1 (hypC ⟨n + 1, hn⟩ h7).2.1 (hypC ⟨n + 1, hn⟩ h7).2.2 (Gen.iblk m c 0 ⟨n + 1, hn⟩) (Gen.iblk m c 1 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2)
    else
      (soutB_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypB ⟨n + 1, hn⟩ h0 h7).1 (hypB ⟨n + 1, hn⟩ h0 h7).2.1 (hypB ⟨n + 1, hn⟩ h0 h7).2.2 (Gen.iblk m c 0 ⟨n + 1, hn⟩) (Gen.iblk m c 1 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        soutB_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypB ⟨n + 1, hn⟩ h0 h7).1 (hypB ⟨n + 1, hn⟩ h0 h7).2.1 (hypB ⟨n + 1, hn⟩ h0 h7).2.2 (Gen.iblk m c 0 ⟨n + 1, hn⟩) (Gen.iblk m c 1 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        soutB_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypB ⟨n + 1, hn⟩ h0 h7).1 (hypB ⟨n + 1, hn⟩ h0 h7).2.1 (hypB ⟨n + 1, hn⟩ h0 h7).2.2 (Gen.iblk m c 0 ⟨n + 1, hn⟩) (Gen.iblk m c 1 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        soutB_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) acc0 (Memref.isWhole_whole _) acc1 (Memref.isWhole_whole _) acc2 (Memref.isWhole_whole _) acc3 (Memref.isWhole_whole _) (hypB ⟨n + 1, hn⟩ h0 h7).1 (hypB ⟨n + 1, hn⟩ h0 h7).2.1 (hypB ⟨n + 1, hn⟩ h0 h7).2.2 (Gen.iblk m c 0 ⟨n + 1, hn⟩) (Gen.iblk m c 1 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2)

/-- The point before's accumulators (at the first point: anything). -/
abbrev accPrev (c : Dev nD) (t : Fin cfg0.N) : Vec F S16x2 .f32 × Vec F S16x2 .f32 × Vec F S16x2 .f32 × Vec F S16x2 .f32 :=
  accAt m c (t.val - 1) (Nat.lt_of_le_of_lt (Nat.sub_le _ _) t.isLt)

theorem accAt_A (c : Dev nD) (t : Fin cfg0.N) (h0 : t.val % 8 = 0) :
    accAt m c t.val t.isLt = (soutA_0 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypA t h0).1 (hypA t h0).2.1 (hypA t h0).2.2 (Gen.iblk m c 0 t) (Gen.iblk m c 1 t),
        soutA_1 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypA t h0).1 (hypA t h0).2.1 (hypA t h0).2.2 (Gen.iblk m c 0 t) (Gen.iblk m c 1 t),
        soutA_2 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypA t h0).1 (hypA t h0).2.1 (hypA t h0).2.2 (Gen.iblk m c 0 t) (Gen.iblk m c 1 t),
        soutA_3 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypA t h0).1 (hypA t h0).2.1 (hypA t h0).2.2 (Gen.iblk m c 0 t) (Gen.iblk m c 1 t)) := by
  obtain ⟨n, hn⟩ := t
  cases n with
  | zero => exact rfl
  | succ n => exact (dif_pos h0).trans rfl

theorem accAt_B (c : Dev nD) (t : Fin cfg0.N) (h0 : ¬ t.val % 8 = 0) (h7 : ¬ t.val % 8 = 7) :
    accAt m c t.val t.isLt = (soutB_0 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypB t h0 h7).1 (hypB t h0 h7).2.1 (hypB t h0 h7).2.2 (Gen.iblk m c 0 t) (Gen.iblk m c 1 t) (accPrev m c t).1 (accPrev m c t).2.1 (accPrev m c t).2.2.1 (accPrev m c t).2.2.2,
        soutB_1 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypB t h0 h7).1 (hypB t h0 h7).2.1 (hypB t h0 h7).2.2 (Gen.iblk m c 0 t) (Gen.iblk m c 1 t) (accPrev m c t).1 (accPrev m c t).2.1 (accPrev m c t).2.2.1 (accPrev m c t).2.2.2,
        soutB_2 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypB t h0 h7).1 (hypB t h0 h7).2.1 (hypB t h0 h7).2.2 (Gen.iblk m c 0 t) (Gen.iblk m c 1 t) (accPrev m c t).1 (accPrev m c t).2.1 (accPrev m c t).2.2.1 (accPrev m c t).2.2.2,
        soutB_3 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypB t h0 h7).1 (hypB t h0 h7).2.1 (hypB t h0 h7).2.2 (Gen.iblk m c 0 t) (Gen.iblk m c 1 t) (accPrev m c t).1 (accPrev m c t).2.1 (accPrev m c t).2.2.1 (accPrev m c t).2.2.2) := by
  obtain ⟨n, hn⟩ := t
  cases n with
  | zero => exact (by exfalso; (try dsimp only at h0); exact absurd (Nat.zero_mod _) h0)
  | succ n => exact (dif_neg h0).trans ((dif_neg h7).trans rfl)

theorem accAt_C (c : Dev nD) (t : Fin cfg0.N) (h7 : t.val % 8 = 7) :
    accAt m c t.val t.isLt = (soutC_0 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2,
        soutC_1 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2,
        soutC_2 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2,
        soutC_3 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2) := by
  obtain ⟨n, hn⟩ := t
  cases n with
  | zero => exact (by exfalso; (try dsimp only at h7); omega)
  | succ n => exact (dif_neg (by (try dsimp only at h7); omega)).trans ((dif_pos h7).trans rfl)

/-- What output window 2's staging buffer holds after the body at point t: at a last row-block what case C stores
    (the accumulator's contents there); elsewhere the buffer is idle and this value is never consulted. -/
def out2At (c : Dev nD) (t : Fin cfg0.N) : Vec F S16x2 .f32 :=
  if h7 : t.val % 8 = 7 then outC_2 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2
  else VO2.read (Elt F) VO2.junk

theorem out2At_C (c : Dev nD) (t : Fin cfg0.N) (h7 : t.val % 8 = 7) :
    out2At m c t = outC_2 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2 := dif_pos h7

/-- What output window 3's staging buffer holds after the body at point t: at a last row-block what case C stores
    (the accumulator's contents there); elsewhere the buffer is idle and this value is never consulted. -/
def out3At (c : Dev nD) (t : Fin cfg0.N) : Vec F S16x2 .f32 :=
  if h7 : t.val % 8 = 7 then outC_3 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2
  else VO3.read (Elt F) VO3.junk

theorem out3At_C (c : Dev nD) (t : Fin cfg0.N) (h7 : t.val % 8 = 7) :
    out3At m c t = outC_3 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2 := dif_pos h7

/-- What output window 4's staging buffer holds after the body at point t: at a last row-block what case C stores
    (the accumulator's contents there); elsewhere the buffer is idle and this value is never consulted. -/
def out4At (c : Dev nD) (t : Fin cfg0.N) : Vec F S16x2 .f32 :=
  if h7 : t.val % 8 = 7 then outC_4 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2
  else VO4.read (Elt F) VO4.junk

theorem out4At_C (c : Dev nD) (t : Fin cfg0.N) (h7 : t.val % 8 = 7) :
    out4At m c t = outC_4 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2 := dif_pos h7

/-- What output window 5's staging buffer holds after the body at point t: at a last row-block what case C stores
    (the accumulator's contents there); elsewhere the buffer is idle and this value is never consulted. -/
def out5At (c : Dev nD) (t : Fin cfg0.N) : Vec F S16x2 .f32 :=
  if h7 : t.val % 8 = 7 then outC_5 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2
  else VO5.read (Elt F) VO5.junk

theorem out5At_C (c : Dev nD) (t : Fin cfg0.N) (h7 : t.val % 8 = 7) :
    out5At m c t = outC_5 c (grid0.coords t) (ms0 t) (hs0 t) (ms1 t) (hs1 t) (ms2 t) (hs2 t) (ms3 t) (hs3 t) (ms4 t) (hs4 t) (ms5 t) (hs5 t) acc0 (Memref.isWhole_whole _) acc1 (Memref.isWhole_whole _) acc2 (Memref.isWhole_whole _) acc3 (Memref.isWhole_whole _) (hypC t h7).1 (hypC t h7).2.1 (hypC t h7).2.2 (Gen.iblk m c 0 t) (Gen.iblk m c 1 t) (accPrev m c t).1 (accPrev m c t).2.1 (accPrev m c t).2.2.1 (accPrev m c t).2.2.2 := dif_pos h7

/-! ## The region's invariant -/

/-- Before position n: at the start what the region is handed (the accumulators at anything); afterwards the accumulators at
    what the point before left, and the generator register at some state. -/
def PhiS (c : Dev nD) : (n : ℕ) → n ≤ cfg0.N → sProp 𝕄
  | 0, _ => Pipeline.ΦA spec0 c
  | n + 1, hn => iprop(iprop(owns (c : Thread nD τ) acc0 fullShare ((accAt m c n hn).1) ∗ owns (c : Thread nD τ) acc1 fullShare ((accAt m c n hn).2.1) ∗ owns (c : Thread nD τ) acc2 fullShare ((accAt m c n hn).2.2.1) ∗ owns (c : Thread nD τ) acc3 fullShare ((accAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) acc0 fullShare ((accAt m c n hn).1) ∗ owns (c : Thread nD τ) acc1 fullShare ((accAt m c n hn).2.1) ∗ owns (c : Thread nD τ) acc2 fullShare ((accAt m c n hn).2.2.1) ∗ owns (c : Thread nD τ) acc3 fullShare ((accAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) acc0 fullShare ((accAt m c (n - 1) (by omega)).1) ∗ owns (c : Thread nD τ) acc1 fullShare ((accAt m c (n - 1) (by omega)).2.1) ∗ owns (c : Thread nD τ) acc2 fullShare ((accAt m c (n - 1) (by omega)).2.2.1) ∗ owns (c : Thread nD τ) acc3 fullShare ((accAt m c (n - 1) (by omega)).2.2.2)) ∗ (∃ r, prngReg c r)) := by
  cases n with
  | zero => exact absurd rfl hz
  | succ n => rfl

/-! ## The pipeline's proof data -/

/-- The arrays as the region finds them; after the body each input's buffer at its block, each output's at `out·At`; the
    invariant `PhiS`; nothing owed; full shares. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => out2At m c t
    | ⟨3, _⟩ => out3At m c t
    | ⟨4, _⟩ => out4At m c t
    | ⟨5, _⟩ => out5At m c t
  Φ t := PhiS m c t.val (Nat.le_of_lt_succ t.isLt)
  q _ := fullShare
  owed _ := 0

theorem A_eq (c : Dev nD) (w : Fin cfg0.W) : (dats m 0 c).A w = Gen.V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = Gen.iblk m c 0 t := by dsimp only [dats]
theorem after1 (c : Dev nD) (t : Fin cfg0.N) : (dats m 0 c).after 1 t = Gen.iblk m c 1 t := by dsimp only [dats]
theorem after2 (c : Dev nD) (t : Fin cfg0.N) : (dats m 0 c).after 2 t = out2At m c t := by dsimp only [dats]
theorem after3 (c : Dev nD) (t : Fin cfg0.N) : (dats m 0 c).after 3 t = out3At m c t := by dsimp only [dats]
theorem after4 (c : Dev nD) (t : Fin cfg0.N) : (dats m 0 c).after 4 t = out4At m c t := by dsimp only [dats]
theorem after5 (c : Dev nD) (t : Fin cfg0.N) : (dats m 0 c).after 5 t = out5At m c t := by dsimp only [dats]

/-- Each input's current staging buffer holds its block at every point, fetched there or not. -/
theorem before0 (c : Dev nD) (t : Fin cfg0.N) (d) : (dats m 0 c).before 0 t d = Gen.iblk m c 0 t :=
  Gen.before0_0_of m (dats m 0 c) (A_eq m c 0) (after0 m c) t d
theorem before1 (c : Dev nD) (t : Fin cfg0.N) (d) : (dats m 0 c).before 1 t d = Gen.iblk m c 1 t :=
  Gen.before0_1_of m (dats m 0 c) (A_eq m c 1) (after1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 8000000 in
/-- The body at any point: the inputs' buffers hold their blocks; the point's case is decided by t % 8; the invariant hands the
    body the accumulators at what the point before left (at anything at the very first point) and takes them back at this
    point's contents; an output buffer is handed back untouched off the last row-block and with its stored block on it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  have hN : t.val < 16 := lt_of_lt_of_eq t.isLt (show cfg0.N = 16 from N_0)
  by_cases h0 : t.val % 8 = 0
  · have hl := (hypA t h0).2.2
    rw [Dat.leavesExact_idle (dats m 0 c) 2 t (idle_out t hl).1 (noFlush_out t hl).1,
      Dat.leavesExact_idle (dats m 0 c) 3 t (idle_out t hl).2.1 (noFlush_out t hl).2.1,
      Dat.leavesExact_idle (dats m 0 c) 4 t (idle_out t hl).2.2.1 (noFlush_out t hl).2.2.1,
      Dat.leavesExact_idle (dats m 0 c) 5 t (idle_out t hl).2.2.2 (noFlush_out t hl).2.2.2]
    rw [accAt_A m c t h0]
    unfold soutA_0 soutA_1 soutA_2 soutA_3; (try dsimp only)
    by_cases hz : t.val = 0
    · rw [PhiS_castSucc m c t, PhiS_zero m c _ _ hz, PhiA_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((bodyRunA c (grid0.coords t) _ _ _ _ _ _ _ _ _ _ _ _ _ _ _ _ _ _ _ _ (hypA t h0).1 (hypA t h0).2.1 (hypA t h0).2.2 (Gen.iblk m c 0 t) (Gen.iblk m c 1 t)).2.2.2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, ⟨%es3, HS3⟩⟩
      isplitl [HS0 HS1 HS2 HS3 Hg]
      · isplitl [HS0 HS1 HS2 HS3]
        ·
          isplitl [HS0]
          · unfold owns; iexists _; isplitr
            swap; · iexact HS0
            ipureintro; exact View.read_writes_of_cover _ _ _ _ _ (scoverA_0 _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverA_2 _ _ _ _ _ _ _ _ _ _ _ _ _ _ _ _ _ _ _ _ _ _ _ _ _ _ _)
          unfold owns; iexists _; isplitr
          swap; · iexact HS3
          ipureintro; exact View.read_writes_of_cover _ _ _ _ _ (scoverA_3 _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexists _; iexact H5
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((bodyRunA c (grid0.coords t) _ _ _ _ _ _ _ _ _ _ _ _ _ _ _ _ _ _ _ _ (hypA t h0).1 (hypA t h0).2.1 (hypA t h0).2.2 (Gen.iblk m c 0 t) (Gen.iblk m c 1 t)).2.2.2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      iintro ⟨H0, H1, H2, H3, H4, H5, ⟨%es0, HS0⟩, ⟨%es1, HS1⟩, ⟨%es2, HS2⟩, ⟨%es3, HS3⟩⟩
      isplitl [HS0 HS1 HS2 HS3 Hg]
      · isplitl [HS0 HS1 HS2 HS3]
        ·
          isplitl [HS0]
          · unfold owns; iexists _; isplitr
            swap; · iexact HS0
            ipureintro; exact View.read_writes_of_cover _ _ _ _ _ (scoverA_0 _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverA_2 _ _ _ _ _ _ _ _ _ _ _ _ _ _ _ _ _ _ _ _ _ _ _ _ _ _ _)
          unfold owns; iexists _; isplitr
          swap; · iexact HS3
          ipureintro; exact View.read_writes_of_cover _ _ _ _ _ (scoverA_3 _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexists _; iexact H5
  · have hz : t.val ≠ 0 := fun hz => h0 (by rw [hz])
    by_cases h7 : t.val % 8 = 7
    · have hl := (hypC t h7).2.2
      rw [show (dats m 0 c).leavesExact 2 t = owns (c : Thread nD τ) (ms2 t) fullShare ((dats m 0 c).after 2 t) from by
        unfold Dat.leavesExact; rw [(live_out t hl).1], after2, out2At_C m c t h7]
      rw [show (dats m 0 c).leavesExact 3 t = owns (c : Thread nD τ) (ms3 t) fullShare ((dats m 0 c).after 3 t) from by
        unfold Dat.leavesExact; rw [(live_out t hl).2.1], after3, out3At_C m c t h7]
      rw [show (dats m 0 c).leavesExact 4 t = owns (c : Thread nD τ) (ms4 t) fullShare ((dats m 0 c).after 4 t) from by
        unfold Dat.leavesExact; rw [(live_out t hl).2.2.1], after4, out4At_C m c t h7]
      rw [show (dats m 0 c).leavesExact 5 t = owns (c : Thread nD τ) (ms5 t) fullShare ((dats m 0 c).after 5 t) from by
        unfold Dat.leavesExact; rw [(live_out t hl).2.2.2], after5, out5At_C m c t h7]
      rw [accAt_C m c t h7]
      unfold outC_2 outC_3 outC_4 outC_5 soutC_0 soutC_1 soutC_2 soutC_3; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((bodyRunC c (grid0.coords t) _ _ _ _ _ _ _ _ _ _ _ _ _ _ _ _ _ _ _ _ (hypC t h7).1 (hypC t h7).2.1 (hypC t h7).2.2 (Gen.iblk m c 0 t) (Gen.iblk m c 1 t) _ _ _ _).2.2.2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      isplitl [HS3]; · iexact HS3
      iintro ⟨H0, H1, ⟨%e2, H2⟩, ⟨%e3, H3⟩, ⟨%e4, H4⟩, ⟨%e5, H5⟩, ⟨%es0, HS0⟩, ⟨%es1, HS1⟩, ⟨%es2, HS2⟩, ⟨%es3, HS3⟩⟩
      isplitl [HS0 HS1 HS2 HS3 Hg]
      · isplitl [HS0 HS1 HS2 HS3]
        ·
          isplitl [HS0]
          · unfold owns; iexists _; isplitr
            swap; · iexact HS0
            ipureintro; exact View.read_writes_of_cover _ _ _ _ _ (scoverC_0 _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverC_1 _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverC_2 _ _ _ _ _ _ _ _ _ _ _ _ _ _ _ _ _ _ _ _ _ _ _ _ _ _ _ _ _ _ _)
          unfold owns; iexists _; isplitr
          swap; · iexact HS3
          ipureintro; exact View.read_writes_of_cover _ _ _ _ _ (scoverC_3 _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC_2 _ _ _ _ _ _ _ _ _ _ _ _ _ _ _ _ _ _ _ _ _ _ _ _ _ _ _ _ _ _ _)
      isplitl [H3]
      · unfold owns; iexists _; isplitr
        swap; · iexact H3
        ipureintro; exact View.read_writes_of_cover _ _ _ _ _ (coverC_3 _ _ _ _ _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (coverC_4 _ _ _ _ _ _ _ _ _ _ _ _ _ _ _ _ _ _ _ _ _ _ _ _ _ _ _ _ _ _ _)
      unfold owns; iexists _; isplitr
      swap; · iexact H5
      ipureintro; exact View.read_writes_of_cover _ _ _ _ _ (coverC_5 _ _ _ _ _ _ _ _ _ _ _ _ _ _ _ _ _ _ _ _ _ _ _ _ _ _ _ _ _ _ _)
    · have hl := (hypB t h0 h7).2.2
      rw [Dat.leavesExact_idle (dats m 0 c) 2 t (idle_out t hl).1 (noFlush_out t hl).1,
        Dat.leavesExact_idle (dats m 0 c) 3 t (idle_out t hl).2.1 (noFlush_out t hl).2.1,
        Dat.leavesExact_idle (dats m 0 c) 4 t (idle_out t hl).2.2.1 (noFlush_out t hl).2.2.1,
        Dat.leavesExact_idle (dats m 0 c) 5 t (idle_out t hl).2.2.2 (noFlush_out t hl).2.2.2]
      rw [accAt_B m c t h0 h7]
      unfold soutB_0 soutB_1 soutB_2 soutB_3; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((bodyRunB c (grid0.coords t) _ _ _ _ _ _ _ _ _ _ _ _ _ _ _ _ _ _ _ _ (hypB t h0 h7).1 (hypB t h0 h7).2.1 (hypB t h0 h7).2.2 (Gen.iblk m c 0 t) (Gen.iblk m c 1 t) _ _ _ _).2.2.2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, ⟨%es3, HS3⟩⟩
      isplitl [HS0 HS1 HS2 HS3 Hg]
      · isplitl [HS0 HS1 HS2 HS3]
        ·
          isplitl [HS0]
          · unfold owns; iexists _; isplitr
            swap; · iexact HS0
            ipureintro; exact View.read_writes_of_cover _ _ _ _ _ (scoverB_0 _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverB_1 _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverB_2 _ _ _ _ _ _ _ _ _ _ _ _ _ _ _ _ _ _ _ _ _ _ _ _ _ _ _ _ _ _ _)
          unfold owns; iexists _; isplitr
          swap; · iexact HS3
          ipureintro; exact View.read_writes_of_cover _ _ _ _ _ (scoverB_3 _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives it back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, and every final state has every array of the pipeline at what the library
    computes from the proof data and every other unscoped buffer as the host lines after the region leave it. -/
theorem run_main : θ_run defs (onTc (τ := τ) (main (F := F))) (s₀ m ρ) (Pipeline.FramePost cfgs (dats m) 0 (Pipeline.afterTail₀ cfgs (dats m) 0 (Gen.V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := Gen.V0 m) (opss := [hostOps1, hostOps1_1, hostOps1_2]) (hsub := Gen.sfx_sub) (hfresh := Gen.sfx_fresh) (hkeep := Gen.sfx_keeps)
    (hmain := Gen.hmain m Variants.none) (hA := A_eq m) (hin := hin m) (hout := hout m)

/-- The frame claim at any float instance: @main runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_of m ρ (dats m) (A_eq m) (run_main m ρ)

end Cert.KernelIdeal.Body

end
-- ==== Proof.KPieces.lean ====
/-
  What the body's stores leave, as values: the pieces the runs found, read back.

  With the two input blocks at x0 (the network's output) and x1 (the target), the body loads from each the mask channel
  of either group (channel 3, channel 7) and the three image channels of either group (channels 0-2, 4-6), and computes
  four [16, 2] tables of per-sample sums over the block's 32 × 256 pixels: `blk0` (cross-entropy), `blk1` (masked norm),
  `blk2` (indicator), `blk3` (norm). At a first row-block each accumulator is left at its table; at a later one at what
  it held plus its table; at the last row-block each output buffer is left at what its accumulator then holds.
-/
import proofs.«148723_j17265768529972_2_alg».proof.Proof.FrameKernelIdeal.Frame
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The body's four loads from a [16, 8, 32, 256] block: the mask channel and the image channels of group 0 and of group 1. -/
abbrev ldM0 (x : Vec F S16x8x32x256 .f32) : Vec F S16x1x32x256 .f32 :=
  View.ld x (Rect.unit (s := S16x8x32x256) ![0, 3, 0, 0] S16x1x32x256.size inb_S16x8x32x256_S16x1x32x256_0_3_0_0)
abbrev ldM1 (x : Vec F S16x8x32x256 .f32) : Vec F S16x1x32x256 .f32 :=
  View.ld x (Rect.unit (s := S16x8x32x256) ![0, 7, 0, 0] S16x1x32x256.size inb_S16x8x32x256_S16x1x32x256_0_7_0_0)
abbrev ldI0 (x : Vec F S16x8x32x256 .f32) : Vec F S16x3x32x256 .f32 :=
  View.ld x (Rect.unit (s := S16x8x32x256) ![0, 0, 0, 0] S16x3x32x256.size inb_S16x8x32x256_S16x3x32x256_0_0_0_0)
abbrev ldI1 (x : Vec F S16x8x32x256 .f32) : Vec F S16x3x32x256 .f32 :=
  View.ld x (Rect.unit (s := S16x8x32x256) ![0, 4, 0, 0] S16x3x32x256.size inb_S16x8x32x256_S16x3x32x256_0_4_0_0)

/-- One grid point's four tables, from its two input blocks. -/
def blk0 (x0 x1 : Vec F S16x8x32x256 .f32) : Vec F S16x2 .f32 :=
  k0_pay7 (k0_pay16 (ldM0 x0) (ldM0 x1)) (k0_pay24 (ldM1 x0) (ldM1 x1))
def blk1 (x0 x1 : Vec F S16x8x32x256 .f32) : Vec F S16x2 .f32 :=
  k0_pay8 (k0_pay20 (k0_pay19 (ldM0 x0) (ldI0 x0) (ldI0 x1))) (k0_pay23 (ldM1 x0)) (k0_pay25 (ldI1 x0) (ldI1 x1))
def blk2 (x0 x1 : Vec F S16x8x32x256 .f32) : Vec F S16x2 .f32 :=
  k0_pay9 (k0_pay21 (k0_pay18 (ldM0 x0) (ldI0 x0) (ldI0 x1))) (k0_pay23 (ldM1 x0)) (k0_pay25 (ldI1 x0) (ldI1 x1))
def blk3 (x0 x1 : Vec F S16x8x32x256 .f32) : Vec F S16x2 .f32 :=
  k0_pay10 (k0_pay22 (k0_pay17 (ldI0 x0) (ldI0 x1))) (k0_pay25 (ldI1 x0) (ldI1 x1))

/-- A later point's accumulators: what they held, each with its table added. -/
def step0 (x0 x1 : Vec F S16x8x32x256 .f32) (acc : Vec F S16x2 .f32) : Vec F S16x2 .f32 :=
  k0_pay11 (k0_pay16 (ldM0 x0) (ldM0 x1)) (k0_pay24 (ldM1 x0) (ldM1 x1)) acc
def step1 (x0 x1 : Vec F S16x8x32x256 .f32) (acc : Vec F S16x2 .f32) : Vec F S16x2 .f32 :=
  k0_pay12 (k0_pay20 (k0_pay19 (ldM0 x0) (ldI0 x0) (ldI0 x1))) (k0_pay23 (ldM1 x0)) (k0_pay25 (ldI1 x0) (ldI1 x1)) acc
def step2 (x0 x1 : Vec F S16x8x32x256 .f32) (acc : Vec F S16x2 .f32) : Vec F S16x2 .f32 :=
  k0_pay13 (k0_pay21 (k0_pay18 (ldM0 x0) (ldI0 x0) (ldI0 x1))) (k0_pay23 (ldM1 x0)) (k0_pay25 (ldI1 x0) (ldI1 x1)) acc
def step3 (x0 x1 : Vec F S16x8x32x256 .f32) (acc : Vec F S16x2 .f32) : Vec F S16x2 .f32 :=
  k0_pay14 (k0_pay22 (k0_pay17 (ldI0 x0) (ldI0 x1))) (k0_pay25 (ldI1 x0) (ldI1 x1)) acc

theorem soutA_0_eq (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) :
    soutA_0 c i arg2 harg2 arg3 harg3 arg4 harg4 arg5 harg5 arg6 harg6 arg7 harg7 arg8 harg8 arg9 harg9 arg10 harg10 arg11 harg11 hc0 hc1 hc2 x0 x1 = blk0 x0 x1 := by
  unfold soutA_0
  rw [View.read_writes_eq_canon _ _ _ (scoverA_0 c i arg2 harg2 arg3 harg3 arg4 harg4 arg5 harg5 arg6 harg6 arg7 harg7 arg8 harg8 arg9 harg9 arg10 harg10 arg11 harg11 hc0 hc1 hc2 x0 x1)]
  unfold bodyRunA
  dsimp only
  sl_unfold_words
  rw [View.canon_unit_zero hz2]
  simp only [View.readAt_eq_ld, harg2.read_unread, harg3.read_unread]
  rfl

theorem soutA_1_eq (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) :
    soutA_1 c i arg2 harg2 arg3 harg3 arg4 harg4 arg5 harg5 arg6 harg6 arg7 harg7 arg8 harg8 arg9 harg9 arg10 harg10 arg11 harg11 hc0 hc1 hc2 x0 x1 = blk1 x0 x1 := by
  unfold soutA_1
  rw [View.read_writes_eq_canon _ _ _ (scoverA_1 c i arg2 harg2 arg3 harg3 arg4 harg4 arg5 harg5 arg6 harg6 arg7 harg7 arg8 harg8 arg9 harg9 arg10 harg10 arg11 harg11 hc0 hc1 hc2 x0 x1)]
  unfold bodyRunA
  dsimp only
  sl_unfold_words
  rw [View.canon_unit_zero hz2]
  simp only [View.readAt_eq_ld, harg2.read_unread, harg3.read_unread]
  rfl

theorem soutA_2_eq (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) :
    soutA_2 c i arg2 harg2 arg3 harg3 arg4 harg4 arg5 harg5 arg6 harg6 arg7 harg7 arg8 harg8 arg9 harg9 arg10 harg10 arg11 harg11 hc0 hc1 hc2 x0 x1 = blk2 x0 x1 := by
  unfold soutA_2
  rw [View.read_writes_eq_canon _ _ _ (scoverA_2 c i arg2 harg2 arg3 harg3 arg4 harg4 arg5 harg5 arg6 harg6 arg7 harg7 arg8 harg8 arg9 harg9 arg10 harg10 arg11 harg11 hc0 hc1 hc2 x0 x1)]
  unfold bodyRunA
  dsimp only
  sl_unfold_words
  rw [View.canon_unit_zero hz2]
  simp only [View.readAt_eq_ld, harg2.read_unread, harg3.read_unread]
  rfl

theorem soutA_3_eq (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : isFirst i) (hc1 : ¬ isLater i) (hc2 : ¬ isLast i)
    (x0 x1 : Vec F S16x8x32x256 .f32) :
    soutA_3 c i arg2 harg2 arg3 harg3 arg4 harg4 arg5 harg5 arg6 harg6 arg7 harg7 arg8 harg8 arg9 harg9 arg10 harg10 arg11 harg11 hc0 hc1 hc2 x0 x1 = blk3 x0 x1 := by
  unfold soutA_3
  rw [View.read_writes_eq_canon _ _ _ (scoverA_3 c i arg2 harg2 arg3 harg3 arg4 harg4 arg5 harg5 arg6 harg6 arg7 harg7 arg8 harg8 arg9 harg9 arg10 harg10 arg11 harg11 hc0 hc1 hc2 x0 x1)]
  unfold bodyRunA
  dsimp only
  sl_unfold_words
  rw [View.canon_unit_zero hz2]
  simp only [View.readAt_eq_ld, harg2.read_unread, harg3.read_unread]
  rfl

theorem soutB_0_eq (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) :
    soutB_0 c i arg2 harg2 arg3 harg3 arg4 harg4 arg5 harg5 arg6 harg6 arg7 harg7 arg8 harg8 arg9 harg9 arg10 harg10 arg11 harg11 hc0 hc1 hc2 x0 x1 xs0 xs1 xs2 xs3 = step0 x0 x1 xs0 := by
  unfold soutB_0
  rw [View.read_writes_eq_canon _ _ _ (scoverB_0 c i arg2 harg2 arg3 harg3 arg4 harg4 arg5 harg5 arg6 harg6 arg7 harg7 arg8 harg8 arg9 harg9 arg10 harg10 arg11 harg11 hc0 hc1 hc2 x0 x1 xs0 xs1 xs2 xs3)]
  unfold bodyRunB
  dsimp only
  sl_unfold_words
  rw [View.canon_unit_zero hz2]
  simp only [View.readAt_eq_ld, harg2.read_unread, harg3.read_unread, harg8.read_unread, View.ld_unit_zero (S := S16x2) hz2]
  rfl

theorem soutB_1_eq (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) :
    soutB_1 c i arg2 harg2 arg3 harg3 arg4 harg4 arg5 harg5 arg6 harg6 arg7 harg7 arg8 harg8 arg9 harg9 arg10 harg10 arg11 harg11 hc0 hc1 hc2 x0 x1 xs0 xs1 xs2 xs3 = step1 x0 x1 xs1 := by
  unfold soutB_1
  rw [View.read_writes_eq_canon _ _ _ (scoverB_1 c i arg2 harg2 arg3 harg3 arg4 harg4 arg5 harg5 arg6 harg6 arg7 harg7 arg8 harg8 arg9 harg9 arg10 harg10 arg11 harg11 hc0 hc1 hc2 x0 x1 xs0 xs1 xs2 xs3)]
  unfold bodyRunB
  dsimp only
  sl_unfold_words
  rw [View.canon_unit_zero hz2]
  simp only [View.readAt_eq_ld, harg2.read_unread, harg3.read_unread, harg9.read_unread, View.ld_unit_zero (S := S16x2) hz2]
  rfl

theorem soutB_2_eq (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) :
    soutB_2 c i arg2 harg2 arg3 harg3 arg4 harg4 arg5 harg5 arg6 harg6 arg7 harg7 arg8 harg8 arg9 harg9 arg10 harg10 arg11 harg11 hc0 hc1 hc2 x0 x1 xs0 xs1 xs2 xs3 = step2 x0 x1 xs2 := by
  unfold soutB_2
  rw [View.read_writes_eq_canon _ _ _ (scoverB_2 c i arg2 harg2 arg3 harg3 arg4 harg4 arg5 harg5 arg6 harg6 arg7 harg7 arg8 harg8 arg9 harg9 arg10 harg10 arg11 harg11 hc0 hc1 hc2 x0 x1 xs0 xs1 xs2 xs3)]
  unfold bodyRunB
  dsimp only
  sl_unfold_words
  rw [View.canon_unit_zero hz2]
  simp only [View.readAt_eq_ld, harg2.read_unread, harg3.read_unread, harg10.read_unread, View.ld_unit_zero (S := S16x2) hz2]
  rfl

theorem soutB_3_eq (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : ¬ isLast i)
    (x0 x1 : Vec F S16x8x32x256 .f32) (xs0 xs1 xs2 xs3 : Vec F S16x2 .f32) :
    soutB_3 c i arg2 harg2 arg3 harg3 arg4 harg4 arg5 harg5 arg6 harg6 arg7 harg7 arg8 harg8 arg9 harg9 arg10 harg10 arg11 harg11 hc0 hc1 hc2 x0 x1 xs0 xs1 xs2 xs3 = step3 x0 x1 xs3 := by
  unfold soutB_3
  rw [View.read_writes_eq_canon _ _ _ (scoverB_3 c i arg2 harg2 arg3 harg3 arg4 harg4 arg5 harg5 arg6 harg6 arg7 harg7 arg8 harg8 arg9 harg9 arg10 harg10 arg11 harg11 hc0 hc1 hc2 x0 x1 xs0 xs1 xs2 xs3)]
  unfold bodyRunB
  dsimp only
  sl_unfold_words
  rw [View.canon_unit_zero hz2]
  simp only [View.readAt_eq_ld, harg2.read_unread, harg3.read_unread, harg11.read_unread, View.ld_unit_zero (S := S16x2) hz2]
  rfl

theorem soutC_0_eq (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) :
    soutC_0 c i arg2 harg2 arg3 harg3 arg4 harg4 arg5 harg5 arg6 harg6 arg7 harg7 arg8 harg8 arg9 harg9 arg10 harg10 arg11 harg11 hc0 hc1 hc2 x0 x1 xs0 xs1 xs2 xs3 = step0 x0 x1 xs0 := by
  unfold soutC_0
  rw [View.read_writes_eq_canon _ _ _ (scoverC_0 c i arg2 harg2 arg3 harg3 arg4 harg4 arg5 harg5 arg6 harg6 arg7 harg7 arg8 harg8 arg9 harg9 arg10 harg10 arg11 harg11 hc0 hc1 hc2 x0 x1 xs0 xs1 xs2 xs3)]
  unfold bodyRunC
  dsimp only
  sl_unfold_words
  rw [View.canon_unit_zero hz2]
  simp only [View.readAt_eq_ld, harg2.read_unread, harg3.read_unread, harg8.read_unread, View.ld_unit_zero (S := S16x2) hz2]
  rfl

theorem soutC_1_eq (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) :
    soutC_1 c i arg2 harg2 arg3 harg3 arg4 harg4 arg5 harg5 arg6 harg6 arg7 harg7 arg8 harg8 arg9 harg9 arg10 harg10 arg11 harg11 hc0 hc1 hc2 x0 x1 xs0 xs1 xs2 xs3 = step1 x0 x1 xs1 := by
  unfold soutC_1
  rw [View.read_writes_eq_canon _ _ _ (scoverC_1 c i arg2 harg2 arg3 harg3 arg4 harg4 arg5 harg5 arg6 harg6 arg7 harg7 arg8 harg8 arg9 harg9 arg10 harg10 arg11 harg11 hc0 hc1 hc2 x0 x1 xs0 xs1 xs2 xs3)]
  unfold bodyRunC
  dsimp only
  sl_unfold_words
  rw [View.canon_unit_zero hz2]
  simp only [View.readAt_eq_ld, harg2.read_unread, harg3.read_unread, harg9.read_unread, View.ld_unit_zero (S := S16x2) hz2]
  rfl

theorem soutC_2_eq (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) :
    soutC_2 c i arg2 harg2 arg3 harg3 arg4 harg4 arg5 harg5 arg6 harg6 arg7 harg7 arg8 harg8 arg9 harg9 arg10 harg10 arg11 harg11 hc0 hc1 hc2 x0 x1 xs0 xs1 xs2 xs3 = step2 x0 x1 xs2 := by
  unfold soutC_2
  rw [View.read_writes_eq_canon _ _ _ (scoverC_2 c i arg2 harg2 arg3 harg3 arg4 harg4 arg5 harg5 arg6 harg6 arg7 harg7 arg8 harg8 arg9 harg9 arg10 harg10 arg11 harg11 hc0 hc1 hc2 x0 x1 xs0 xs1 xs2 xs3)]
  unfold bodyRunC
  dsimp only
  sl_unfold_words
  rw [View.canon_unit_zero hz2]
  simp only [View.readAt_eq_ld, harg2.read_unread, harg3.read_unread, harg10.read_unread, View.ld_unit_zero (S := S16x2) hz2]
  rfl

theorem soutC_3_eq (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) :
    soutC_3 c i arg2 harg2 arg3 harg3 arg4 harg4 arg5 harg5 arg6 harg6 arg7 harg7 arg8 harg8 arg9 harg9 arg10 harg10 arg11 harg11 hc0 hc1 hc2 x0 x1 xs0 xs1 xs2 xs3 = step3 x0 x1 xs3 := by
  unfold soutC_3
  rw [View.read_writes_eq_canon _ _ _ (scoverC_3 c i arg2 harg2 arg3 harg3 arg4 harg4 arg5 harg5 arg6 harg6 arg7 harg7 arg8 harg8 arg9 harg9 arg10 harg10 arg11 harg11 hc0 hc1 hc2 x0 x1 xs0 xs1 xs2 xs3)]
  unfold bodyRunC
  dsimp only
  sl_unfold_words
  rw [View.canon_unit_zero hz2]
  simp only [View.readAt_eq_ld, harg2.read_unread, harg3.read_unread, harg11.read_unread, View.ld_unit_zero (S := S16x2) hz2]
  rfl

theorem outC_2_eq (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) :
    outC_2 c i arg2 harg2 arg3 harg3 arg4 harg4 arg5 harg5 arg6 harg6 arg7 harg7 arg8 harg8 arg9 harg9 arg10 harg10 arg11 harg11 hc0 hc1 hc2 x0 x1 xs0 xs1 xs2 xs3 = step0 x0 x1 xs0 := by
  unfold outC_2
  rw [View.read_writes_eq_canon _ _ _ (coverC_2 c i arg2 harg2 arg3 harg3 arg4 harg4 arg5 harg5 arg6 harg6 arg7 harg7 arg8 harg8 arg9 harg9 arg10 harg10 arg11 harg11 hc0 hc1 hc2 x0 x1 xs0 xs1 xs2 xs3)]
  unfold bodyRunC
  dsimp only
  sl_unfold_words
  rw [View.canon_unit_zero hz2, View.readCov_unit_zero _ hz2]
  simp only [View.readAt_eq_ld, harg2.read_unread, harg3.read_unread, harg8.read_unread, View.ld_unit_zero (S := S16x2) hz2]
  rfl

theorem outC_3_eq (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) :
    outC_3 c i arg2 harg2 arg3 harg3 arg4 harg4 arg5 harg5 arg6 harg6 arg7 harg7 arg8 harg8 arg9 harg9 arg10 harg10 arg11 harg11 hc0 hc1 hc2 x0 x1 xs0 xs1 xs2 xs3 = step1 x0 x1 xs1 := by
  unfold outC_3
  rw [View.read_writes_eq_canon _ _ _ (coverC_3 c i arg2 harg2 arg3 harg3 arg4 harg4 arg5 harg5 arg6 harg6 arg7 harg7 arg8 harg8 arg9 harg9 arg10 harg10 arg11 harg11 hc0 hc1 hc2 x0 x1 xs0 xs1 xs2 xs3)]
  unfold bodyRunC
  dsimp only
  sl_unfold_words
  rw [View.canon_unit_zero hz2, View.readCov_unit_zero _ hz2]
  simp only [View.readAt_eq_ld, harg2.read_unread, harg3.read_unread, harg9.read_unread, View.ld_unit_zero (S := S16x2) hz2]
  rfl

theorem outC_4_eq (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) :
    outC_4 c i arg2 harg2 arg3 harg3 arg4 harg4 arg5 harg5 arg6 harg6 arg7 harg7 arg8 harg8 arg9 harg9 arg10 harg10 arg11 harg11 hc0 hc1 hc2 x0 x1 xs0 xs1 xs2 xs3 = step2 x0 x1 xs2 := by
  unfold outC_4
  rw [View.read_writes_eq_canon _ _ _ (coverC_4 c i arg2 harg2 arg3 harg3 arg4 harg4 arg5 harg5 arg6 harg6 arg7 harg7 arg8 harg8 arg9 harg9 arg10 harg10 arg11 harg11 hc0 hc1 hc2 x0 x1 xs0 xs1 xs2 xs3)]
  unfold bodyRunC
  dsimp only
  sl_unfold_words
  rw [View.canon_unit_zero hz2, View.readCov_unit_zero _ hz2]
  simp only [View.readAt_eq_ld, harg2.read_unread, harg3.read_unread, harg10.read_unread, View.ld_unit_zero (S := S16x2) hz2]
  rfl

theorem outC_5_eq (c : Dev nD) (i : grid0.Coords) (arg2 : Memref sig .tc .vmem S16x8x32x256 .f32) (harg2 : arg2.IsWhole) (arg3 : Memref sig .tc .vmem S16x8x32x256 .f32) (harg3 : arg3.IsWhole) (arg4 : Memref sig .tc .vmem S16x2 .f32) (harg4 : arg4.IsWhole) (arg5 : Memref sig .tc .vmem S16x2 .f32) (harg5 : arg5.IsWhole) (arg6 : Memref sig .tc .vmem S16x2 .f32) (harg6 : arg6.IsWhole) (arg7 : Memref sig .tc .vmem S16x2 .f32) (harg7 : arg7.IsWhole) (arg8 : Memref sig .tc .vmem S16x2 .f32) (harg8 : arg8.IsWhole) (arg9 : Memref sig .tc .vmem S16x2 .f32) (harg9 : arg9.IsWhole) (arg10 : Memref sig .tc .vmem S16x2 .f32) (harg10 : arg10.IsWhole) (arg11 : Memref sig .tc .vmem S16x2 .f32) (harg11 : arg11.IsWhole) (hc0 : ¬ isFirst i) (hc1 : isLater i) (hc2 : isLast i)
    (x0 x1 : Vec F S16x8x32x256 .f32) (xs0 xs1 xs2 xs3 : Vec F S16x2 .f32) :
    outC_5 c i arg2 harg2 arg3 harg3 arg4 harg4 arg5 harg5 arg6 harg6 arg7 harg7 arg8 harg8 arg9 harg9 arg10 harg10 arg11 harg11 hc0 hc1 hc2 x0 x1 xs0 xs1 xs2 xs3 = step3 x0 x1 xs3 := by
  unfold outC_5
  rw [View.read_writes_eq_canon _ _ _ (coverC_5 c i arg2 harg2 arg3 harg3 arg4 harg4 arg5 harg5 arg6 harg6 arg7 harg7 arg8 harg8 arg9 harg9 arg10 harg10 arg11 harg11 hc0 hc1 hc2 x0 x1 xs0 xs1 xs2 xs3)]
  unfold bodyRunC
  dsimp only
  sl_unfold_words
  rw [View.canon_unit_zero hz2, View.readCov_unit_zero _ hz2]
  simp only [View.readAt_eq_ld, harg2.read_unread, harg3.read_unread, harg11.read_unread, View.ld_unit_zero (S := S16x2) hz2]
  rfl

end Cert.KernelIdeal.Body

end
-- ==== Proof.BlkLayout.lean ====
/-
  Layout operations and one-axis sums of the kernel body, read at an index, over the body's literal shapes.

  * dropping the unit channel axis: the [16,1,32,256] block viewed as [16,32,256] has at (r, h, w) the entry (r, 0, h, w);
  * a vector of 16 entries set up as a [16,1] column has at (r, 0) the vector's entry r;
  * two [16,1] columns joined along axis 1 into [16,2]: column 0 is the first, column 1 the second;
  * a sum over one axis, at the extended reals, is the finite sum over that axis's coordinate:
    over the 256 columns of [16,32,256], over the 32 rows of [16,32], over the 3 channels of [16,3,32,256].
-/
import proofs.«148723_j17265768529972_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Blocks

open Idealize.ShloMosaic Idealize.ShloMosaic.ValueIdx Cert.KernelIdeal Cert.KernelIdeal.Gen

/-! ### Shape casts and the join of two columns -/

/-- The [16,1,32,256] block viewed as [16,32,256]: entry (r, h, w) is entry (r, 0, h, w). -/
theorem dropChan_apply {α : Type} (x : S16x1x32x256.Idx → α) (hc : S16x1x32x256.ShapeCasts S16x32x256)
    (r : Fin 16) (h : Fin 32) (w : Fin 256) :
    shapeCast S16x32x256 x hc (ix3 r h w) = x (ix4 r 0 h w) := by
  refine shapeCast_apply x hc (ix3 r h w) (ix4 r 0 h w) ?_
  rw [Shape.rowMajor_val_four, Shape.rowMajor_val_three]
  show (((r.val * 1 + 0) * 32 + h.val) * 256 + w.val) = ((r.val * 32 + h.val) * 256 + w.val)
  omega

/-- A vector of 16 entries as a [16,1] column: entry (r, 0) is the vector's entry r. -/
theorem column_apply {α : Type} (v : S16.Idx → α) (hc : S16.ShapeCasts S16x1) (r : Fin 16) :
    shapeCast S16x1 v hc (ix2 r 0) = v (ix1 r) := by
  refine shapeCast_apply v hc (ix2 r 0) (ix1 r) ?_
  rw [Shape.rowMajor_val_one, Shape.rowMajor_val_two]
  show r.val = r.val * 1 + 0
  omega

/-- Two [16,1] columns joined along axis 1: column 0 of the result is the first column. -/
theorem join_left {α : Type} (a b : S16x1.Idx → α) (hc : Shape.Concatenates [S16x1, S16x1] S16x2 1) (r : Fin 16) :
    concatenate S16x2 1 [⟨S16x1, a⟩, ⟨S16x1, b⟩] hc (ix2 r 0) = a (ix2 r 0) := by
  refine concatenate_pair_apply_left (t := S16x2) (s₁ := S16x1) (s₂ := S16x1) 1 a b hc (ix2 r 0) rfl (ix2 r 0) ?_
  intro c
  match c with
  | ⟨0, _⟩ => rfl
  | ⟨1, _⟩ => rfl

/-- … and column 1 of the result is the second column. -/
theorem join_right {α : Type} (a b : S16x1.Idx → α) (hc : Shape.Concatenates [S16x1, S16x1] S16x2 1) (r : Fin 16) :
    concatenate S16x2 1 [⟨S16x1, a⟩, ⟨S16x1, b⟩] hc (ix2 r 1) = b (ix2 r 0) := by
  refine concatenate_pair_apply_right (t := S16x2) (s₁ := S16x1) (s₂ := S16x1) 1 a b hc (ix2 r 1) rfl rfl (ix2 r 0) ?_ ?_
  · intro c hne
    match c with
    | ⟨0, _⟩ => rfl
    | ⟨1, _⟩ => exact absurd rfl hne
  · rfl

/-- The value the body stores in a [16,2] block whose two columns are the vectors `a` and `b`:
    at (r, 0) it is `a r`, at (r, 1) it is `b r`. -/
theorem pair_g0 {α : Type} (a b : S16.Idx → α) (hc : S16.ShapeCasts S16x1)
    (hj : Shape.Concatenates [S16x1, S16x1] S16x2 1) (hs : S16x2.ShapeCasts S16x2) (r : Fin 16) :
    shapeCast S16x2 (concatenate S16x2 1 [⟨S16x1, shapeCast S16x1 a hc⟩, ⟨S16x1, shapeCast S16x1 b hc⟩] hj) hs (ix2 r 0)
      = a (ix1 r) := by
  rw [shapeCast_self]
  exact (join_left _ _ hj r).trans (column_apply a hc r)

theorem pair_g1 {α : Type} (a b : S16.Idx → α) (hc : S16.ShapeCasts S16x1)
    (hj : Shape.Concatenates [S16x1, S16x1] S16x2 1) (hs : S16x2.ShapeCasts S16x2) (r : Fin 16) :
    shapeCast S16x2 (concatenate S16x2 1 [⟨S16x1, shapeCast S16x1 a hc⟩, ⟨S16x1, shapeCast S16x1 b hc⟩] hj) hs (ix2 r 1)
      = b (ix1 r) := by
  rw [shapeCast_self]
  exact (join_right _ _ hj r).trans (column_apply b hc r)

/-! ### Sums over one axis -/

/-- The sum over the 256 columns of a [16,32,256] vector, at (r, h). -/
theorem sumCols (x : FVec Ideal S16x32x256 .f32) (hr : S16x32x256.Reduces [2] S16x32) (hφ : FKind.Formats .f32)
    (hacc : (0x00000000#32 : BitVec 32) = FKind.add.neutral .f32 hφ) (r : Fin 16) (h : Fin 32) :
    multiReduction (F := Ideal) .add [2] S16x32 x 0x00000000#32 hr hφ hacc (ix2 r h) = ∑ w : Fin 256, x (ix3 r h w) := by
  refine (Ideal.multiReduction_add_single x 0x00000000#32 hr hφ hacc (ix2 r h)).trans ?_
  refine Finset.sum_congr rfl fun w _ => congrArg x ?_
  funext c
  match c with
  | ⟨0, _⟩ => rfl
  | ⟨1, _⟩ => rfl
  | ⟨2, _⟩ => rfl

/-- The sum over the 32 rows of a [16,32] vector, at r. -/
theorem sumRows (x : FVec Ideal S16x32 .f32) (hr : S16x32.Reduces [1] S16) (hφ : FKind.Formats .f32)
    (hacc : (0x00000000#32 : BitVec 32) = FKind.add.neutral .f32 hφ) (r : Fin 16) :
    multiReduction (F := Ideal) .add [1] S16 x 0x00000000#32 hr hφ hacc (ix1 r) = ∑ h : Fin 32, x (ix2 r h) := by
  refine (Ideal.multiReduction_add_single x 0x00000000#32 hr hφ hacc (ix1 r)).trans ?_
  refine Finset.sum_congr rfl fun h _ => congrArg x ?_
  funext c
  match c with
  | ⟨0, _⟩ => rfl
  | ⟨1, _⟩ => rfl

/-- The sum over the 3 channels of a [16,3,32,256] vector, at (r, h, w). -/
theorem sumChans (x : FVec Ideal S16x3x32x256 .f32) (hr : S16x3x32x256.Reduces [1] S16x32x256) (hφ : FKind.Formats .f32)
    (hacc : (0x00000000#32 : BitVec 32) = FKind.add.neutral .f32 hφ) (r : Fin 16) (h : Fin 32) (w : Fin 256) :
    multiReduction (F := Ideal) .add [1] S16x32x256 x 0x00000000#32 hr hφ hacc (ix3 r h w) = ∑ k : Fin 3, x (ix4 r k h w) := by
  refine (Ideal.multiReduction_add_single x 0x00000000#32 hr hφ hacc (ix3 r h w)).trans ?_
  refine Finset.sum_congr rfl fun k _ => congrArg x ?_
  funext c
  match c with
  | ⟨0, _⟩ => rfl
  | ⟨1, _⟩ => rfl
  | ⟨2, _⟩ => rfl
  | ⟨3, _⟩ => rfl

/-- The two sums in a row: over the columns, then over the rows. -/
theorem sumPixels (x : FVec Ideal S16x32x256 .f32) (hr2 : S16x32x256.Reduces [2] S16x32) (hr1 : S16x32.Reduces [1] S16)
    (hφ : FKind.Formats .f32) (hacc : (0x00000000#32 : BitVec 32) = FKind.add.neutral .f32 hφ) (r : Fin 16) :
    multiReduction (F := Ideal) .add [1] S16 (multiReduction (F := Ideal) .add [2] S16x32 x 0x00000000#32 hr2 hφ hacc)
        0x00000000#32 hr1 hφ hacc (ix1 r)
      = ∑ h : Fin 32, ∑ w : Fin 256, x (ix3 r h w) :=
  (sumRows _ hr1 hφ hacc r).trans (Finset.sum_congr rfl fun h _ => sumCols x hr2 hφ hacc r h)

end Cert.KernelIdeal.Blocks

end
-- ==== Proof.Spec.lean ====
/-
  The function both programs compute, over the extended reals, of the two input arrays
  `O` (the network's output) and `T` (the target), both of shape [32, 8, 256, 256]: eight channels in two
  groups of four, channel 4g+3 of a group the mask logit, channels 4g, 4g+1, 4g+2 its image.

  Per sample b, group g and pixel (h, w):
    prob   = 1 / (1 + e^(-O[b, 4g+3, h, w]))
    bce    = T[b, 4g+3, h, w] · max(log prob, -100) + (1 - T[b, 4g+3, h, w]) · max(log(1 + (-prob)), -100)
    dnorm  = sqrt(Σ_{k<3} (O[b, 4g+k, h, w] - T[b, 4g+k, h, w])²)
    masked = dnorm where prob > 0.7 (the f32 nearest 0.7), else 0
    ind    = 1 where masked ≠ 0, else 0
  Per (b, g) the four sums over the 256 × 256 pixels; then the scalar `tail` of the four [32, 2] tables:
    maskLoss g  = (-((Σ_b bceSum b g) / 32)) / 65536
    perSample   = mSum / max(count, 1) where count > 0, else dSum / 65536
    nocs g      = (Σ_b perSample b g) / 32
    loss        = (Σ_g (0.7 · maskLoss g + 0.3 · nocs g)) / 2
  Float literals stay the words the programs print (`Ideal.ofBits .f32 w`); only the zero word is evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An input array: [32, 8, 256, 256] extended reals. -/
abbrev Arr : Type := (⟨4, ![32, 8, 256, 256]⟩ : Shape).Idx → EReal

/-- A per-(sample, group) table. -/
abbrev Tab : Type := Fin 32 → Fin 2 → EReal

/-- Channel 4g + 3: the group's mask channel. -/
def chM (g : Fin 2) : Fin 8 := ⟨4 * g.val + 3, by omega⟩
/-- Channel 4g + k, k < 3: the group's image channels. -/
def chI (g : Fin 2) (k : Fin 3) : Fin 8 := ⟨4 * g.val + k.val, by omega⟩

/-- The words the programs print: -100.0, 1.0, the f32 nearest 0.7, the f32 nearest 0.3, 32.0, 65536.0, 2.0. -/
def wNegHundred : EReal := Ideal.ofBits .f32 0xC2C80000#32
def wOne : EReal := Ideal.ofBits .f32 0x3F800000#32
def wPt7 : EReal := Ideal.ofBits .f32 0x3F333333#32
def wPt3 : EReal := Ideal.ofBits .f32 0x3E99999A#32
def w32 : EReal := Ideal.ofBits .f32 0x42000000#32
def w65536 : EReal := Ideal.ofBits .f32 0x47800000#32
def wTwo : EReal := Ideal.ofBits .f32 0x40000000#32

/-! ### One pixel, as a function of the few numbers it reads -/

/-- The mask probability from the logit. -/
def probAt (o : EReal) : EReal := Ideal.logistic o

/-- The cross-entropy term from the mask logit `o` and the mask target `t`. -/
def bceAt (o t : EReal) : EReal :=
  t * max (Ideal.log (probAt o)) wNegHundred + (wOne - t) * max (Ideal.log1p (-(probAt o))) wNegHundred

/-- The Euclidean norm of the three image differences `x k - y k`. -/
def dnormAt (x y : Fin 3 → EReal) : EReal := Ideal.sqrt (∑ k : Fin 3, (x k - y k) * (x k - y k))

/-- The norm kept where the mask probability exceeds the threshold, else 0. -/
def maskedAt (o : EReal) (x y : Fin 3 → EReal) : EReal :=
  Scalar.select (Ideal.cmp .ogt (probAt o) wPt7) (dnormAt x y) 0

/-- 1 where the kept norm is not 0, else 0. -/
def indAt (o : EReal) (x y : Fin 3 → EReal) : EReal := if maskedAt o x y ≠ 0 then 1 else 0

/-! ### The pixels of the two arrays -/

variable (O T : Arr)

/-- The image channels of `A` at (b, g, h, w), as a function of k < 3. -/
def img (A : Arr) (b : Fin 32) (g : Fin 2) (h w : Fin 256) : Fin 3 → EReal := fun k => A (ix4 b (chI g k) h w)

def prob (b : Fin 32) (g : Fin 2) (h w : Fin 256) : EReal := probAt (O (ix4 b (chM g) h w))

def bce (b : Fin 32) (g : Fin 2) (h w : Fin 256) : EReal := bceAt (O (ix4 b (chM g) h w)) (T (ix4 b (chM g) h w))

def dnorm (b : Fin 32) (g : Fin 2) (h w : Fin 256) : EReal := dnormAt (img O b g h w) (img T b g h w)

def masked (b : Fin 32) (g : Fin 2) (h w : Fin 256) : EReal :=
  maskedAt (O (ix4 b (chM g) h w)) (img O b g h w) (img T b g h w)

def ind (b : Fin 32) (g : Fin 2) (h w : Fin 256) : EReal :=
  indAt (O (ix4 b (chM g) h w)) (img O b g h w) (img T b g h w)

def bceSum : Tab := fun b g => ∑ h : Fin 256, ∑ w : Fin 256, bce O T b g h w
def mSum : Tab := fun b g => ∑ h : Fin 256, ∑ w : Fin 256, masked O T b g h w
def count : Tab := fun b g => ∑ h : Fin 256, ∑ w : Fin 256, ind O T b g h w
def dSum : Tab := fun b g => ∑ h : Fin 256, ∑ w : Fin 256, dnorm O T b g h w

/-- The scalar the host computes from the four tables. -/
def maskLoss (B : Tab) (g : Fin 2) : EReal := Ideal.div (-(Ideal.div (∑ b : Fin 32, B b g) w32)) w65536
def perSample (M C D : Tab) (b : Fin 32) (g : Fin 2) : EReal :=
  Scalar.select (Ideal.cmp .ogt (C b g) 0) (Ideal.div (M b g) (max (C b g) wOne)) (Ideal.div (D b g) w65536)
def nocs (M C D : Tab) (g : Fin 2) : EReal := Ideal.div (∑ b : Fin 32, perSample M C D b g) w32
def tail (B M C D : Tab) : EReal :=
  Ideal.div (∑ g : Fin 2, (wPt7 * maskLoss B g + wPt3 * nocs M C D g)) wTwo

/-- The loss: the tail of the four pixel sums. -/
def loss : EReal := tail (bceSum O T) (mSum O T) (count O T) (dSum O T)

/-- The indicator as the programs spell it: the one-bit word of "x ≠ 0" widened to 32 bits, read as a signed integer. -/
theorem ind_word (x : EReal) :
    (((((Ideal.cmp .one x 0).setWidth 32 : BitVec 32).toInt : ℝ)) : EReal) = if x ≠ 0 then 1 else 0 := by
  unfold Ideal.cmp
  by_cases h : x = 0
  · simp [h]
  · simp [h]

end Cert.Spec

end
-- ==== Proof.BlkPixel.lean ====
/-
  The kernel body's arithmetic at ONE pixel (r, h, w) of a block, at the extended reals.

  From the mask logit o = x(r, 0, h, w) of a [16,1,32,256] block and the three image entries x(r, k, h, w), y(r, k, h, w),
  k < 3, of two [16,3,32,256] blocks the body computes
    the probability   logistic o,
    the cross-entropy term  t · max(log p, -100) + (1 - t) · max(log1p(0 - p), -100)   (0 - p = -p),
    the norm          sqrt(Σ_k (x k - y k)²),
    the kept norm     the norm where p > 0.7, else the zero word, which is 0,
    the indicator     the bit of "kept norm ≠ 0", widened and read as a signed integer: 1 or 0.
  Each is the specification's function of the same few numbers.
-/
import proofs.«148723_j17265768529972_2_alg».proof.Proof.BlkLayout
import proofs.«148723_j17265768529972_2_alg».proof.Proof.Spec

noncomputable section

namespace Cert.KernelIdeal.Blocks

open Idealize.ShloMosaic Idealize.ShloMosaic.ValueIdx Cert.KernelIdeal Cert.KernelIdeal.Gen

/-- the three image channels of a [16,3,32,256] block at (r, h, w) -/
def imgAt (x : Vec Ideal S16x3x32x256 .f32) (r : Fin 16) (h : Fin 32) (w : Fin 256) : Fin 3 → EReal := fun k => x (ix4 r k h w)

variable (v0 v2 v40 v42 : Vec Ideal S16x1x32x256 .f32) (v20 v21 v60 v61 : Vec Ideal S16x3x32x256 .f32)
  (r : Fin 16) (h : Fin 32) (w : Fin 256)

/-! ### The probability -/

/-- Group 0's probability at a pixel is the logistic function of the mask logit. -/
theorem prob15 : k0_pay15 (F := Ideal) v0 (ix3 r h w) = Cert.Spec.probAt (v0 (ix4 r 0 h w)) :=
  congrArg Cert.Spec.probAt (dropChan_apply v0 shapeCasts_S16x1x32x256_S16x32x256 r h w)

/-- Group 1's probability likewise. -/
theorem prob23 : k0_pay23 (F := Ideal) v40 (ix3 r h w) = Cert.Spec.probAt (v40 (ix4 r 0 h w)) :=
  congrArg Cert.Spec.probAt (dropChan_apply v40 shapeCasts_S16x1x32x256_S16x32x256 r h w)

/-! ### The cross-entropy term -/

/-- The term as the body spells it, with `0 - p` for `-p`, is the specification's. -/
theorem bce_word (o t : EReal) :
    t * max (Ideal.log (Cert.Spec.probAt o)) (Ideal.ofBits .f32 0xC2C80000#32)
        + (Ideal.ofBits .f32 0x3F800000#32 - t)
          * max (Ideal.log1p (Ideal.ofBits .f32 0x00000000#32 - Cert.Spec.probAt o)) (Ideal.ofBits .f32 0xC2C80000#32)
      = Cert.Spec.bceAt o t := by
  rw [Ideal.ofBits_zero_f32, zero_sub]
  rfl

/-! ### The norm of the image difference -/

/-- Group 0's norm at a pixel. -/
theorem dnorm17 : k0_pay17 (F := Ideal) v20 v21 (ix3 r h w) = Cert.Spec.dnormAt (imgAt v20 r h w) (imgAt v21 r h w) := by
  unfold k0_pay17
  exact congrArg Ideal.sqrt (sumChans _ _ _ _ r h w)

/-- Group 1's norm at a pixel, from the squared differences. -/
theorem dnorm1 : k0_pay1 (F := Ideal) (k0_pay25 v60 v61) (ix3 r h w)
    = Cert.Spec.dnormAt (imgAt v60 r h w) (imgAt v61 r h w) := by
  unfold k0_pay1
  exact congrArg Ideal.sqrt (sumChans _ _ _ _ r h w)

/-! ### The kept norm -/

/-- Group 0's kept norm at a pixel. -/
theorem masked18 : k0_pay18 (F := Ideal) v0 v20 v21 (ix3 r h w)
    = Cert.Spec.maskedAt (v0 (ix4 r 0 h w)) (imgAt v20 r h w) (imgAt v21 r h w) := by
  unfold k0_pay18
  show Scalar.select (Ideal.cmp .ogt (k0_pay15 (F := Ideal) v0 (ix3 r h w)) (Ideal.ofBits .f32 0x3F333333#32))
      (k0_pay17 (F := Ideal) v20 v21 (ix3 r h w)) (Ideal.ofBits .f32 0x00000000#32) = _
  rw [prob15, dnorm17, Ideal.ofBits_zero_f32]
  rfl

/-- Group 1's kept norm at a pixel. -/
theorem masked2 : k0_pay2 (F := Ideal) (k0_pay23 v40) (k0_pay25 v60 v61) (ix3 r h w)
    = Cert.Spec.maskedAt (v40 (ix4 r 0 h w)) (imgAt v60 r h w) (imgAt v61 r h w) := by
  unfold k0_pay2
  show Scalar.select (Ideal.cmp .ogt (k0_pay23 (F := Ideal) v40 (ix3 r h w)) (Ideal.ofBits .f32 0x3F333333#32))
      (k0_pay1 (F := Ideal) (k0_pay25 v60 v61) (ix3 r h w)) (Ideal.ofBits .f32 0x00000000#32) = _
  rw [prob23, dnorm1, Ideal.ofBits_zero_f32]
  rfl

/-! ### The indicator -/

/-- The bit of "m ≠ 0" at an index, widened to 32 bits and read as a signed integer, is 1 where m is not 0, else 0. -/
theorem ind_apply (m : FVec Ideal S16x32x256 .f32) (hlt : 1 < 32) (i : S16x32x256.Idx) :
    (sitofp (F := Ideal) .f32 (extui 32 (cmpf .one m (broadcast S16x32x256 (Scalar.ofBits (F := Ideal) .f32 0x00000000#32))) hlt)
        : FVec Ideal S16x32x256 .f32) i
      = if m i ≠ 0 then 1 else 0 := by
  show (((((Ideal.cmp .one (m i) (Ideal.ofBits .f32 0x00000000#32)).setWidth 32 : BitVec 32).toInt : ℝ)) : EReal) = _
  rw [Ideal.ofBits_zero_f32]
  exact Cert.Spec.ind_word (m i)

end Cert.KernelIdeal.Blocks

end
-- ==== Proof.BlkSums.lean ====
/-
  The per-sample sums of a block: for sample r of a block of 32 rows and 256 columns, the sum over the 32 × 256 pixels
  of the cross-entropy term, of the kept norm, of the indicator and of the norm — and the kernel body's vectors of
  16 such sums, read at entry r, are these.
-/
import proofs.«148723_j17265768529972_2_alg».proof.Proof.BlkPixel

noncomputable section

namespace Cert.KernelIdeal.Blocks

open Idealize.ShloMosaic Idealize.ShloMosaic.ValueIdx Cert.KernelIdeal Cert.KernelIdeal.Gen

/-- the sum of the cross-entropy terms of sample r over the block's pixels -/
def blkBce (x t : Vec Ideal S16x1x32x256 .f32) (r : Fin 16) : EReal :=
  ∑ h : Fin 32, ∑ w : Fin 256, Cert.Spec.bceAt (x (ix4 r 0 h w)) (t (ix4 r 0 h w))
/-- the sum of the kept norms -/
def blkMs (o : Vec Ideal S16x1x32x256 .f32) (x y : Vec Ideal S16x3x32x256 .f32) (r : Fin 16) : EReal :=
  ∑ h : Fin 32, ∑ w : Fin 256, Cert.Spec.maskedAt (o (ix4 r 0 h w)) (imgAt x r h w) (imgAt y r h w)
/-- the number of pixels whose kept norm is not 0 -/
def blkCt (o : Vec Ideal S16x1x32x256 .f32) (x y : Vec Ideal S16x3x32x256 .f32) (r : Fin 16) : EReal :=
  ∑ h : Fin 32, ∑ w : Fin 256, Cert.Spec.indAt (o (ix4 r 0 h w)) (imgAt x r h w) (imgAt y r h w)
/-- the sum of the norms -/
def blkDn (x y : Vec Ideal S16x3x32x256 .f32) (r : Fin 16) : EReal :=
  ∑ h : Fin 32, ∑ w : Fin 256, Cert.Spec.dnormAt (imgAt x r h w) (imgAt y r h w)

variable (v0 v2 v40 v42 : Vec Ideal S16x1x32x256 .f32) (v20 v21 v60 v61 : Vec Ideal S16x3x32x256 .f32) (r : Fin 16)

/-! ### The cross-entropy sums -/

/-- Group 0's cross-entropy sum. -/
theorem bce16 : k0_pay16 (F := Ideal) v0 v2 (ix1 r) = blkBce v0 v2 r := by
  unfold k0_pay16
  refine (sumPixels _ _ _ _ _ r).trans ?_
  refine Finset.sum_congr rfl fun h _ => Finset.sum_congr rfl fun w _ => ?_
  have e1 := dropChan_apply v2 shapeCasts_S16x1x32x256_S16x32x256 r h w
  have e2 := prob15 v0 r h w
  refine Eq.trans ?_ (bce_word (v0 (ix4 r 0 h w)) (v2 (ix4 r 0 h w)))
  show shapeCast S16x32x256 v2 shapeCasts_S16x1x32x256_S16x32x256 (ix3 r h w)
        * max (Ideal.log (k0_pay15 (F := Ideal) v0 (ix3 r h w))) (Ideal.ofBits .f32 0xC2C80000#32)
      + (Ideal.ofBits .f32 0x3F800000#32 - shapeCast S16x32x256 v2 shapeCasts_S16x1x32x256_S16x32x256 (ix3 r h w))
        * max (Ideal.log1p (Ideal.ofBits .f32 0x00000000#32 - k0_pay15 (F := Ideal) v0 (ix3 r h w))) (Ideal.ofBits .f32 0xC2C80000#32)
      = _
  rw [e1, e2]

/-- Group 1's cross-entropy sum. -/
theorem bce24 : k0_pay24 (F := Ideal) v40 v42 (ix1 r) = blkBce v40 v42 r := by
  unfold k0_pay24
  refine (sumPixels _ _ _ _ _ r).trans ?_
  refine Finset.sum_congr rfl fun h _ => Finset.sum_congr rfl fun w _ => ?_
  have e1 := dropChan_apply v42 shapeCasts_S16x1x32x256_S16x32x256 r h w
  have e2 := prob23 v40 r h w
  refine Eq.trans ?_ (bce_word (v40 (ix4 r 0 h w)) (v42 (ix4 r 0 h w)))
  show shapeCast S16x32x256 v42 shapeCasts_S16x1x32x256_S16x32x256 (ix3 r h w)
        * max (Ideal.log (k0_pay23 (F := Ideal) v40 (ix3 r h w))) (Ideal.ofBits .f32 0xC2C80000#32)
      + (Ideal.ofBits .f32 0x3F800000#32 - shapeCast S16x32x256 v42 shapeCasts_S16x1x32x256_S16x32x256 (ix3 r h w))
        * max (Ideal.log1p (Ideal.ofBits .f32 0x00000000#32 - k0_pay23 (F := Ideal) v40 (ix3 r h w))) (Ideal.ofBits .f32 0xC2C80000#32)
      = _
  rw [e1, e2]

/-! ### The kept-norm sums -/

/-- Group 0's kept-norm sum. -/
theorem ms20 : k0_pay20 (F := Ideal) (k0_pay19 v0 v20 v21) (ix1 r) = blkMs v0 v20 v21 r := by
  unfold k0_pay20 k0_pay19
  refine (sumPixels _ _ _ _ _ r).trans ?_
  exact Finset.sum_congr rfl fun h _ => Finset.sum_congr rfl fun w _ => masked18 v0 v20 v21 r h w

/-- Group 1's kept-norm sum. -/
theorem ms71 (hr2 : S16x32x256.Reduces [2] S16x32) (hr1 : S16x32.Reduces [1] S16)
    (hφ : FKind.Formats .f32) (hacc : (0x00000000#32 : BitVec 32) = FKind.add.neutral .f32 hφ) :
    multiReduction (F := Ideal) .add [1] S16
        (multiReduction (F := Ideal) .add [2] S16x32 (k0_pay2 (k0_pay23 v40) (k0_pay25 v60 v61)) 0x00000000#32 hr2 hφ hacc)
        0x00000000#32 hr1 hφ hacc (ix1 r)
      = blkMs v40 v60 v61 r :=
  (sumPixels _ hr2 hr1 hφ hacc r).trans
    (Finset.sum_congr rfl fun h _ => Finset.sum_congr rfl fun w _ => masked2 v40 v60 v61 r h w)

/-! ### The counts -/

/-- Group 0's count. -/
theorem ct21 : k0_pay21 (F := Ideal) (k0_pay18 v0 v20 v21) (ix1 r) = blkCt v0 v20 v21 r := by
  unfold k0_pay21
  refine (sumPixels _ _ _ _ _ r).trans ?_
  refine Finset.sum_congr rfl fun h _ => Finset.sum_congr rfl fun w _ => ?_
  refine (ind_apply _ _ (ix3 r h w)).trans ?_
  rw [masked18]
  rfl

/-- Group 1's count. -/
theorem ct77 (hlt : 1 < 32) (hr2 : S16x32x256.Reduces [2] S16x32) (hr1 : S16x32.Reduces [1] S16)
    (hφ : FKind.Formats .f32) (hacc : (0x00000000#32 : BitVec 32) = FKind.add.neutral .f32 hφ) :
    multiReduction (F := Ideal) .add [1] S16
        (multiReduction (F := Ideal) .add [2] S16x32
          (sitofp (F := Ideal) .f32 (extui 32 (cmpf .one (k0_pay2 (F := Ideal) (k0_pay23 v40) (k0_pay25 v60 v61))
            (broadcast S16x32x256 (Scalar.ofBits (F := Ideal) .f32 0x00000000#32))) hlt))
          0x00000000#32 hr2 hφ hacc)
        0x00000000#32 hr1 hφ hacc (ix1 r)
      = blkCt v40 v60 v61 r := by
  refine (sumPixels _ hr2 hr1 hφ hacc r).trans ?_
  refine Finset.sum_congr rfl fun h _ => Finset.sum_congr rfl fun w _ => ?_
  refine (ind_apply _ _ (ix3 r h w)).trans ?_
  rw [masked2]
  rfl

/-! ### The norm sums -/

/-- Group 0's norm sum. -/
theorem dn22 : k0_pay22 (F := Ideal) (k0_pay17 v20 v21) (ix1 r) = blkDn v20 v21 r := by
  unfold k0_pay22
  refine (sumPixels _ _ _ _ _ r).trans ?_
  exact Finset.sum_congr rfl fun h _ => Finset.sum_congr rfl fun w _ => dnorm17 v20 v21 r h w

/-- Group 1's norm sum. -/
theorem dn79 (hr2 : S16x32x256.Reduces [2] S16x32) (hr1 : S16x32.Reduces [1] S16)
    (hφ : FKind.Formats .f32) (hacc : (0x00000000#32 : BitVec 32) = FKind.add.neutral .f32 hφ) :
    multiReduction (F := Ideal) .add [1] S16
        (multiReduction (F := Ideal) .add [2] S16x32 (k0_pay1 (k0_pay25 v60 v61)) 0x00000000#32 hr2 hφ hacc)
        0x00000000#32 hr1 hφ hacc (ix1 r)
      = blkDn v60 v61 r :=
  (sumPixels _ hr2 hr1 hφ hacc r).trans
    (Finset.sum_congr rfl fun h _ => Finset.sum_congr rfl fun w _ => dnorm1 v60 v61 r h w)

end Cert.KernelIdeal.Blocks

end
-- ==== Proof.BlkPayloads.lean ====
/-
  What the kernel body stores, read at an index.

  The body stores four [16,2] blocks: row r is the sample, column 0 is group 0 (channels 0..3) and column 1 is group 1
  (channels 4..7). Each block is two vectors of 16 per-sample sums set up as columns and joined along axis 1, so at (r, 0)
  it is group 0's sum for sample r and at (r, 1) group 1's: the sums of the cross-entropy term, of the kept norm, of the
  indicator and of the norm over the block's 32 × 256 pixels. At the later points of a row of the grid the same block is
  added to what the scratch buffer held.
-/
import proofs.«148723_j17265768529972_2_alg».proof.Proof.BlkSums

noncomputable section

namespace Cert.KernelIdeal.Blocks

open Idealize.ShloMosaic Idealize.ShloMosaic.ValueIdx Cert.KernelIdeal Cert.KernelIdeal.Gen

section First
variable (v0 v2 v40 v42 : Vec Ideal S16x1x32x256 .f32) (v20 v21 v60 v61 : Vec Ideal S16x3x32x256 .f32) (r : Fin 16)

/-- The cross-entropy block: column 0. -/
theorem pay7_g0 : k0_pay7 (F := Ideal) (k0_pay16 v0 v2) (k0_pay24 v40 v42) (ix2 r 0) = blkBce v0 v2 r := by
  unfold k0_pay7 k0_pay3
  exact (pair_g0 _ _ _ _ _ r).trans (bce16 v0 v2 r)

/-- The cross-entropy block: column 1. -/
theorem pay7_g1 : k0_pay7 (F := Ideal) (k0_pay16 v0 v2) (k0_pay24 v40 v42) (ix2 r 1) = blkBce v40 v42 r := by
  unfold k0_pay7 k0_pay3
  exact (pair_g1 _ _ _ _ _ r).trans (bce24 v40 v42 r)

/-- The kept-norm block: column 0. -/
theorem pay8_g0 : k0_pay8 (F := Ideal) (k0_pay20 (k0_pay19 v0 v20 v21)) (k0_pay23 v40) (k0_pay25 v60 v61) (ix2 r 0)
    = blkMs v0 v20 v21 r := by
  unfold k0_pay8 k0_pay4
  exact (pair_g0 _ _ _ _ _ r).trans (ms20 v0 v20 v21 r)

/-- The kept-norm block: column 1. -/
theorem pay8_g1 : k0_pay8 (F := Ideal) (k0_pay20 (k0_pay19 v0 v20 v21)) (k0_pay23 v40) (k0_pay25 v60 v61) (ix2 r 1)
    = blkMs v40 v60 v61 r := by
  unfold k0_pay8 k0_pay4
  exact (pair_g1 _ _ _ _ _ r).trans (ms71 v40 v60 v61 r _ _ _ _)

/-- The count block: column 0. -/
theorem pay9_g0 : k0_pay9 (F := Ideal) (k0_pay21 (k0_pay18 v0 v20 v21)) (k0_pay23 v40) (k0_pay25 v60 v61) (ix2 r 0)
    = blkCt v0 v20 v21 r := by
  unfold k0_pay9 k0_pay5
  exact (pair_g0 _ _ _ _ _ r).trans (ct21 v0 v20 v21 r)

/-- The count block: column 1. -/
theorem pay9_g1 : k0_pay9 (F := Ideal) (k0_pay21 (k0_pay18 v0 v20 v21)) (k0_pay23 v40) (k0_pay25 v60 v61) (ix2 r 1)
    = blkCt v40 v60 v61 r := by
  unfold k0_pay9 k0_pay5
  exact (pair_g1 _ _ _ _ _ r).trans (ct77 v40 v60 v61 r _ _ _ _ _)

/-- The norm block: column 0. -/
theorem pay10_g0 : k0_pay10 (F := Ideal) (k0_pay22 (k0_pay17 v20 v21)) (k0_pay25 v60 v61) (ix2 r 0) = blkDn v20 v21 r := by
  unfold k0_pay10 k0_pay6
  exact (pair_g0 _ _ _ _ _ r).trans (dn22 v20 v21 r)

/-- The norm block: column 1. -/
theorem pay10_g1 : k0_pay10 (F := Ideal) (k0_pay22 (k0_pay17 v20 v21)) (k0_pay25 v60 v61) (ix2 r 1) = blkDn v60 v61 r := by
  unfold k0_pay10 k0_pay6
  exact (pair_g1 _ _ _ _ _ r).trans (dn79 v60 v61 r _ _ _ _)

end First

/-! ### The later points of a row of the grid: the block added to what the scratch held -/

section Later
variable (v19 v59 v31 v37 v39 : FVec Ideal S16 .f32) (v44 : FVec Ideal S16x32x256 .f32) (v63 : FVec Ideal S16x3x32x256 .f32)
  (acc : Vec Ideal S16x2 .f32) (j : S16x2.Idx)

theorem pay11_apply : k0_pay11 (F := Ideal) v19 v59 acc j = acc j + k0_pay7 (F := Ideal) v19 v59 j := by
  unfold k0_pay11 k0_pay7
  rw [shapeCast_self, shapeCast_self]
  rfl

theorem pay12_apply : k0_pay12 (F := Ideal) v31 v44 v63 acc j = acc j + k0_pay8 (F := Ideal) v31 v44 v63 j := by
  unfold k0_pay12 k0_pay8
  rw [shapeCast_self, shapeCast_self]
  rfl

theorem pay13_apply : k0_pay13 (F := Ideal) v37 v44 v63 acc j = acc j + k0_pay9 (F := Ideal) v37 v44 v63 j := by
  unfold k0_pay13 k0_pay9
  rw [shapeCast_self, shapeCast_self]
  rfl

theorem pay14_apply : k0_pay14 (F := Ideal) v39 v63 acc j = acc j + k0_pay10 (F := Ideal) v39 v63 j := by
  unfold k0_pay14 k0_pay10
  rw [shapeCast_self, shapeCast_self]
  rfl

end Later

end Cert.KernelIdeal.Blocks

end
-- ==== Proof.KAcc.lean ====
/-
  The accumulators in closed form, over the extended reals.

  Along one half of the batch (a = 0 or 1) the grid visits the row-blocks k = 0 … 7 at the points 8a + k. The accumulators
  are overwritten with the point's four tables at k = 0 and have them added at k > 0, so after point 8a + k each holds the
  sum of the tables of the points 8a … 8a + k; and at k = 7 the four output buffers are left holding exactly that.
-/
import proofs.«148723_j17265768529972_2_alg».proof.Proof.KPieces
import proofs.«148723_j17265768529972_2_alg».proof.Proof.BlkPayloads

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

/-- Point t's four tables: the body's sums over the block the point finds in its two input buffers. -/
abbrev B0 (c : Dev nD) (t : Fin cfg0.N) : Vec Ideal S16x2 .f32 := blk0 (Gen.iblk m c 0 t) (Gen.iblk m c 1 t)
abbrev B1 (c : Dev nD) (t : Fin cfg0.N) : Vec Ideal S16x2 .f32 := blk1 (Gen.iblk m c 0 t) (Gen.iblk m c 1 t)
abbrev B2 (c : Dev nD) (t : Fin cfg0.N) : Vec Ideal S16x2 .f32 := blk2 (Gen.iblk m c 0 t) (Gen.iblk m c 1 t)
abbrev B3 (c : Dev nD) (t : Fin cfg0.N) : Vec Ideal S16x2 .f32 := blk3 (Gen.iblk m c 0 t) (Gen.iblk m c 1 t)

/-- Adding a table: entry by entry the accumulator's entry plus the table's. -/
theorem step0_apply (x0 x1 : Vec Ideal S16x8x32x256 .f32) (acc : Vec Ideal S16x2 .f32) (i : S16x2.Idx) :
    step0 x0 x1 acc i = acc i + blk0 x0 x1 i := by unfold step0 blk0; exact Blocks.pay11_apply _ _ _ _
theorem step1_apply (x0 x1 : Vec Ideal S16x8x32x256 .f32) (acc : Vec Ideal S16x2 .f32) (i : S16x2.Idx) :
    step1 x0 x1 acc i = acc i + blk1 x0 x1 i := by unfold step1 blk1; exact Blocks.pay12_apply _ _ _ _ _
theorem step2_apply (x0 x1 : Vec Ideal S16x8x32x256 .f32) (acc : Vec Ideal S16x2 .f32) (i : S16x2.Idx) :
    step2 x0 x1 acc i = acc i + blk2 x0 x1 i := by unfold step2 blk2; exact Blocks.pay13_apply _ _ _ _ _
theorem step3_apply (x0 x1 : Vec Ideal S16x8x32x256 .f32) (acc : Vec Ideal S16x2 .f32) (i : S16x2.Idx) :
    step3 x0 x1 acc i = acc i + blk3 x0 x1 i := by unfold step3 blk3; exact Blocks.pay14_apply _ _ _ _

/-- At a first row-block the accumulators are the point's tables. -/
theorem acc_first (c : Dev nD) (t : Fin cfg0.N) (h0 : t.val % 8 = 0) :
    accAt m c t.val t.isLt = (B0 m c t, B1 m c t, B2 m c t, B3 m c t) := by
  rw [accAt_A m c t h0, soutA_0_eq, soutA_1_eq, soutA_2_eq, soutA_3_eq]

/-- At a later one they are what the point before left, each with the point's table added. -/
theorem acc_later (c : Dev nD) (t : Fin cfg0.N) (h0 : ¬ t.val % 8 = 0) :
    accAt m c t.val t.isLt
      = (step0 (Gen.iblk m c 0 t) (Gen.iblk m c 1 t) (accPrev m c t).1, step1 (Gen.iblk m c 0 t) (Gen.iblk m c 1 t) (accPrev m c t).2.1,
         step2 (Gen.iblk m c 0 t) (Gen.iblk m c 1 t) (accPrev m c t).2.2.1, step3 (Gen.iblk m c 0 t) (Gen.iblk m c 1 t) (accPrev m c t).2.2.2) := by
  by_cases h7 : t.val % 8 = 7
  · rw [accAt_C m c t h7, soutC_0_eq, soutC_1_eq, soutC_2_eq, soutC_3_eq]
  · rw [accAt_B m c t h0 h7, soutB_0_eq, soutB_1_eq, soutB_2_eq, soutB_3_eq]

/-- At the last row-block each output buffer is left at what its accumulator then holds. -/
theorem out_last (c : Dev nD) (t : Fin cfg0.N) (h7 : t.val % 8 = 7) :
    out2At m c t = (accAt m c t.val t.isLt).1 ∧ out3At m c t = (accAt m c t.val t.isLt).2.1
      ∧ out4At m c t = (accAt m c t.val t.isLt).2.2.1 ∧ out5At m c t = (accAt m c t.val t.isLt).2.2.2 := by
  rw [acc_later m c t (by omega), out2At_C m c t h7, out3At_C m c t h7, out4At_C m c t h7, out5At_C m c t h7,
    outC_2_eq, outC_3_eq, outC_4_eq, outC_5_eq]
  exact ⟨rfl, rfl, rfl, rfl⟩

theorem accAt_congr (c : Dev nD) {n n' : ℕ} (e : n = n') (h : n < cfg0.N) (h' : n' < cfg0.N) :
    accAt m c n h = accAt m c n' h' := by subst e; rfl

theorem bnd (a : Fin 2) (k : ℕ) (hk : k < 8) : 8 * a.val + k < cfg0.N := by
  have := a.isLt; have : cfg0.N = 16 := N_0; omega

/-- After point 8a + k each accumulator holds the sum of its tables over the points 8a … 8a + k. -/
theorem acc_closed (c : Dev nD) (a : Fin 2) : ∀ (k : ℕ) (hk : k < 8),
    (∀ i, (accAt m c (8 * a.val + k) (bnd a k hk)).1 i = ∑ q : Fin (k + 1), B0 m c ⟨8 * a.val + q.val, bnd a q.val (by omega)⟩ i)
    ∧ (∀ i, (accAt m c (8 * a.val + k) (bnd a k hk)).2.1 i = ∑ q : Fin (k + 1), B1 m c ⟨8 * a.val + q.val, bnd a q.val (by omega)⟩ i)
    ∧ (∀ i, (accAt m c (8 * a.val + k) (bnd a k hk)).2.2.1 i = ∑ q : Fin (k + 1), B2 m c ⟨8 * a.val + q.val, bnd a q.val (by omega)⟩ i)
    ∧ (∀ i, (accAt m c (8 * a.val + k) (bnd a k hk)).2.2.2 i = ∑ q : Fin (k + 1), B3 m c ⟨8 * a.val + q.val, bnd a q.val (by omega)⟩ i)
  | 0, hk => by
    have h : accAt m c (8 * a.val + 0) (bnd a 0 hk) = _ :=
      acc_first m c ⟨8 * a.val + 0, bnd a 0 hk⟩ (by show (8 * a.val + 0) % 8 = 0; omega)
    rw [h]
    refine ⟨fun i => ?_, fun i => ?_, fun i => ?_, fun i => ?_⟩ <;>
      simp only [Fin.sum_univ_succ, Fin.sum_univ_zero, add_zero, Fin.val_zero] <;> rfl
  | k + 1, hk => by
    obtain ⟨ih0, ih1, ih2, ih3⟩ := acc_closed c a k (by omega)
    have hl : accAt m c (8 * a.val + (k + 1)) (bnd a (k + 1) hk) = _ :=
      acc_later m c ⟨8 * a.val + (k + 1), bnd a (k + 1) hk⟩ (by show ¬ (8 * a.val + (k + 1)) % 8 = 0; omega)
    have hp : accPrev m c ⟨8 * a.val + (k + 1), bnd a (k + 1) hk⟩ = accAt m c (8 * a.val + k) (bnd a k (by omega)) :=
      accAt_congr m c (by show 8 * a.val + (k + 1) - 1 = 8 * a.val + k; omega) _ _
    rw [hp] at hl
    rw [hl]
    refine ⟨fun i => ?_, fun i => ?_, fun i => ?_, fun i => ?_⟩
    · show step0 _ _ _ i = _
      rw [step0_apply, ih0 i]; symm; rw [Fin.sum_univ_castSucc]; rfl
    · show step1 _ _ _ i = _
      rw [step1_apply, ih1 i]; symm; rw [Fin.sum_univ_castSucc]; rfl
    · show step2 _ _ _ i = _
      rw [step2_apply, ih2 i]; symm; rw [Fin.sum_univ_castSucc]; rfl
    · show step3 _ _ _ i = _
      rw [step3_apply, ih3 i]; symm; rw [Fin.sum_univ_castSucc]; rfl

end Cert.KernelIdeal.Body

end
-- ==== Proof.KRows.lean ====
/-
  The eight row-blocks of a grid row add up to the whole image.

  Grid point (a, k), a < 2, k < 8, sees samples 16a + r, r < 16, and rows 32k + h, h < 32, of the two arrays. A sum
  over the 256 rows of an image is the sum over the eight consecutive slabs of 32 rows (every row is 32k + h for
  exactly one (k, h): the sum is re-indexed along that bijection, in any additive commutative monoid, so nothing is
  asked of the summands). Hence, for each of the four per-pixel quantities, the eight blocks' sums over their
  32 × 256 pixels add up to the specification's sum over the 256 × 256 pixels of sample 16a + r.
-/
import proofs.«148723_j17265768529972_2_alg».proof.Proof.BlkPayloads
import proofs.«148723_j17265768529972_2_alg».proof.Proof.Spec

noncomputable section

namespace Cert.KernelIdeal.Rows

open Cert.KernelIdeal Cert.KernelIdeal.Blocks Idealize.ShloMosaic Idealize.ShloMosaic.ValueIdx

/-- Sample r of the samples' block a: sample 16a + r. -/
def rowB (a : Fin 2) (r : Fin 16) : Fin 32 := ⟨16 * a.val + r.val, by omega⟩
/-- Row h of the rows' block k: row 32k + h. -/
def rowH (k : Fin 8) (h : Fin 32) : Fin 256 := ⟨32 * k.val + h.val, by omega⟩

/-- the mask channel of group g of array A seen from grid point (a, k): a [16,1,32,256] block -/
def loadM (A : Cert.Spec.Arr) (a : Fin 2) (k : Fin 8) (g : Fin 2) : Vec Ideal S16x1x32x256 .f32 :=
  fun j => A (ix4 (rowB a (j 0)) (Cert.Spec.chM g) (rowH k (j 2)) (j 3))
/-- the three image channels of group g of array A seen from grid point (a, k): a [16,3,32,256] block -/
def loadI (A : Cert.Spec.Arr) (a : Fin 2) (k : Fin 8) (g : Fin 2) : Vec Ideal S16x3x32x256 .f32 :=
  fun j => A (ix4 (rowB a (j 0)) (Cert.Spec.chI g (j 1)) (rowH k (j 2)) (j 3))

/-- A sum over the 256 rows is the sum over the eight slabs of 32 rows. -/
theorem sum_slabs {M : Type*} [AddCommMonoid M] (f : Fin 256 → M) :
    ∑ h : Fin 256, f h = ∑ k : Fin 8, ∑ h' : Fin 32, f (rowH k h') := by
  rw [← Fintype.sum_prod_type']
  refine (Fintype.sum_equiv (finProdFinEquiv (m := 8) (n := 32)) (fun x => f (rowH x.1 x.2)) f (fun x => ?_)).symm
  refine congrArg f (Fin.ext ?_)
  show 32 * x.1.val + x.2.val = x.2.val + 32 * x.1.val
  omega

theorem rows_bce (O T : Cert.Spec.Arr) (a g : Fin 2) (r : Fin 16) :
    ∑ k : Fin 8, blkBce (loadM O a k g) (loadM T a k g) r = Cert.Spec.bceSum O T (rowB a r) g := by
  refine Eq.trans ?_ (sum_slabs (fun h => ∑ w : Fin 256, Cert.Spec.bce O T (rowB a r) g h w)).symm
  rfl

theorem rows_ms (O T : Cert.Spec.Arr) (a g : Fin 2) (r : Fin 16) :
    ∑ k : Fin 8, blkMs (loadM O a k g) (loadI O a k g) (loadI T a k g) r = Cert.Spec.mSum O T (rowB a r) g := by
  refine Eq.trans ?_ (sum_slabs (fun h => ∑ w : Fin 256, Cert.Spec.masked O T (rowB a r) g h w)).symm
  rfl

theorem rows_ct (O T : Cert.Spec.Arr) (a g : Fin 2) (r : Fin 16) :
    ∑ k : Fin 8, blkCt (loadM O a k g) (loadI O a k g) (loadI T a k g) r = Cert.Spec.count O T (rowB a r) g := by
  refine Eq.trans ?_ (sum_slabs (fun h => ∑ w : Fin 256, Cert.Spec.ind O T (rowB a r) g h w)).symm
  rfl

theorem rows_dn (O T : Cert.Spec.Arr) (a g : Fin 2) (r : Fin 16) :
    ∑ k : Fin 8, blkDn (loadI O a k g) (loadI T a k g) r = Cert.Spec.dSum O T (rowB a r) g := by
  refine Eq.trans ?_ (sum_slabs (fun h => ∑ w : Fin 256, Cert.Spec.dnorm O T (rowB a r) g h w)).symm
  rfl

/-- a running sum: s 0 = b 0 and s (n+1) = s n + b (n+1) give s n = the sum of b over 0..n -/
theorem running_sum {M : Type*} [AddCommMonoid M] (s b : ℕ → M) (h0 : s 0 = b 0) (hs : ∀ n, s (n + 1) = s n + b (n + 1))
    (n : ℕ) : s n = ∑ q ∈ Finset.range (n + 1), b q := by
  induction n with
  | zero => rw [h0, Finset.sum_range_one]
  | succ n ih => rw [hs, ih, Finset.sum_range_succ _ (n + 1)]

/-- every sample index is 16a + r -/
theorem rowB_surj (b : Fin 32) : ∃ (a : Fin 2) (r : Fin 16), b = rowB a r :=
  ⟨⟨b.val / 16, by omega⟩, ⟨b.val % 16, by omega⟩, Fin.ext (by show b.val = 16 * (b.val / 16) + b.val % 16; omega)⟩

end Cert.KernelIdeal.Rows

end
-- ==== Proof.KLoads.lean ====
/-
  What the kernel body's loads read, in the arrays' own coordinates.

  The grid is 2 × 8; point t has coordinates (a, k) = (t / 8, t % 8). Each input array [32, 8, 256, 256] is staged in
  blocks [16, 8, 32, 256] with block index (a, 0, k, 0), so entry (r, ch, h, w) of the block at point t is the array's
  entry (16a + r, ch, 32k + h, w). The body reads of each block four sub-blocks at unit strides: channel 3 and channel 7
  (one channel each: the two groups' mask channels 4g + 3) and channels 0..2 and 4..6 (three channels each: the groups'
  image channels 4g + k). Read at an index these are the array at sample 16a + r, the group's channel, row 32k + h and
  column w — the blocks `loadM` and `loadI` of the array seen from grid point (a, k).
-/
import proofs.«148723_j17265768529972_2_alg».proof.Proof.Gen.KernelIdeal.Frame
import proofs.«148723_j17265768529972_2_alg».proof.Proof.Spec
import proofs.«148723_j17265768529972_2_alg».proof.Proof.KRows
import Idealize.ShloMosaic.Lib.Pipeline.Value

set_option maxRecDepth 16384

noncomputable section

namespace Cert.KernelIdeal.Loads

open Idealize.ShloMosaic Idealize.ShloMosaic.TcCoe Idealize.ShloMosaic.ValueIdx Cert.KernelIdeal Cert.KernelIdeal.Gen
open Cert.KernelIdeal.Rows

/-- The samples' block of grid point t: t / 8. -/
def aOf (t : Fin cfg0.N) : Fin 2 := ⟨t.val / 8, by have := t.isLt; have h : cfg0.N = 16 := Gen.N_0; omega⟩
/-- The rows' block of grid point t: t % 8. -/
def kOf (t : Fin cfg0.N) : Fin 8 := ⟨t.val % 8, by omega⟩

/-! ### The blocks' indices over the grid -/

/-- Window 0's block index at point t is (t / 8, 0, t % 8, 0): decided over the 16 points of the grid. -/
theorem idx_facts0 : ∀ t : Fin cfg0.N, win0_0.index t 0 = t.val / 8 ∧ win0_0.index t 1 = 0
    ∧ win0_0.index t 2 = t.val % 8 ∧ win0_0.index t 3 = 0 :=
  (by decide +kernel : ∀ t : Fin grid0.N, win0_0.index t 0 = t.val / 8 ∧ win0_0.index t 1 = 0
    ∧ win0_0.index t 2 = t.val % 8 ∧ win0_0.index t 3 = 0)

/-- Window 1's block index at point t is (t / 8, 0, t % 8, 0): decided over the 16 points of the grid. -/
theorem idx_facts1 : ∀ t : Fin cfg0.N, win0_1.index t 0 = t.val / 8 ∧ win0_1.index t 1 = 0
    ∧ win0_1.index t 2 = t.val % 8 ∧ win0_1.index t 3 = 0 :=
  (by decide +kernel : ∀ t : Fin grid0.N, win0_1.index t 0 = t.val / 8 ∧ win0_1.index t 1 = 0
    ∧ win0_1.index t 2 = t.val % 8 ∧ win0_1.index t 3 = 0)

variable (m : (ℓ : Loc nD τ sig) → Buf (Elt Ideal) ℓ)

/-! ### A staged block at an index -/

set_option maxHeartbeats 400000 in
/-- Window 0's block at point t, entry y, is the array's entry at sample 16·(t/8) + y 0, channel y 1, row 32·(t%8) + y 2,
    column y 3: along each axis the block's coordinate is the block index times the block size plus the coordinate inside. -/
theorem iblk0_apply (c : Dev nD) (t : Fin cfg0.N) (y : S16x8x32x256.Idx) :
    (Gen.iblk (F := Ideal) m c 0 t : Vec Ideal S16x8x32x256 .f32) y
      = (m ((c : Thread nD τ).loc main_arg0) : Cert.Spec.Arr) (ix4 (rowB (aOf t) (y 0)) (y 1) (rowH (kOf t) (y 2)) (y 3)) := by
  have hi := idx_facts0 t
  unfold Gen.iblk
  rw [View.read_apply]
  show Gen.V m c main_arg0 _ = m (c.tc.loc main_arg0) _
  rw [Gen.V_main_arg0]
  congr 1
  funext a
  apply Fin.ext
  match a with
  | ⟨0, _⟩ => show win0_0.index t 0 * 16 + 1 * (y 0).val = 16 * (t.val / 8) + (y 0).val; rw [hi.1]; omega
  | ⟨1, _⟩ => show win0_0.index t 1 * 8 + 1 * (y 1).val = (y 1).val; rw [hi.2.1]; omega
  | ⟨2, _⟩ => show win0_0.index t 2 * 32 + 1 * (y 2).val = 32 * (t.val % 8) + (y 2).val; rw [hi.2.2.1]; omega
  | ⟨3, _⟩ => show win0_0.index t 3 * 256 + 1 * (y 3).val = (y 3).val; rw [hi.2.2.2]; omega

set_option maxHeartbeats 400000 in
/-- Window 1's block at point t, entry y, is the array's entry at sample 16·(t/8) + y 0, channel y 1, row 32·(t%8) + y 2,
    column y 3: along each axis the block's coordinate is the block index times the block size plus the coordinate inside. -/
theorem iblk1_apply (c : Dev nD) (t : Fin cfg0.N) (y : S16x8x32x256.Idx) :
    (Gen.iblk (F := Ideal) m c 1 t : Vec Ideal S16x8x32x256 .f32) y
      = (m ((c : Thread nD τ).loc main_arg1) : Cert.Spec.Arr) (ix4 (rowB (aOf t) (y 0)) (y 1) (rowH (kOf t) (y 2)) (y 3)) := by
  have hi := idx_facts1 t
  unfold Gen.iblk
  rw [View.read_apply]
  show Gen.V m c main_arg1 _ = m (c.tc.loc main_arg1) _
  rw [Gen.V_main_arg1]
  congr 1
  funext a
  apply Fin.ext
  match a with
  | ⟨0, _⟩ => show win0_1.index t 0 * 16 + 1 * (y 0).val = 16 * (t.val / 8) + (y 0).val; rw [hi.1]; omega
  | ⟨1, _⟩ => show win0_1.index t 1 * 8 + 1 * (y 1).val = (y 1).val; rw [hi.2.1]; omega
  | ⟨2, _⟩ => show win0_1.index t 2 * 32 + 1 * (y 2).val = 32 * (t.val % 8) + (y 2).val; rw [hi.2.2.1]; omega
  | ⟨3, _⟩ => show win0_1.index t 3 * 256 + 1 * (y 3).val = (y 3).val; rw [hi.2.2.2]; omega

/-! ### The eight loads -/

/-- Group 0's mask logits (channel 3) of the output array's block. -/
theorem ldM0_out (c : Dev nD) (t : Fin cfg0.N) :
    View.ld (Gen.iblk (F := Ideal) m c 0 t : Vec Ideal S16x8x32x256 .f32)
        (Rect.unit ![0, 3, 0, 0] S16x1x32x256.size inb_S16x8x32x256_S16x1x32x256_0_3_0_0)
      = Rows.loadM (m ((c : Thread nD τ).loc main_arg0)) (aOf t) (kOf t) 0 := by
  funext j
  refine (iblk0_apply m c t _).trans ?_
  refine congrArg (m ((c : Thread nD τ).loc main_arg0) : Cert.Spec.Arr) ?_
  funext a
  apply Fin.ext
  match a with
  | ⟨0, _⟩ => show 16 * (t.val / 8) + (0 + 1 * (j 0).val) = 16 * (t.val / 8) + (j 0).val; omega
  | ⟨1, _⟩ => have h1 : (j 1).val < 1 := (j 1).isLt; show 3 + 1 * (j 1).val = 4 * 0 + 3; omega
  | ⟨2, _⟩ => show 32 * (t.val % 8) + (0 + 1 * (j 2).val) = 32 * (t.val % 8) + (j 2).val; omega
  | ⟨3, _⟩ => show 0 + 1 * (j 3).val = (j 3).val; omega

/-- Group 0's mask targets (channel 3) of the target array's block. -/
theorem ldM0_tar (c : Dev nD) (t : Fin cfg0.N) :
    View.ld (Gen.iblk (F := Ideal) m c 1 t : Vec Ideal S16x8x32x256 .f32)
        (Rect.unit ![0, 3, 0, 0] S16x1x32x256.size inb_S16x8x32x256_S16x1x32x256_0_3_0_0)
      = Rows.loadM (m ((c : Thread nD τ).loc main_arg1)) (aOf t) (kOf t) 0 := by
  funext j
  refine (iblk1_apply m c t _).trans ?_
  refine congrArg (m ((c : Thread nD τ).loc main_arg1) : Cert.Spec.Arr) ?_
  funext a
  apply Fin.ext
  match a with
  | ⟨0, _⟩ => show 16 * (t.val / 8) + (0 + 1 * (j 0).val) = 16 * (t.val / 8) + (j 0).val; omega
  | ⟨1, _⟩ => have h1 : (j 1).val < 1 := (j 1).isLt; show 3 + 1 * (j 1).val = 4 * 0 + 3; omega
  | ⟨2, _⟩ => show 32 * (t.val % 8) + (0 + 1 * (j 2).val) = 32 * (t.val % 8) + (j 2).val; omega
  | ⟨3, _⟩ => show 0 + 1 * (j 3).val = (j 3).val; omega

/-- Group 1's mask logits (channel 7) of the output array's block. -/
theorem ldM1_out (c : Dev nD) (t : Fin cfg0.N) :
    View.ld (Gen.iblk (F := Ideal) m c 0 t : Vec Ideal S16x8x32x256 .f32)
        (Rect.unit ![0, 7, 0, 0] S16x1x32x256.size inb_S16x8x32x256_S16x1x32x256_0_7_0_0)
      = Rows.loadM (m ((c : Thread nD τ).loc main_arg0)) (aOf t) (kOf t) 1 := by
  funext j
  refine (iblk0_apply m c t _).trans ?_
  refine congrArg (m ((c : Thread nD τ).loc main_arg0) : Cert.Spec.Arr) ?_
  funext a
  apply Fin.ext
  match a with
  | ⟨0, _⟩ => show 16 * (t.val / 8) + (0 + 1 * (j 0).val) = 16 * (t.val / 8) + (j 0).val; omega
  | ⟨1, _⟩ => have h1 : (j 1).val < 1 := (j 1).isLt; show 7 + 1 * (j 1).val = 4 * 1 + 3; omega
  | ⟨2, _⟩ => show 32 * (t.val % 8) + (0 + 1 * (j 2).val) = 32 * (t.val % 8) + (j 2).val; omega
  | ⟨3, _⟩ => show 0 + 1 * (j 3).val = (j 3).val; omega

/-- Group 1's mask targets (channel 7) of the target array's block. -/
theorem ldM1_tar (c : Dev nD) (t : Fin cfg0.N) :
    View.ld (Gen.iblk (F := Ideal) m c 1 t : Vec Ideal S16x8x32x256 .f32)
        (Rect.unit ![0, 7, 0, 0] S16x1x32x256.size inb_S16x8x32x256_S16x1x32x256_0_7_0_0)
      = Rows.loadM (m ((c : Thread nD τ).loc main_arg1)) (aOf t) (kOf t) 1 := by
  funext j
  refine (iblk1_apply m c t _).trans ?_
  refine congrArg (m ((c : Thread nD τ).loc main_arg1) : Cert.Spec.Arr) ?_
  funext a
  apply Fin.ext
  match a with
  | ⟨0, _⟩ => show 16 * (t.val / 8) + (0 + 1 * (j 0).val) = 16 * (t.val / 8) + (j 0).val; omega
  | ⟨1, _⟩ => have h1 : (j 1).val < 1 := (j 1).isLt; show 7 + 1 * (j 1).val = 4 * 1 + 3; omega
  | ⟨2, _⟩ => show 32 * (t.val % 8) + (0 + 1 * (j 2).val) = 32 * (t.val % 8) + (j 2).val; omega
  | ⟨3, _⟩ => show 0 + 1 * (j 3).val = (j 3).val; omega

/-- Group 0's image channels (0..2) of the output array's block. -/
theorem ldI0_out (c : Dev nD) (t : Fin cfg0.N) :
    View.ld (Gen.iblk (F := Ideal) m c 0 t : Vec Ideal S16x8x32x256 .f32)
        (Rect.unit ![0, 0, 0, 0] S16x3x32x256.size inb_S16x8x32x256_S16x3x32x256_0_0_0_0)
      = Rows.loadI (m ((c : Thread nD τ).loc main_arg0)) (aOf t) (kOf t) 0 := by
  funext j
  refine (iblk0_apply m c t _).trans ?_
  refine congrArg (m ((c : Thread nD τ).loc main_arg0) : Cert.Spec.Arr) ?_
  funext a
  apply Fin.ext
  match a with
  | ⟨0, _⟩ => show 16 * (t.val / 8) + (0 + 1 * (j 0).val) = 16 * (t.val / 8) + (j 0).val; omega
  | ⟨1, _⟩ => show 0 + 1 * (j 1).val = 4 * 0 + (j 1).val; omega
  | ⟨2, _⟩ => show 32 * (t.val % 8) + (0 + 1 * (j 2).val) = 32 * (t.val % 8) + (j 2).val; omega
  | ⟨3, _⟩ => show 0 + 1 * (j 3).val = (j 3).val; omega

/-- Group 0's image channels (0..2) of the target array's block. -/
theorem ldI0_tar (c : Dev nD) (t : Fin cfg0.N) :
    View.ld (Gen.iblk (F := Ideal) m c 1 t : Vec Ideal S16x8x32x256 .f32)
        (Rect.unit ![0, 0, 0, 0] S16x3x32x256.size inb_S16x8x32x256_S16x3x32x256_0_0_0_0)
      = Rows.loadI (m ((c : Thread nD τ).loc main_arg1)) (aOf t) (kOf t) 0 := by
  funext j
  refine (iblk1_apply m c t _).trans ?_
  refine congrArg (m ((c : Thread nD τ).loc main_arg1) : Cert.Spec.Arr) ?_
  funext a
  apply Fin.ext
  match a with
  | ⟨0, _⟩ => show 16 * (t.val / 8) + (0 + 1 * (j 0).val) = 16 * (t.val / 8) + (j 0).val; omega
  | ⟨1, _⟩ => show 0 + 1 * (j 1).val = 4 * 0 + (j 1).val; omega
  | ⟨2, _⟩ => show 32 * (t.val % 8) + (0 + 1 * (j 2).val) = 32 * (t.val % 8) + (j 2).val; omega
  | ⟨3, _⟩ => show 0 + 1 * (j 3).val = (j 3).val; omega

/-- Group 1's image channels (4..6) of the output array's block. -/
theorem ldI1_out (c : Dev nD) (t : Fin cfg0.N) :
    View.ld (Gen.iblk (F := Ideal) m c 0 t : Vec Ideal S16x8x32x256 .f32)
        (Rect.unit ![0, 4, 0, 0] S16x3x32x256.size inb_S16x8x32x256_S16x3x32x256_0_4_0_0)
      = Rows.loadI (m ((c : Thread nD τ).loc main_arg0)) (aOf t) (kOf t) 1 := by
  funext j
  refine (iblk0_apply m c t _).trans ?_
  refine congrArg (m ((c : Thread nD τ).loc main_arg0) : Cert.Spec.Arr) ?_
  funext a
  apply Fin.ext
  match a with
  | ⟨0, _⟩ => show 16 * (t.val / 8) + (0 + 1 * (j 0).val) = 16 * (t.val / 8) + (j 0).val; omega
  | ⟨1, _⟩ => show 4 + 1 * (j 1).val = 4 * 1 + (j 1).val; omega
  | ⟨2, _⟩ => show 32 * (t.val % 8) + (0 + 1 * (j 2).val) = 32 * (t.val % 8) + (j 2).val; omega
  | ⟨3, _⟩ => show 0 + 1 * (j 3).val = (j 3).val; omega

/-- Group 1's image channels (4..6) of the target array's block. -/
theorem ldI1_tar (c : Dev nD) (t : Fin cfg0.N) :
    View.ld (Gen.iblk (F := Ideal) m c 1 t : Vec Ideal S16x8x32x256 .f32)
        (Rect.unit ![0, 4, 0, 0] S16x3x32x256.size inb_S16x8x32x256_S16x3x32x256_0_4_0_0)
      = Rows.loadI (m ((c : Thread nD τ).loc main_arg1)) (aOf t) (kOf t) 1 := by
  funext j
  refine (iblk1_apply m c t _).trans ?_
  refine congrArg (m ((c : Thread nD τ).loc main_arg1) : Cert.Spec.Arr) ?_
  funext a
  apply Fin.ext
  match a with
  | ⟨0, _⟩ => show 16 * (t.val / 8) + (0 + 1 * (j 0).val) = 16 * (t.val / 8) + (j 0).val; omega
  | ⟨1, _⟩ => show 4 + 1 * (j 1).val = 4 * 1 + (j 1).val; omega
  | ⟨2, _⟩ => show 32 * (t.val % 8) + (0 + 1 * (j 2).val) = 32 * (t.val % 8) + (j 2).val; omega
  | ⟨3, _⟩ => show 0 + 1 * (j 3).val = (j 3).val; omega

end Cert.KernelIdeal.Loads

end
-- ==== Proof.KTables.lean ====
/-
  The accumulated tables are the specification's pixel sums.

  Point t = 8a + k finds in its input buffers the block of samples 16a … 16a+15 and rows 32k … 32k+31; its four tables,
  at (r, g), are the sums over that block's 32 × 256 pixels of the four per-pixel quantities of group g of sample 16a + r.
  Summed over k = 0 … 7 these are the sums over all 256 rows: the specification's tables at (16a + r, g).
-/
import proofs.«148723_j17265768529972_2_alg».proof.Proof.KAcc
import proofs.«148723_j17265768529972_2_alg».proof.Proof.KLoads

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelIdeal.Blocks Cert.KernelIdeal.Rows Cert.KernelIdeal.Loads Idealize.ShloMosaic.ValueIdx

variable (m : (ℓ : Loc nD τ sig) → Buf (Elt Ideal) ℓ)

/-- The two input arrays. -/
abbrev inO (c : Dev nD) : Cert.Spec.Arr := m ((c : Thread nD τ).loc main_arg0)
abbrev inT (c : Dev nD) : Cert.Spec.Arr := m ((c : Thread nD τ).loc main_arg1)

theorem B0_apply (c : Dev nD) (t : Fin cfg0.N) (r : Fin 16) (g : Fin 2) :
    B0 m c t (ix2 r g) = blkBce (loadM (inO m c) (aOf t) (kOf t) g) (loadM (inT m c) (aOf t) (kOf t) g) r := by
  show k0_pay7 (k0_pay16 (ldM0 _) (ldM0 _)) (k0_pay24 (ldM1 _) (ldM1 _)) (ix2 r g) = _
  rw [show ldM0 (Gen.iblk m c 0 t) = _ from ldM0_out m c t, show ldM0 (Gen.iblk m c 1 t) = _ from ldM0_tar m c t,
    show ldM1 (Gen.iblk m c 0 t) = _ from ldM1_out m c t, show ldM1 (Gen.iblk m c 1 t) = _ from ldM1_tar m c t]
  fin_cases g
  · exact pay7_g0 _ _ _ _ r
  · exact pay7_g1 _ _ _ _ r

theorem B1_apply (c : Dev nD) (t : Fin cfg0.N) (r : Fin 16) (g : Fin 2) :
    B1 m c t (ix2 r g) = blkMs (loadM (inO m c) (aOf t) (kOf t) g) (loadI (inO m c) (aOf t) (kOf t) g) (loadI (inT m c) (aOf t) (kOf t) g) r := by
  show k0_pay8 (k0_pay20 (k0_pay19 (ldM0 _) (ldI0 _) (ldI0 _))) (k0_pay23 (ldM1 _)) (k0_pay25 (ldI1 _) (ldI1 _)) (ix2 r g) = _
  rw [show ldM0 (Gen.iblk m c 0 t) = _ from ldM0_out m c t, show ldM1 (Gen.iblk m c 0 t) = _ from ldM1_out m c t,
    show ldI0 (Gen.iblk m c 0 t) = _ from ldI0_out m c t, show ldI0 (Gen.iblk m c 1 t) = _ from ldI0_tar m c t,
    show ldI1 (Gen.iblk m c 0 t) = _ from ldI1_out m c t, show ldI1 (Gen.iblk m c 1 t) = _ from ldI1_tar m c t]
  fin_cases g
  · exact pay8_g0 _ _ _ _ _ _ r
  · exact pay8_g1 _ _ _ _ _ _ r

theorem B2_apply (c : Dev nD) (t : Fin cfg0.N) (r : Fin 16) (g : Fin 2) :
    B2 m c t (ix2 r g) = blkCt (loadM (inO m c) (aOf t) (kOf t) g) (loadI (inO m c) (aOf t) (kOf t) g) (loadI (inT m c) (aOf t) (kOf t) g) r := by
  show k0_pay9 (k0_pay21 (k0_pay18 (ldM0 _) (ldI0 _) (ldI0 _))) (k0_pay23 (ldM1 _)) (k0_pay25 (ldI1 _) (ldI1 _)) (ix2 r g) = _
  rw [show ldM0 (Gen.iblk m c 0 t) = _ from ldM0_out m c t, show ldM1 (Gen.iblk m c 0 t) = _ from ldM1_out m c t,
    show ldI0 (Gen.iblk m c 0 t) = _ from ldI0_out m c t, show ldI0 (Gen.iblk m c 1 t) = _ from ldI0_tar m c t,
    show ldI1 (Gen.iblk m c 0 t) = _ from ldI1_out m c t, show ldI1 (Gen.iblk m c 1 t) = _ from ldI1_tar m c t]
  fin_cases g
  · exact pay9_g0 _ _ _ _ _ _ r
  · exact pay9_g1 _ _ _ _ _ _ r

theorem B3_apply (c : Dev nD) (t : Fin cfg0.N) (r : Fin 16) (g : Fin 2) :
    B3 m c t (ix2 r g) = blkDn (loadI (inO m c) (aOf t) (kOf t) g) (loadI (inT m c) (aOf t) (kOf t) g) r := by
  show k0_pay10 (k0_pay22 (k0_pay17 (ldI0 _) (ldI0 _))) (k0_pay25 (ldI1 _) (ldI1 _)) (ix2 r g) = _
  rw [show ldI0 (Gen.iblk m c 0 t) = _ from ldI0_out m c t, show ldI0 (Gen.iblk m c 1 t) = _ from ldI0_tar m c t,
    show ldI1 (Gen.iblk m c 0 t) = _ from ldI1_out m c t, show ldI1 (Gen.iblk m c 1 t) = _ from ldI1_tar m c t]
  fin_cases g
  · exact pay10_g0 _ _ _ _ r
  · exact pay10_g1 _ _ _ _ r

theorem aOf_at (a : Fin 2) (q : Fin 8) (h : 8 * a.val + q.val < cfg0.N) : aOf ⟨8 * a.val + q.val, h⟩ = a :=
  Fin.ext (by show (8 * a.val + q.val) / 8 = a.val; have := q.isLt; omega)
theorem kOf_at (a : Fin 2) (q : Fin 8) (h : 8 * a.val + q.val < cfg0.N) : kOf ⟨8 * a.val + q.val, h⟩ = q :=
  Fin.ext (by show (8 * a.val + q.val) % 8 = q.val; have := q.isLt; omega)

/-- After the last row-block of half a, the four accumulators hold the specification's four tables at the samples 16a + r. -/
theorem acc_last (c : Dev nD) (a : Fin 2) (r : Fin 16) (g : Fin 2) :
    (accAt m c (8 * a.val + 7) (bnd a 7 (by omega))).1 (ix2 r g) = Cert.Spec.bceSum (inO m c) (inT m c) (rowB a r) g
    ∧ (accAt m c (8 * a.val + 7) (bnd a 7 (by omega))).2.1 (ix2 r g) = Cert.Spec.mSum (inO m c) (inT m c) (rowB a r) g
    ∧ (accAt m c (8 * a.val + 7) (bnd a 7 (by omega))).2.2.1 (ix2 r g) = Cert.Spec.count (inO m c) (inT m c) (rowB a r) g
    ∧ (accAt m c (8 * a.val + 7) (bnd a 7 (by omega))).2.2.2 (ix2 r g) = Cert.Spec.dSum (inO m c) (inT m c) (rowB a r) g := by
  obtain ⟨h0, h1, h2, h3⟩ := acc_closed m c a 7 (by omega)
  refine ⟨?_, ?_, ?_, ?_⟩
  · rw [h0, ← rows_bce (inO m c) (inT m c) a g r]
    refine Finset.sum_congr rfl fun q _ => ?_
    rw [B0_apply, aOf_at, kOf_at]
  · rw [h1, ← rows_ms (inO m c) (inT m c) a g r]
    refine Finset.sum_congr rfl fun q _ => ?_
    rw [B1_apply, aOf_at, kOf_at]
  · rw [h2, ← rows_ct (inO m c) (inT m c) a g r]
    refine Finset.sum_congr rfl fun q _ => ?_
    rw [B2_apply, aOf_at, kOf_at]
  · rw [h3, ← rows_dn (inO m c) (inT m c) a g r]
    refine Finset.sum_congr rfl fun q _ => ?_
    rw [B3_apply, aOf_at, kOf_at]

end Cert.KernelIdeal.Body

end
-- ==== Proof.KArrays.lean ====
/-
  From blocks to the arrays: the kernel's four [32, 2] output arrays after the run.

  Output window w (w = 2, 3, 4, 5) has blocks of 16 rows and both columns; the point t = (t / 8, t % 8) of the 2 × 8
  grid works on block t / 8, and writes it back exactly when t % 8 = 7. The two blocks' rows 16·(t / 8) + r, r < 16,
  tile the 32 rows (row b lies in the block of the point 8·(b / 16) + 7). So an array G whose rows 16·(t / 8) + r
  are what the point t with t % 8 = 7 leaves in the window's buffer is what the array holds after the run.
-/
import proofs.«148723_j17265768529972_2_alg».proof.Proof.FrameKernelIdeal.Frame
import Idealize.ShloMosaic.Lib.Pipeline.Value
import Idealize.ShloMosaic.Lib.ValueIdx

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## Output window 2 -/

/-- The index map of window 2, decided over the grid: the block of point t is block t / 8 along the samples and
    block 0 along the groups. -/
theorem idx_facts2 : ∀ t : Fin cfg0.N, win0_2.index t (0 : Fin 2) = t.val / 8 ∧ win0_2.index t (1 : Fin 2) = 0 :=
  (by decide +kernel : ∀ t : Fin grid0.N, _)

/-- What a last row-block's point writes back is its block of G: rows 16·(t / 8) … 16·(t / 8) + 15, both groups. -/
theorem flushed2_eq (m : (ℓ : Loc nD τ sig) → Buf (Elt F) ℓ) (c : Dev nD) (G : Vec F S32x2 .f32)
    (hG : ∀ (t : Fin cfg0.N), t.val % 8 = 7 → ∀ (r : Fin 16) (g : Fin 2),
      G (ValueIdx.ix2 (n0 := 32) ⟨16 * (t.val / 8) + r.val, by have := t.isLt; have : cfg0.N = 16 := N_0; omega⟩ g)
        = out2At m c t (ValueIdx.ix2 r g))
    (t : Fin cfg0.N) (hf : (cfg0.win 2).flush t = true) :
    (dats m 0 c).flushed 2 t = ((cfg0.win 2).blk t).view.read (Elt F) G := by
  have h7 : t.val % 8 = 7 := (flush0_2 t).mp hf
  obtain ⟨i0, i1⟩ := idx_facts2 t
  show (cfg0.win 2).cut (grid0.coords t) ((dats m 0 c).after 2 t) = _
  rw [after2]
  funext j
  have hr : (j 0).val < 16 := (j 0).isLt
  have hg : (j 1).val < 2 := (j 1).isLt
  show out2At m c t j = G (((cfg0.win 2).blk t).view.emb j)
  refine Eq.trans (congrArg (out2At m c t) ?_) ((hG t h7 ⟨(j 0).val, hr⟩ ⟨(j 1).val, hg⟩).symm.trans (congrArg G ?_))
  · funext a
    match a with
    | ⟨0, _⟩ => rfl
    | ⟨1, _⟩ => rfl
  · funext a
    apply Fin.ext
    match a with
    | ⟨0, _⟩ =>
      show 16 * (t.val / 8) + (j 0).val = win0_2.index t (0 : Fin 2) * 16 + 1 * (j 0).val
      rw [i0]; omega
    | ⟨1, _⟩ =>
      show (j 1).val = win0_2.index t (1 : Fin 2) * 2 + 1 * (j 1).val
      rw [i1]; omega

/-- An index of the array is in point t's block iff each coordinate is in the block's range on its axis. -/
theorem mem_blk2 (t : Fin cfg0.N) (i : S32x2.Idx) :
    i ∈ ((cfg0.win 2).blk t).view.set
      ↔ ∀ a : Fin 2, win0_2.index t a * S16x2.size a ≤ (i a).val ∧ (i a).val < win0_2.index t a * S16x2.size a + S16x2.size a := by
  show i ∈ ((View.whole main_v0_0).slice (win0_2.rect t)).set ↔ _
  rw [View.set_slice_whole, Rect.mem_set_unit]
  exact Iff.rfl

/-- Row b of the array is in the block of the point 8·(b / 16) + 7, which writes back. -/
theorem cover2 (i : S32x2.Idx) : ∃ t : Fin cfg0.N, (cfg0.win 2).flush t = true ∧ i ∈ ((cfg0.win 2).blk t).view.set := by
  have hb : (i 0).val < 32 := (i 0).isLt
  have hg : (i 1).val < 2 := (i 1).isLt
  have hN : cfg0.N = 16 := N_0
  refine ⟨⟨8 * ((i 0).val / 16) + 7, by omega⟩, (flush0_2 _).mpr (by show (8 * ((i 0).val / 16) + 7) % 8 = 7; omega), ?_⟩
  obtain ⟨i0, i1⟩ := idx_facts2 ⟨8 * ((i 0).val / 16) + 7, by omega⟩
  rw [mem_blk2]
  intro a
  match a with
  | ⟨0, _⟩ =>
    show win0_2.index ⟨8 * ((i 0).val / 16) + 7, _⟩ (0 : Fin 2) * 16 ≤ (i 0).val
      ∧ (i 0).val < win0_2.index ⟨8 * ((i 0).val / 16) + 7, _⟩ (0 : Fin 2) * 16 + 16
    rw [i0]
    show (8 * ((i 0).val / 16) + 7) / 8 * 16 ≤ (i 0).val ∧ (i 0).val < (8 * ((i 0).val / 16) + 7) / 8 * 16 + 16
    omega
  | ⟨1, _⟩ =>
    show win0_2.index ⟨8 * ((i 0).val / 16) + 7, _⟩ (1 : Fin 2) * 2 ≤ (i 1).val
      ∧ (i 1).val < win0_2.index ⟨8 * ((i 0).val / 16) + 7, _⟩ (1 : Fin 2) * 2 + 2
    rw [i1]; omega

/-- The array of window 2 after the run is G, when G's rows 16·(t / 8) + r are what the point t with t % 8 = 7 leaves. -/
theorem arr2_eq (m : (ℓ : Loc nD τ sig) → Buf (Elt F) ℓ) (c : Dev nD) (G : Vec F S32x2 .f32)
    (hG : ∀ (t : Fin cfg0.N), t.val % 8 = 7 → ∀ (r : Fin 16) (g : Fin 2),
      G (ValueIdx.ix2 (n0 := 32) ⟨16 * (t.val / 8) + r.val, by have := t.isLt; have : cfg0.N = 16 := N_0; omega⟩ g)
        = out2At m c t (ValueIdx.ix2 r g)) :
    (dats m 0 c).arrAt 2 cfg0.N = G :=
  (dats m 0 c).arrAt_eq_of_cover 2 G (flushed2_eq m c G hG) cover2

/-! ## Output window 3 -/

/-- The index map of window 3, decided over the grid: the block of point t is block t / 8 along the samples and
    block 0 along the groups. -/
theorem idx_facts3 : ∀ t : Fin cfg0.N, win0_3.index t (0 : Fin 2) = t.val / 8 ∧ win0_3.index t (1 : Fin 2) = 0 :=
  (by decide +kernel : ∀ t : Fin grid0.N, _)

/-- What a last row-block's point writes back is its block of G: rows 16·(t / 8) … 16·(t / 8) + 15, both groups. -/
theorem flushed3_eq (m : (ℓ : Loc nD τ sig) → Buf (Elt F) ℓ) (c : Dev nD) (G : Vec F S32x2 .f32)
    (hG : ∀ (t : Fin cfg0.N), t.val % 8 = 7 → ∀ (r : Fin 16) (g : Fin 2),
      G (ValueIdx.ix2 (n0 := 32) ⟨16 * (t.val / 8) + r.val, by have := t.isLt; have : cfg0.N = 16 := N_0; omega⟩ g)
        = out3At m c t (ValueIdx.ix2 r g))
    (t : Fin cfg0.N) (hf : (cfg0.win 3).flush t = true) :
    (dats m 0 c).flushed 3 t = ((cfg0.win 3).blk t).view.read (Elt F) G := by
  have h7 : t.val % 8 = 7 := (flush0_3 t).mp hf
  obtain ⟨i0, i1⟩ := idx_facts3 t
  show (cfg0.win 3).cut (grid0.coords t) ((dats m 0 c).after 3 t) = _
  rw [after3]
  funext j
  have hr : (j 0).val < 16 := (j 0).isLt
  have hg : (j 1).val < 2 := (j 1).isLt
  show out3At m c t j = G (((cfg0.win 3).blk t).view.emb j)
  refine Eq.trans (congrArg (out3At m c t) ?_) ((hG t h7 ⟨(j 0).val, hr⟩ ⟨(j 1).val, hg⟩).symm.trans (congrArg G ?_))
  · funext a
    match a with
    | ⟨0, _⟩ => rfl
    | ⟨1, _⟩ => rfl
  · funext a
    apply Fin.ext
    match a with
    | ⟨0, _⟩ =>
      show 16 * (t.val / 8) + (j 0).val = win0_3.index t (0 : Fin 2) * 16 + 1 * (j 0).val
      rw [i0]; omega
    | ⟨1, _⟩ =>
      show (j 1).val = win0_3.index t (1 : Fin 2) * 2 + 1 * (j 1).val
      rw [i1]; omega

/-- An index of the array is in point t's block iff each coordinate is in the block's range on its axis. -/
theorem mem_blk3 (t : Fin cfg0.N) (i : S32x2.Idx) :
    i ∈ ((cfg0.win 3).blk t).view.set
      ↔ ∀ a : Fin 2, win0_3.index t a * S16x2.size a ≤ (i a).val ∧ (i a).val < win0_3.index t a * S16x2.size a + S16x2.size a := by
  show i ∈ ((View.whole main_v0_1).slice (win0_3.rect t)).set ↔ _
  rw [View.set_slice_whole, Rect.mem_set_unit]
  exact Iff.rfl

/-- Row b of the array is in the block of the point 8·(b / 16) + 7, which writes back. -/
theorem cover3 (i : S32x2.Idx) : ∃ t : Fin cfg0.N, (cfg0.win 3).flush t = true ∧ i ∈ ((cfg0.win 3).blk t).view.set := by
  have hb : (i 0).val < 32 := (i 0).isLt
  have hg : (i 1).val < 2 := (i 1).isLt
  have hN : cfg0.N = 16 := N_0
  refine ⟨⟨8 * ((i 0).val / 16) + 7, by omega⟩, (flush0_3 _).mpr (by show (8 * ((i 0).val / 16) + 7) % 8 = 7; omega), ?_⟩
  obtain ⟨i0, i1⟩ := idx_facts3 ⟨8 * ((i 0).val / 16) + 7, by omega⟩
  rw [mem_blk3]
  intro a
  match a with
  | ⟨0, _⟩ =>
    show win0_3.index ⟨8 * ((i 0).val / 16) + 7, _⟩ (0 : Fin 2) * 16 ≤ (i 0).val
      ∧ (i 0).val < win0_3.index ⟨8 * ((i 0).val / 16) + 7, _⟩ (0 : Fin 2) * 16 + 16
    rw [i0]
    show (8 * ((i 0).val / 16) + 7) / 8 * 16 ≤ (i 0).val ∧ (i 0).val < (8 * ((i 0).val / 16) + 7) / 8 * 16 + 16
    omega
  | ⟨1, _⟩ =>
    show win0_3.index ⟨8 * ((i 0).val / 16) + 7, _⟩ (1 : Fin 2) * 2 ≤ (i 1).val
      ∧ (i 1).val < win0_3.index ⟨8 * ((i 0).val / 16) + 7, _⟩ (1 : Fin 2) * 2 + 2
    rw [i1]; omega

/-- The array of window 3 after the run is G, when G's rows 16·(t / 8) + r are what the point t with t % 8 = 7 leaves. -/
theorem arr3_eq (m : (ℓ : Loc nD τ sig) → Buf (Elt F) ℓ) (c : Dev nD) (G : Vec F S32x2 .f32)
    (hG : ∀ (t : Fin cfg0.N), t.val % 8 = 7 → ∀ (r : Fin 16) (g : Fin 2),
      G (ValueIdx.ix2 (n0 := 32) ⟨16 * (t.val / 8) + r.val, by have := t.isLt; have : cfg0.N = 16 := N_0; omega⟩ g)
        = out3At m c t (ValueIdx.ix2 r g)) :
    (dats m 0 c).arrAt 3 cfg0.N = G :=
  (dats m 0 c).arrAt_eq_of_cover 3 G (flushed3_eq m c G hG) cover3

/-! ## Output window 4 -/

/-- The index map of window 4, decided over the grid: the block of point t is block t / 8 along the samples and
    block 0 along the groups. -/
theorem idx_facts4 : ∀ t : Fin cfg0.N, win0_4.index t (0 : Fin 2) = t.val / 8 ∧ win0_4.index t (1 : Fin 2) = 0 :=
  (by decide +kernel : ∀ t : Fin grid0.N, _)

/-- What a last row-block's point writes back is its block of G: rows 16·(t / 8) … 16·(t / 8) + 15, both groups. -/
theorem flushed4_eq (m : (ℓ : Loc nD τ sig) → Buf (Elt F) ℓ) (c : Dev nD) (G : Vec F S32x2 .f32)
    (hG : ∀ (t : Fin cfg0.N), t.val % 8 = 7 → ∀ (r : Fin 16) (g : Fin 2),
      G (ValueIdx.ix2 (n0 := 32) ⟨16 * (t.val / 8) + r.val, by have := t.isLt; have : cfg0.N = 16 := N_0; omega⟩ g)
        = out4At m c t (ValueIdx.ix2 r g))
    (t : Fin cfg0.N) (hf : (cfg0.win 4).flush t = true) :
    (dats m 0 c).flushed 4 t = ((cfg0.win 4).blk t).view.read (Elt F) G := by
  have h7 : t.val % 8 = 7 := (flush0_4 t).mp hf
  obtain ⟨i0, i1⟩ := idx_facts4 t
  show (cfg0.win 4).cut (grid0.coords t) ((dats m 0 c).after 4 t) = _
  rw [after4]
  funext j
  have hr : (j 0).val < 16 := (j 0).isLt
  have hg : (j 1).val < 2 := (j 1).isLt
  show out4At m c t j = G (((cfg0.win 4).blk t).view.emb j)
  refine Eq.trans (congrArg (out4At m c t) ?_) ((hG t h7 ⟨(j 0).val, hr⟩ ⟨(j 1).val, hg⟩).symm.trans (congrArg G ?_))
  · funext a
    match a with
    | ⟨0, _⟩ => rfl
    | ⟨1, _⟩ => rfl
  · funext a
    apply Fin.ext
    match a with
    | ⟨0, _⟩ =>
      show 16 * (t.val / 8) + (j 0).val = win0_4.index t (0 : Fin 2) * 16 + 1 * (j 0).val
      rw [i0]; omega
    | ⟨1, _⟩ =>
      show (j 1).val = win0_4.index t (1 : Fin 2) * 2 + 1 * (j 1).val
      rw [i1]; omega

/-- An index of the array is in point t's block iff each coordinate is in the block's range on its axis. -/
theorem mem_blk4 (t : Fin cfg0.N) (i : S32x2.Idx) :
    i ∈ ((cfg0.win 4).blk t).view.set
      ↔ ∀ a : Fin 2, win0_4.index t a * S16x2.size a ≤ (i a).val ∧ (i a).val < win0_4.index t a * S16x2.size a + S16x2.size a := by
  show i ∈ ((View.whole main_v0_2).slice (win0_4.rect t)).set ↔ _
  rw [View.set_slice_whole, Rect.mem_set_unit]
  exact Iff.rfl

/-- Row b of the array is in the block of the point 8·(b / 16) + 7, which writes back. -/
theorem cover4 (i : S32x2.Idx) : ∃ t : Fin cfg0.N, (cfg0.win 4).flush t = true ∧ i ∈ ((cfg0.win 4).blk t).view.set := by
  have hb : (i 0).val < 32 := (i 0).isLt
  have hg : (i 1).val < 2 := (i 1).isLt
  have hN : cfg0.N = 16 := N_0
  refine ⟨⟨8 * ((i 0).val / 16) + 7, by omega⟩, (flush0_4 _).mpr (by show (8 * ((i 0).val / 16) + 7) % 8 = 7; omega), ?_⟩
  obtain ⟨i0, i1⟩ := idx_facts4 ⟨8 * ((i 0).val / 16) + 7, by omega⟩
  rw [mem_blk4]
  intro a
  match a with
  | ⟨0, _⟩ =>
    show win0_4.index ⟨8 * ((i 0).val / 16) + 7, _⟩ (0 : Fin 2) * 16 ≤ (i 0).val
      ∧ (i 0).val < win0_4.index ⟨8 * ((i 0).val / 16) + 7, _⟩ (0 : Fin 2) * 16 + 16
    rw [i0]
    show (8 * ((i 0).val / 16) + 7) / 8 * 16 ≤ (i 0).val ∧ (i 0).val < (8 * ((i 0).val / 16) + 7) / 8 * 16 + 16
    omega
  | ⟨1, _⟩ =>
    show win0_4.index ⟨8 * ((i 0).val / 16) + 7, _⟩ (1 : Fin 2) * 2 ≤ (i 1).val
      ∧ (i 1).val < win0_4.index ⟨8 * ((i 0).val / 16) + 7, _⟩ (1 : Fin 2) * 2 + 2
    rw [i1]; omega

/-- The array of window 4 after the run is G, when G's rows 16·(t / 8) + r are what the point t with t % 8 = 7 leaves. -/
theorem arr4_eq (m : (ℓ : Loc nD τ sig) → Buf (Elt F) ℓ) (c : Dev nD) (G : Vec F S32x2 .f32)
    (hG : ∀ (t : Fin cfg0.N), t.val % 8 = 7 → ∀ (r : Fin 16) (g : Fin 2),
      G (ValueIdx.ix2 (n0 := 32) ⟨16 * (t.val / 8) + r.val, by have := t.isLt; have : cfg0.N = 16 := N_0; omega⟩ g)
        = out4At m c t (ValueIdx.ix2 r g)) :
    (dats m 0 c).arrAt 4 cfg0.N = G :=
  (dats m 0 c).arrAt_eq_of_cover 4 G (flushed4_eq m c G hG) cover4

/-! ## Output window 5 -/

/-- The index map of window 5, decided over the grid: the block of point t is block t / 8 along the samples and
    block 0 along the groups. -/
theorem idx_facts5 : ∀ t : Fin cfg0.N, win0_5.index t (0 : Fin 2) = t.val / 8 ∧ win0_5.index t (1 : Fin 2) = 0 :=
  (by decide +kernel : ∀ t : Fin grid0.N, _)

/-- What a last row-block's point writes back is its block of G: rows 16·(t / 8) … 16·(t / 8) + 15, both groups. -/
theorem flushed5_eq (m : (ℓ : Loc nD τ sig) → Buf (Elt F) ℓ) (c : Dev nD) (G : Vec F S32x2 .f32)
    (hG : ∀ (t : Fin cfg0.N), t.val % 8 = 7 → ∀ (r : Fin 16) (g : Fin 2),
      G (ValueIdx.ix2 (n0 := 32) ⟨16 * (t.val / 8) + r.val, by have := t.isLt; have : cfg0.N = 16 := N_0; omega⟩ g)
        = out5At m c t (ValueIdx.ix2 r g))
    (t : Fin cfg0.N) (hf : (cfg0.win 5).flush t = true) :
    (dats m 0 c).flushed 5 t = ((cfg0.win 5).blk t).view.read (Elt F) G := by
  have h7 : t.val % 8 = 7 := (flush0_5 t).mp hf
  obtain ⟨i0, i1⟩ := idx_facts5 t
  show (cfg0.win 5).cut (grid0.coords t) ((dats m 0 c).after 5 t) = _
  rw [after5]
  funext j
  have hr : (j 0).val < 16 := (j 0).isLt
  have hg : (j 1).val < 2 := (j 1).isLt
  show out5At m c t j = G (((cfg0.win 5).blk t).view.emb j)
  refine Eq.trans (congrArg (out5At m c t) ?_) ((hG t h7 ⟨(j 0).val, hr⟩ ⟨(j 1).val, hg⟩).symm.trans (congrArg G ?_))
  · funext a
    match a with
    | ⟨0, _⟩ => rfl
    | ⟨1, _⟩ => rfl
  · funext a
    apply Fin.ext
    match a with
    | ⟨0, _⟩ =>
      show 16 * (t.val / 8) + (j 0).val = win0_5.index t (0 : Fin 2) * 16 + 1 * (j 0).val
      rw [i0]; omega
    | ⟨1, _⟩ =>
      show (j 1).val = win0_5.index t (1 : Fin 2) * 2 + 1 * (j 1).val
      rw [i1]; omega

/-- An index of the array is in point t's block iff each coordinate is in the block's range on its axis. -/
theorem mem_blk5 (t : Fin cfg0.N) (i : S32x2.Idx) :
    i ∈ ((cfg0.win 5).blk t).view.set
      ↔ ∀ a : Fin 2, win0_5.index t a * S16x2.size a ≤ (i a).val ∧ (i a).val < win0_5.index t a * S16x2.size a + S16x2.size a := by
  show i ∈ ((View.whole main_v0_3).slice (win0_5.rect t)).set ↔ _
  rw [View.set_slice_whole, Rect.mem_set_unit]
  exact Iff.rfl

/-- Row b of the array is in the block of the point 8·(b / 16) + 7, which writes back. -/
theorem cover5 (i : S32x2.Idx) : ∃ t : Fin cfg0.N, (cfg0.win 5).flush t = true ∧ i ∈ ((cfg0.win 5).blk t).view.set := by
  have hb : (i 0).val < 32 := (i 0).isLt
  have hg : (i 1).val < 2 := (i 1).isLt
  have hN : cfg0.N = 16 := N_0
  refine ⟨⟨8 * ((i 0).val / 16) + 7, by omega⟩, (flush0_5 _).mpr (by show (8 * ((i 0).val / 16) + 7) % 8 = 7; omega), ?_⟩
  obtain ⟨i0, i1⟩ := idx_facts5 ⟨8 * ((i 0).val / 16) + 7, by omega⟩
  rw [mem_blk5]
  intro a
  match a with
  | ⟨0, _⟩ =>
    show win0_5.index ⟨8 * ((i 0).val / 16) + 7, _⟩ (0 : Fin 2) * 16 ≤ (i 0).val
      ∧ (i 0).val < win0_5.index ⟨8 * ((i 0).val / 16) + 7, _⟩ (0 : Fin 2) * 16 + 16
    rw [i0]
    show (8 * ((i 0).val / 16) + 7) / 8 * 16 ≤ (i 0).val ∧ (i 0).val < (8 * ((i 0).val / 16) + 7) / 8 * 16 + 16
    omega
  | ⟨1, _⟩ =>
    show win0_5.index ⟨8 * ((i 0).val / 16) + 7, _⟩ (1 : Fin 2) * 2 ≤ (i 1).val
      ∧ (i 1).val < win0_5.index ⟨8 * ((i 0).val / 16) + 7, _⟩ (1 : Fin 2) * 2 + 2
    rw [i1]; omega

/-- The array of window 5 after the run is G, when G's rows 16·(t / 8) + r are what the point t with t % 8 = 7 leaves. -/
theorem arr5_eq (m : (ℓ : Loc nD τ sig) → Buf (Elt F) ℓ) (c : Dev nD) (G : Vec F S32x2 .f32)
    (hG : ∀ (t : Fin cfg0.N), t.val % 8 = 7 → ∀ (r : Fin 16) (g : Fin 2),
      G (ValueIdx.ix2 (n0 := 32) ⟨16 * (t.val / 8) + r.val, by have := t.isLt; have : cfg0.N = 16 := N_0; omega⟩ g)
        = out5At m c t (ValueIdx.ix2 r g)) :
    (dats m 0 c).arrAt 5 cfg0.N = G :=
  (dats m 0 c).arrAt_eq_of_cover 5 G (flushed5_eq m c G hG) cover5

end Cert.KernelIdeal.Body

end
-- ==== Proof.KTail.lean ====
/-
  The scalar the host computes, after the kernel region, from the kernel's four [32,2] result tables
  (B: cross-entropy sums, M: kept-norm sums, C: counts, D: norm sums; row b the sample, column g the group):

    maskLoss g   = (-((Σ_b B b g) / 32)) / 65536
    perSample b g = M b g / max(C b g, 1)  where C b g > 0,  else D b g / 65536
    nocs g       = (Σ_b perSample b g) / 32
    result       = (Σ_g (0.7 · maskLoss g + 0.3 · nocs g)) / 2

  The host operations are written here as four vector-valued stages of the four tables; the fold of the operation
  list at the result buffer IS the last stage, and each stage read at an index is the specification's formula: a sum
  over axis 0 of a [32,2] table at column g is the sum over the 32 rows (the initial value, the zero word, is 0), the
  sum of a 2-vector is the sum over its 2 entries, a broadcast scalar word reads that word everywhere, and division,
  negation, product, sum, maximum, comparison and select act entry by entry. The words 32, 65536, 1, 0.7, 0.3, 2 stay
  unevaluated.
-/
import proofs.«148723_j17265768529972_2_alg».proof.Proof.Gen.KernelIdeal.Launch
import proofs.«148723_j17265768529972_2_alg».proof.Proof.Spec
import Idealize.ShloMosaic.Lib.StableHlo.Run
import Idealize.ShloMosaic.Lib.ValueIdx
import Idealize.ShloMosaic.PureOps.Ideal.Laws

noncomputable section

namespace Cert.KernelIdeal.Tail

open Idealize.ShloMosaic Idealize.ShloMosaic.ValueIdx Cert.KernelIdeal Cert.KernelIdeal.Gen

/-- a [32,2] array as a table -/
def tab (A : Vec Ideal S32x2 .f32) : Cert.Spec.Tab := fun b g => A (ValueIdx.ix2 b g)

/-! ### The operations read at an index -/

/-- A scalar word broadcast to any shape reads that word everywhere. -/
theorem word_apply {t : Shape} (w : BitVec 32) (hb : S_.BroadcastsInDim t (![] : Fin 0 → Fin t.rank)) (j : t.Idx) :
    broadcastInDim t ![] hb (constant (F := Ideal) S_ .f32 w) j = Ideal.ofBits .f32 w := rfl

/-- The host's sum over axis 0 of a [32,2] table from the zero word, at column g: the sum over the 32 rows. -/
theorem sum32 (x : FVec Ideal S32x2 .f32) (h' : S32x2.ReducesTo [0] S2) (hu : 0 < S_.numel) (g : Fin 2) :
    Host.reduceAdd (F := Ideal) x (constant (F := Ideal) S_ .f32 0x00000000#32) h' hu (ix1 g) = ∑ b : Fin 32, x (ix2 b g) := by
  have h : S32x2.Reduces [0] S2 := by decide
  refine (Ideal.hostReduceAdd_single h' h x _ (ix1 g)).trans ?_
  show Ideal.ofBits .f32 0x00000000#32 + _ = _
  rw [Ideal.ofBits_zero_f32, zero_add]
  refine Finset.sum_congr rfl fun b _ => congrArg x ?_
  funext c
  match c with
  | ⟨0, _⟩ => rfl
  | ⟨1, _⟩ => rfl

/-- A sum over the indices of a rank-1 shape is the sum over its one coordinate. -/
theorem sum_idx1 {n : Nat} (f : (⟨1, ![n]⟩ : Shape).Idx → EReal) : ∑ i, f i = ∑ a : Fin n, f (ix1 a) :=
  Fintype.sum_equiv ⟨fun i => i 0, fun a => ix1 a, fun i => (eq_ix1 i).symm, fun _ => rfl⟩ f (fun a => f (ix1 a))
    (fun i => congrArg f (eq_ix1 i))

/-- The host's sum of a 2-vector from the zero word, a scalar: the sum over the 2 entries. -/
theorem sum2 (x : FVec Ideal S2 .f32) (h' : S2.ReducesTo [0] S_) (hu : 0 < S_.numel) (j : S_.Idx) :
    Host.reduceAdd (F := Ideal) x (constant (F := Ideal) S_ .f32 0x00000000#32) h' hu j = ∑ g : Fin 2, x (ix1 g) := by
  refine (Ideal.hostReduceAdd_total h' (fun b => b.elim0) x _ j).trans ?_
  show Ideal.ofBits .f32 0x00000000#32 + _ = _
  rw [Ideal.ofBits_zero_f32, zero_add]
  exact sum_idx1 x

/-! ### The four stages -/

/-- The mask loss of each group, from the cross-entropy sums. -/
def maskLossV (B : FVec Ideal S32x2 .f32) : FVec Ideal S2 .f32 :=
  Host.divf
    (Host.negf
      (Host.divf (Host.reduceAdd B (constant S_ .f32 0x00000000#32) reducesTo_S32x2_S2_d0 h_S_)
        (broadcastInDim S2 ![] bcast_S_S2 (constant S_ .f32 0x42000000#32))))
    (broadcastInDim S2 ![] bcast_S_S2 (constant S_ .f32 0x47800000#32))

/-- The per-sample image loss of each (sample, group). -/
def perSampleV (M C D : FVec Ideal S32x2 .f32) : FVec Ideal S32x2 .f32 :=
  select (cmpf .ogt C (broadcastInDim S32x2 ![] bcast_S_S32x2 (constant S_ .f32 0x00000000#32)))
    (Host.divf M (maximumf C (broadcastInDim S32x2 ![] bcast_S_S32x2 (constant S_ .f32 0x3F800000#32))))
    (Host.divf D (broadcastInDim S32x2 ![] bcast_S_S32x2 (constant S_ .f32 0x47800000#32)))

/-- The image loss of each group: the mean over the samples. -/
def nocsV (M C D : FVec Ideal S32x2 .f32) : FVec Ideal S2 .f32 :=
  Host.divf (Host.reduceAdd (perSampleV M C D) (constant S_ .f32 0x00000000#32) reducesTo_S32x2_S2_d0 h_S_)
    (broadcastInDim S2 ![] bcast_S_S2 (constant S_ .f32 0x42000000#32))

/-- The scalar result. -/
def tailV (B M C D : FVec Ideal S32x2 .f32) : FVec Ideal S_ .f32 :=
  Host.divf
    (Host.reduceAdd
      (addf (mulf (broadcastInDim S2 ![] bcast_S_S2 (constant S_ .f32 0x3F333333#32)) (maskLossV B))
        (mulf (broadcastInDim S2 ![] bcast_S_S2 (constant S_ .f32 0x3E99999A#32)) (nocsV M C D)))
      (constant S_ .f32 0x00000000#32) reducesTo_S2_S_d0 h_S_)
    (constant S_ .f32 0x40000000#32)

/-! ### Each stage at an index is the specification's formula -/

theorem maskLossV_apply (B : FVec Ideal S32x2 .f32) (g : Fin 2) : maskLossV B (ix1 g) = Cert.Spec.maskLoss (tab B) g := by
  unfold maskLossV
  show Ideal.div (-(Ideal.div (Host.reduceAdd (F := Ideal) B (constant (F := Ideal) S_ .f32 0x00000000#32) reducesTo_S32x2_S2_d0 h_S_ (ix1 g))
      (Ideal.ofBits .f32 0x42000000#32))) (Ideal.ofBits .f32 0x47800000#32) = _
  rw [sum32]
  rfl

theorem perSampleV_apply (M C D : FVec Ideal S32x2 .f32) (b : Fin 32) (g : Fin 2) :
    perSampleV M C D (ix2 b g) = Cert.Spec.perSample (tab M) (tab C) (tab D) b g := by
  unfold perSampleV
  show Scalar.select (Ideal.cmp .ogt (C (ix2 b g)) (Ideal.ofBits .f32 0x00000000#32))
      (Ideal.div (M (ix2 b g)) (max (C (ix2 b g)) (Ideal.ofBits .f32 0x3F800000#32)))
      (Ideal.div (D (ix2 b g)) (Ideal.ofBits .f32 0x47800000#32)) = _
  rw [Ideal.ofBits_zero_f32]
  rfl

theorem nocsV_apply (M C D : FVec Ideal S32x2 .f32) (g : Fin 2) :
    nocsV M C D (ix1 g) = Cert.Spec.nocs (tab M) (tab C) (tab D) g := by
  unfold nocsV
  show Ideal.div (Host.reduceAdd (F := Ideal) (perSampleV M C D) (constant (F := Ideal) S_ .f32 0x00000000#32) reducesTo_S32x2_S2_d0 h_S_ (ix1 g))
      (Ideal.ofBits .f32 0x42000000#32) = _
  rw [sum32]
  simp only [perSampleV_apply]
  rfl

theorem tailV_apply (B M C D : FVec Ideal S32x2 .f32) (j : S_.Idx) :
    tailV B M C D j = Cert.Spec.tail (tab B) (tab M) (tab C) (tab D) := by
  unfold tailV
  show Ideal.div (Host.reduceAdd (F := Ideal)
      (addf (mulf (broadcastInDim S2 ![] bcast_S_S2 (constant (F := Ideal) S_ .f32 0x3F333333#32)) (maskLossV B))
        (mulf (broadcastInDim S2 ![] bcast_S_S2 (constant (F := Ideal) S_ .f32 0x3E99999A#32)) (nocsV M C D)))
      (constant (F := Ideal) S_ .f32 0x00000000#32) reducesTo_S2_S_d0 h_S_ j) (Ideal.ofBits .f32 0x40000000#32) = _
  rw [sum2]
  show Ideal.div (∑ g : Fin 2, (Ideal.ofBits .f32 0x3F333333#32 * maskLossV B (ix1 g)
      + Ideal.ofBits .f32 0x3E99999A#32 * nocsV M C D (ix1 g))) (Ideal.ofBits .f32 0x40000000#32) = _
  simp only [maskLossV_apply, nocsV_apply]
  rfl

/-! ### The fold of the host operations at the result buffer is the last stage -/

theorem after_eq_tailV (W : Valuation τ sig (Elt Ideal)) :
    StableHlo.after (List.flatten [hostOps1 (F := Ideal), hostOps1_1, hostOps1_2]) W (Proc.devRef .tc main_v24)
      = tailV (W (Proc.devRef .tc main_v0_0)) (W (Proc.devRef .tc main_v0_1)) (W (Proc.devRef .tc main_v0_2))
          (W (Proc.devRef .tc main_v0_3)) := by
  simp only [hostOps1, hostOps1_1, hostOps1_2, List.flatten_cons, List.flatten_nil, List.append_nil, List.cons_append,
    List.nil_append]
  after_results_simp
  rfl

/-- The scalar the host leaves in the result buffer is the specification's `tail` of the four result tables. -/
theorem tail_value (W : Valuation τ sig (Elt Ideal)) :
    StableHlo.after (List.flatten [hostOps1 (F := Ideal), hostOps1_1, hostOps1_2]) W (Proc.devRef .tc main_v24)
      = fun _ => Cert.Spec.tail (tab (W (Proc.devRef .tc main_v0_0))) (tab (W (Proc.devRef .tc main_v0_1)))
          (tab (W (Proc.devRef .tc main_v0_2))) (tab (W (Proc.devRef .tc main_v0_3))) :=
  (after_eq_tailV W).trans (funext fun j => tailV_apply _ _ _ _ j)

end Cert.KernelIdeal.Tail

end
-- ==== Proof.KValue.lean ====
/-
  The idealized kernel's run, read: its scalar result is the specification's loss of the two argument arrays.

  After the region each of the four [32, 2] result arrays holds, at (16a + r, g), what its accumulator held after the last
  row-block of half a: the specification's table there. The host lines after the region then compute the specification's
  `tail` of the four tables.
-/
import proofs.«148723_j17265768529972_2_alg».proof.Proof.KTables
import proofs.«148723_j17265768529972_2_alg».proof.Proof.KArrays
import proofs.«148723_j17265768529972_2_alg».proof.Proof.KTail

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelIdeal.Rows Idealize.ShloMosaic.ValueIdx

variable (m : (ℓ : Loc nD τ sig) → Buf (Elt Ideal) ℓ) (ρ : Dev nD → PrngReg)

/-- A table as a [32, 2] array. -/
def tabArr (f : Cert.Spec.Tab) : Vec Ideal S32x2 .f32 := fun i => f (i 0) (i 1)

theorem tab_tabArr (f : Cert.Spec.Tab) : Tail.tab (tabArr f) = f := rfl

/-- The row of the [32, 2] arrays that point t's output block starts at, plus r. -/
theorem row_eq (t : Fin cfg0.N) (h7 : t.val % 8 = 7) (r : Fin 16) (hb : 16 * (t.val / 8) + r.val < 32) :
    (⟨16 * (t.val / 8) + r.val, hb⟩ : Fin 32) = rowB ⟨t.val / 8, by have := t.isLt; have : cfg0.N = 16 := N_0; omega⟩ r := rfl

/-- What an output buffer holds at a last row-block, entry by entry: the specification's tables. -/
theorem out_at (c : Dev nD) (t : Fin cfg0.N) (h7 : t.val % 8 = 7) (r : Fin 16) (g : Fin 2) :
    out2At m c t (ix2 r g) = Cert.Spec.bceSum (inO m c) (inT m c) (rowB ⟨t.val / 8, by have := t.isLt; have : cfg0.N = 16 := N_0; omega⟩ r) g
    ∧ out3At m c t (ix2 r g) = Cert.Spec.mSum (inO m c) (inT m c) (rowB ⟨t.val / 8, by have := t.isLt; have : cfg0.N = 16 := N_0; omega⟩ r) g
    ∧ out4At m c t (ix2 r g) = Cert.Spec.count (inO m c) (inT m c) (rowB ⟨t.val / 8, by have := t.isLt; have : cfg0.N = 16 := N_0; omega⟩ r) g
    ∧ out5At m c t (ix2 r g) = Cert.Spec.dSum (inO m c) (inT m c) (rowB ⟨t.val / 8, by have := t.isLt; have : cfg0.N = 16 := N_0; omega⟩ r) g := by
  have hN : t.val < 16 := lt_of_lt_of_eq t.isLt (show cfg0.N = 16 from N_0)
  obtain ⟨e2, e3, e4, e5⟩ := out_last m c t h7
  have et : t.val = 8 * (t.val / 8) + 7 := by omega
  have hc := accAt_congr m c et t.isLt (bnd ⟨t.val / 8, by omega⟩ 7 (by omega))
  obtain ⟨a0, a1, a2, a3⟩ := acc_last m c ⟨t.val / 8, by omega⟩ r g
  rw [e2, e3, e4, e5, hc]
  exact ⟨a0, a1, a2, a3⟩

/-- The four result arrays after the region are the specification's four tables. -/
theorem out_tables (c : Dev nD) :
    (dats m 0 c).arrAt 2 cfg0.N = tabArr (Cert.Spec.bceSum (inO m c) (inT m c))
    ∧ (dats m 0 c).arrAt 3 cfg0.N = tabArr (Cert.Spec.mSum (inO m c) (inT m c))
    ∧ (dats m 0 c).arrAt 4 cfg0.N = tabArr (Cert.Spec.count (inO m c) (inT m c))
    ∧ (dats m 0 c).arrAt 5 cfg0.N = tabArr (Cert.Spec.dSum (inO m c) (inT m c)) :=
  ⟨arr2_eq m c _ fun t h7 r g => ((out_at m c t h7 r g).1).symm,
   arr3_eq m c _ fun t h7 r g => ((out_at m c t h7 r g).2.1).symm,
   arr4_eq m c _ fun t h7 r g => ((out_at m c t h7 r g).2.2.1).symm,
   arr5_eq m c _ fun t h7 r g => ((out_at m c t h7 r g).2.2.2).symm⟩

/-- The host lines after the region leave the specification's loss in the result. -/
theorem tail_eq (c : Dev nD) :
    Pipeline.afterTail₀ cfgs (dats m) 0 (Gen.V0 m) [hostOps1, hostOps1_1, hostOps1_2] c main_v24
      = fun _ => Cert.Spec.loss (inO m c) (inT m c) := by
  unfold Pipeline.afterTail₀
  show StableHlo.after (List.flatten [hostOps1 (F := Ideal), hostOps1_1, hostOps1_2])
      (Pipeline.withArrays spec0 c (Gen.V0 m c) fun w => (dats m 0 c).arrAt w cfg0.N) (Proc.devRef .tc main_v24) = _
  rw [Tail.tail_value]
  have e2 : Pipeline.withArrays spec0 c (Gen.V0 m c) (fun w => (dats m 0 c).arrAt w cfg0.N) (Proc.devRef .tc main_v0_0)
      = (dats m 0 c).arrAt 2 cfg0.N := Pipeline.withArrays_arr spec0 launch0.win.arr_inj c _ _ 2
  have e3 : Pipeline.withArrays spec0 c (Gen.V0 m c) (fun w => (dats m 0 c).arrAt w cfg0.N) (Proc.devRef .tc main_v0_1)
      = (dats m 0 c).arrAt 3 cfg0.N := Pipeline.withArrays_arr spec0 launch0.win.arr_inj c _ _ 3
  have e4 : Pipeline.withArrays spec0 c (Gen.V0 m c) (fun w => (dats m 0 c).arrAt w cfg0.N) (Proc.devRef .tc main_v0_2)
      = (dats m 0 c).arrAt 4 cfg0.N := Pipeline.withArrays_arr spec0 launch0.win.arr_inj c _ _ 4
  have e5 : Pipeline.withArrays spec0 c (Gen.V0 m c) (fun w => (dats m 0 c).arrAt w cfg0.N) (Proc.devRef .tc main_v0_3)
      = (dats m 0 c).arrAt 5 cfg0.N := Pipeline.withArrays_arr spec0 launch0.win.arr_inj c _ _ 5
  obtain ⟨t2, t3, t4, t5⟩ := out_tables m c
  rw [e2, e3, e4, e5, t2, t3, t4, t5]
  rfl

/-- Every weakly fair execution of the idealized kernel's @main terminates with the result at the specification's loss of the
    two argument arrays, and the arguments unchanged. -/
theorem value_run : θ_run defs (onTc (τ := τ) (main (F := Ideal))) ⟨m, fun _ => 0, ρ⟩ (fun r => ∀ c : Dev nD,
      r.2.mem ((c.tc : Thread nD τ).loc main_v24)
          = (fun _ => Cert.Spec.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v24 (Pipeline.mem_restRefs_of main_v24 rfl (by decide))).trans (tail_eq m c),
      ((h c).1 0).trans (((dats m 0 c).arrAt_in 0 rfl _).trans ((A_eq m c 0).trans (Gen.V_main_arg0 m c))),
      ((h c).1 1).trans (((dats m 0 c).arrAt_in 1 rfl _).trans ((A_eq m c 1).trans (Gen.V_main_arg1 m c)))⟩)
    (run_main m ρ)

end Cert.KernelIdeal.Body

end
-- ==== Proof.RefStages.lean ====
/-
  The reference program's values, one per operation, in program order: `val_<buffer>` is what the operation
  writes into its buffer, as a function of the two argument arrays `x0` (the network's output) and `x1` (the
  target), for any float instance. Nothing is proved here; the run states its post through these names and the
  later modules read them at an index.
-/
import proofs.«148723_j17265768529972_2_alg».proof.Proof.Gen.ReferenceIdeal

noncomputable section

namespace Cert.ReferenceIdeal.RefValue

open Cert.ReferenceIdeal Cert.ReferenceIdeal.Gen Idealize.ShloMosaic Idealize.SL.Sem

variable {F : FTy → Type} [FloatOps F]

def val_main_v0 (x0 : (⟨S32x8x256x256, .f32⟩ : BufTy).Contents (Elt F)) : (⟨S32x2x4x256x256, .f32⟩ : BufTy).Contents (Elt F) :=
  shapeCast _ (x0) shapeCasts_S32x8x256x256_S32x2x4x256x256

def val_main_v1 (x1 : (⟨S32x8x256x256, .f32⟩ : BufTy).Contents (Elt F)) : (⟨S32x2x4x256x256, .f32⟩ : BufTy).Contents (Elt F) :=
  shapeCast _ (x1) shapeCasts_S32x8x256x256_S32x2x4x256x256

def val_main_v2 (x0 : (⟨S32x8x256x256, .f32⟩ : BufTy).Contents (Elt F)) : (⟨S32x2x1x256x256, .f32⟩ : BufTy).Contents (Elt F) :=
  extractStridedSlice S32x2x1x256x256 ![0, 0, 3, 0, 0] (val_main_v0 (F := F) x0) slices_S32x2x4x256x256_S32x2x1x256x256_0_0_3_0_0

def val_main_v3 (x0 : (⟨S32x8x256x256, .f32⟩ : BufTy).Contents (Elt F)) : (⟨S32x2x256x256, .f32⟩ : BufTy).Contents (Elt F) :=
  shapeCast _ (val_main_v2 (F := F) x0) shapeCasts_S32x2x1x256x256_S32x2x256x256

def val_main_v4 (x0 : (⟨S32x8x256x256, .f32⟩ : BufTy).Contents (Elt F)) : (⟨S32x2x256x256, .f32⟩ : BufTy).Contents (Elt F) :=
  Host.negf (val_main_v3 (F := F) x0)

def val_main_v5 (x0 : (⟨S32x8x256x256, .f32⟩ : BufTy).Contents (Elt F)) : (⟨S32x2x256x256, .f32⟩ : BufTy).Contents (Elt F) :=
  Host.exp (val_main_v4 (F := F) x0)

def val_main_cst : (⟨S_, .f32⟩ : BufTy).Contents (Elt F) :=
  constant S_ .f32 0x3F800000#32

def val_main_v6 : (⟨S32x2x256x256, .f32⟩ : BufTy).Contents (Elt F) :=
  broadcastInDim S32x2x256x256 ![] bcast_S_S32x2x256x256 (val_main_cst (F := F))

def val_main_v7 (x0 : (⟨S32x8x256x256, .f32⟩ : BufTy).Contents (Elt F)) : (⟨S32x2x256x256, .f32⟩ : BufTy).Contents (Elt F) :=
  addf (val_main_v6 (F := F)) (val_main_v5 (F := F) x0)

def val_main_cst_0 : (⟨S_, .f32⟩ : BufTy).Contents (Elt F) :=
  constant S_ .f32 0x3F800000#32

def val_main_v8 : (⟨S32x2x256x256, .f32⟩ : BufTy).Contents (Elt F) :=
  broadcastInDim S32x2x256x256 ![] bcast_S_S32x2x256x256 (val_main_cst_0 (F := F))

def val_main_v9 (x0 : (⟨S32x8x256x256, .f32⟩ : BufTy).Contents (Elt F)) : (⟨S32x2x256x256, .f32⟩ : BufTy).Contents (Elt F) :=
  Host.divf (val_main_v8 (F := F)) (val_main_v7 (F := F) x0)

def val_main_v10 (x1 : (⟨S32x8x256x256, .f32⟩ : BufTy).Contents (Elt F)) : (⟨S32x2x1x256x256, .f32⟩ : BufTy).Contents (Elt F) :=
  extractStridedSlice S32x2x1x256x256 ![0, 0, 3, 0, 0] (val_main_v1 (F := F) x1) slices_S32x2x4x256x256_S32x2x1x256x256_0_0_3_0_0

def val_main_v11 (x1 : (⟨S32x8x256x256, .f32⟩ : BufTy).Contents (Elt F)) : (⟨S32x2x256x256, .f32⟩ : BufTy).Contents (Elt F) :=
  shapeCast _ (val_main_v10 (F := F) x1) shapeCasts_S32x2x1x256x256_S32x2x256x256

def val_main_v12 (x0 : (⟨S32x8x256x256, .f32⟩ : BufTy).Contents (Elt F)) : (⟨S32x2x256x256, .f32⟩ : BufTy).Contents (Elt F) :=
  Host.log (val_main_v9 (F := F) x0)

def val_main_cst_1 : (⟨S_, .f32⟩ : BufTy).Contents (Elt F) :=
  constant S_ .f32 0xC2C80000#32

def val_main_call0_v0 : (⟨S_, .f32⟩ : BufTy).Contents (Elt F) :=
  id (val_main_cst_1 (F := F))

def val_main_call0_v1 : (⟨S32x2x256x256, .f32⟩ : BufTy).Contents (Elt F) :=
  broadcastInDim S32x2x256x256 ![] bcast_S_S32x2x256x256 (val_main_call0_v0 (F := F))

def val_main_v13 (x0 : (⟨S32x8x256x256, .f32⟩ : BufTy).Contents (Elt F)) : (⟨S32x2x256x256, .f32⟩ : BufTy).Contents (Elt F) :=
  maximumf (val_main_call0_v1 (F := F)) (val_main_v12 (F := F) x0)

def val_main_v14 (x0 : (⟨S32x8x256x256, .f32⟩ : BufTy).Contents (Elt F)) : (⟨S32x2x256x256, .f32⟩ : BufTy).Contents (Elt F) :=
  Host.negf (val_main_v9 (F := F) x0)

def val_main_v15 (x0 : (⟨S32x8x256x256, .f32⟩ : BufTy).Contents (Elt F)) : (⟨S32x2x256x256, .f32⟩ : BufTy).Contents (Elt F) :=
  Host.log1p (val_main_v14 (F := F) x0)

def val_main_cst_2 : (⟨S_, .f32⟩ : BufTy).Contents (Elt F) :=
  constant S_ .f32 0xC2C80000#32

def val_main_call1_v0 : (⟨S_, .f32⟩ : BufTy).Contents (Elt F) :=
  id (val_main_cst_2 (F := F))

def val_main_call1_v1 : (⟨S32x2x256x256, .f32⟩ : BufTy).Contents (Elt F) :=
  broadcastInDim S32x2x256x256 ![] bcast_S_S32x2x256x256 (val_main_call1_v0 (F := F))

def val_main_v16 (x0 : (⟨S32x8x256x256, .f32⟩ : BufTy).Contents (Elt F)) : (⟨S32x2x256x256, .f32⟩ : BufTy).Contents (Elt F) :=
  maximumf (val_main_call1_v1 (F := F)) (val_main_v15 (F := F) x0)

def val_main_v17 (x0 x1 : (⟨S32x8x256x256, .f32⟩ : BufTy).Contents (Elt F)) : (⟨S32x2x256x256, .f32⟩ : BufTy).Contents (Elt F) :=
  mulf (val_main_v11 (F := F) x1) (val_main_v13 (F := F) x0)

def val_main_cst_3 : (⟨S_, .f32⟩ : BufTy).Contents (Elt F) :=
  constant S_ .f32 0x3F800000#32

def val_main_v18 : (⟨S32x2x256x256, .f32⟩ : BufTy).Contents (Elt F) :=
  broadcastInDim S32x2x256x256 ![] bcast_S_S32x2x256x256 (val_main_cst_3 (F := F))

def val_main_v19 (x1 : (⟨S32x8x256x256, .f32⟩ : BufTy).Contents (Elt F)) : (⟨S32x2x256x256, .f32⟩ : BufTy).Contents (Elt F) :=
  subf (val_main_v18 (F := F)) (val_main_v11 (F := F) x1)

def val_main_v20 (x0 x1 : (⟨S32x8x256x256, .f32⟩ : BufTy).Contents (Elt F)) : (⟨S32x2x256x256, .f32⟩ : BufTy).Contents (Elt F) :=
  mulf (val_main_v19 (F := F) x1) (val_main_v16 (F := F) x0)

def val_main_v21 (x0 x1 : (⟨S32x8x256x256, .f32⟩ : BufTy).Contents (Elt F)) : (⟨S32x2x256x256, .f32⟩ : BufTy).Contents (Elt F) :=
  addf (val_main_v17 (F := F) x0 x1) (val_main_v20 (F := F) x0 x1)

def val_main_cst_4 : (⟨S_, .f32⟩ : BufTy).Contents (Elt F) :=
  constant S_ .f32 0x00000000#32

def val_main_v22 (x0 x1 : (⟨S32x8x256x256, .f32⟩ : BufTy).Contents (Elt F)) : (⟨S2, .f32⟩ : BufTy).Contents (Elt F) :=
  Host.reduceAdd (val_main_v21 (F := F) x0 x1) (val_main_cst_4 (F := F)) reducesTo_S32x2x256x256_S2_d0_2_3 h_S_

def val_main_cst_5 : (⟨S_, .f32⟩ : BufTy).Contents (Elt F) :=
  constant S_ .f32 0x4A000000#32

def val_main_v23 : (⟨S2, .f32⟩ : BufTy).Contents (Elt F) :=
  broadcastInDim S2 ![] bcast_S_S2 (val_main_cst_5 (F := F))

def val_main_v24 (x0 x1 : (⟨S32x8x256x256, .f32⟩ : BufTy).Contents (Elt F)) : (⟨S2, .f32⟩ : BufTy).Contents (Elt F) :=
  Host.divf (val_main_v22 (F := F) x0 x1) (val_main_v23 (F := F))

def val_main_v25 (x0 x1 : (⟨S32x8x256x256, .f32⟩ : BufTy).Contents (Elt F)) : (⟨S2, .f32⟩ : BufTy).Contents (Elt F) :=
  Host.negf (val_main_v24 (F := F) x0 x1)

def val_main_v26 (x0 : (⟨S32x8x256x256, .f32⟩ : BufTy).Contents (Elt F)) : (⟨S32x2x3x256x256, .f32⟩ : BufTy).Contents (Elt F) :=
  extractStridedSlice S32x2x3x256x256 ![0, 0, 0, 0, 0] (val_main_v0 (F := F) x0) slices_S32x2x4x256x256_S32x2x3x256x256_0_0_0_0_0

def val_main_v27 (x1 : (⟨S32x8x256x256, .f32⟩ : BufTy).Contents (Elt F)) : (⟨S32x2x3x256x256, .f32⟩ : BufTy).Contents (Elt F) :=
  extractStridedSlice S32x2x3x256x256 ![0, 0, 0, 0, 0] (val_main_v1 (F := F) x1) slices_S32x2x4x256x256_S32x2x3x256x256_0_0_0_0_0

def val_main_v28 (x0 x1 : (⟨S32x8x256x256, .f32⟩ : BufTy).Contents (Elt F)) : (⟨S32x2x3x256x256, .f32⟩ : BufTy).Contents (Elt F) :=
  subf (val_main_v26 (F := F) x0) (val_main_v27 (F := F) x1)

def val_main_v29 (x0 x1 : (⟨S32x8x256x256, .f32⟩ : BufTy).Contents (Elt F)) : (⟨S32x2x3x256x256, .f32⟩ : BufTy).Contents (Elt F) :=
  mulf (val_main_v28 (F := F) x0 x1) (val_main_v28 (F := F) x0 x1)

def val_main_cst_6 : (⟨S_, .f32⟩ : BufTy).Contents (Elt F) :=
  constant S_ .f32 0x00000000#32

def val_main_v30 (x0 x1 : (⟨S32x8x256x256, .f32⟩ : BufTy).Contents (Elt F)) : (⟨S32x2x256x256, .f32⟩ : BufTy).Contents (Elt F) :=
  Host.reduceAdd (val_main_v29 (F := F) x0 x1) (val_main_cst_6 (F := F)) reducesTo_S32x2x3x256x256_S32x2x256x256_d2 h_S_

def val_main_v31 (x0 x1 : (⟨S32x8x256x256, .f32⟩ : BufTy).Contents (Elt F)) : (⟨S32x2x256x256, .f32⟩ : BufTy).Contents (Elt F) :=
  Host.sqrt (val_main_v30 (F := F) x0 x1)

def val_main_cst_7 : (⟨S_, .f32⟩ : BufTy).Contents (Elt F) :=
  constant S_ .f32 0x3F333333#32

def val_main_v32 : (⟨S32x2x256x256, .f32⟩ : BufTy).Contents (Elt F) :=
  broadcastInDim S32x2x256x256 ![] bcast_S_S32x2x256x256 (val_main_cst_7 (F := F))

def val_main_v33 (x0 : (⟨S32x8x256x256, .f32⟩ : BufTy).Contents (Elt F)) : (⟨S32x2x256x256, .i1⟩ : BufTy).Contents (Elt F) :=
  cmpf .ogt (val_main_v9 (F := F) x0) (val_main_v32 (F := F))

def val_main_cst_8 : (⟨S_, .f32⟩ : BufTy).Contents (Elt F) :=
  constant S_ .f32 0x00000000#32

def val_main_call2_v0 : (⟨S_, .f32⟩ : BufTy).Contents (Elt F) :=
  id (val_main_cst_8 (F := F))

def val_main_call2_v1 : (⟨S32x2x256x256, .f32⟩ : BufTy).Contents (Elt F) :=
  broadcastInDim S32x2x256x256 ![] bcast_S_S32x2x256x256 (val_main_call2_v0 (F := F))

def val_main_v34 (x0 x1 : (⟨S32x8x256x256, .f32⟩ : BufTy).Contents (Elt F)) : (⟨S32x2x256x256, .f32⟩ : BufTy).Contents (Elt F) :=
  select (val_main_v33 (F := F) x0) (val_main_v31 (F := F) x0 x1) (val_main_call2_v1 (F := F))

def val_main_cst_9 : (⟨S_, .f32⟩ : BufTy).Contents (Elt F) :=
  constant S_ .f32 0x00000000#32

def val_main_v35 : (⟨S32x2x256x256, .f32⟩ : BufTy).Contents (Elt F) :=
  broadcastInDim S32x2x256x256 ![] bcast_S_S32x2x256x256 (val_main_cst_9 (F := F))

def val_main_v36 (x0 x1 : (⟨S32x8x256x256, .f32⟩ : BufTy).Contents (Elt F)) : (⟨S32x2x256x256, .i1⟩ : BufTy).Contents (Elt F) :=
  cmpf .une (val_main_v34 (F := F) x0 x1) (val_main_v35 (F := F))

def val_main_v37 (x0 x1 : (⟨S32x8x256x256, .f32⟩ : BufTy).Contents (Elt F)) : (⟨S32x2x256x256, .i32⟩ : BufTy).Contents (Elt F) :=
  extui 32 (val_main_v36 (F := F) x0 x1) natLt_1_32

def val_main_c : (⟨S_, .i32⟩ : BufTy).Contents (Elt F) :=
  constantI S_ 32 0#32

def val_main_v38 (x0 x1 : (⟨S32x8x256x256, .f32⟩ : BufTy).Contents (Elt F)) : (⟨S32x2, .i32⟩ : BufTy).Contents (Elt F) :=
  Host.reduce IntOp.addi (val_main_v37 (F := F) x0 x1) (val_main_c (F := F)) reducesTo_S32x2x256x256_S32x2_d2_3 h_S_

def val_main_v39 (x0 x1 : (⟨S32x8x256x256, .f32⟩ : BufTy).Contents (Elt F)) : (⟨S32x2, .f32⟩ : BufTy).Contents (Elt F) :=
  sitofp .f32 (val_main_v38 (F := F) x0 x1)

def val_main_cst_10 : (⟨S_, .f32⟩ : BufTy).Contents (Elt F) :=
  constant S_ .f32 0x00000000#32

def val_main_v40 (x0 x1 : (⟨S32x8x256x256, .f32⟩ : BufTy).Contents (Elt F)) : (⟨S32x2, .f32⟩ : BufTy).Contents (Elt F) :=
  Host.reduceAdd (val_main_v34 (F := F) x0 x1) (val_main_cst_10 (F := F)) reducesTo_S32x2x256x256_S32x2_d2_3 h_S_

def val_main_cst_11 : (⟨S_, .f32⟩ : BufTy).Contents (Elt F) :=
  constant S_ .f32 0x00000000#32

def val_main_v41 (x0 x1 : (⟨S32x8x256x256, .f32⟩ : BufTy).Contents (Elt F)) : (⟨S32x2, .f32⟩ : BufTy).Contents (Elt F) :=
  Host.reduceAdd (val_main_v31 (F := F) x0 x1) (val_main_cst_11 (F := F)) reducesTo_S32x2x256x256_S32x2_d2_3 h_S_

def val_main_cst_12 : (⟨S_, .f32⟩ : BufTy).Contents (Elt F) :=
  constant S_ .f32 0x47800000#32

def val_main_v42 : (⟨S32x2, .f32⟩ : BufTy).Contents (Elt F) :=
  broadcastInDim S32x2 ![] bcast_S_S32x2 (val_main_cst_12 (F := F))

def val_main_v43 (x0 x1 : (⟨S32x8x256x256, .f32⟩ : BufTy).Contents (Elt F)) : (⟨S32x2, .f32⟩ : BufTy).Contents (Elt F) :=
  Host.divf (val_main_v41 (F := F) x0 x1) (val_main_v42 (F := F))

def val_main_cst_13 : (⟨S_, .f32⟩ : BufTy).Contents (Elt F) :=
  constant S_ .f32 0x00000000#32

def val_main_v44 : (⟨S32x2, .f32⟩ : BufTy).Contents (Elt F) :=
  broadcastInDim S32x2 ![] bcast_S_S32x2 (val_main_cst_13 (F := F))

def val_main_v45 (x0 x1 : (⟨S32x8x256x256, .f32⟩ : BufTy).Contents (Elt F)) : (⟨S32x2, .i1⟩ : BufTy).Contents (Elt F) :=
  cmpf .ogt (val_main_v39 (F := F) x0 x1) (val_main_v44 (F := F))

def val_main_cst_14 : (⟨S_, .f32⟩ : BufTy).Contents (Elt F) :=
  constant S_ .f32 0x3F800000#32

def val_main_v46 : (⟨S32x2, .f32⟩ : BufTy).Contents (Elt F) :=
  broadcastInDim S32x2 ![] bcast_S_S32x2 (val_main_cst_14 (F := F))

def val_main_v47 (x0 x1 : (⟨S32x8x256x256, .f32⟩ : BufTy).Contents (Elt F)) : (⟨S32x2, .f32⟩ : BufTy).Contents (Elt F) :=
  maximumf (val_main_v39 (F := F) x0 x1) (val_main_v46 (F := F))

def val_main_v48 (x0 x1 : (⟨S32x8x256x256, .f32⟩ : BufTy).Contents (Elt F)) : (⟨S32x2, .f32⟩ : BufTy).Contents (Elt F) :=
  Host.divf (val_main_v40 (F := F) x0 x1) (val_main_v47 (F := F) x0 x1)

def val_main_v49 (x0 x1 : (⟨S32x8x256x256, .f32⟩ : BufTy).Contents (Elt F)) : (⟨S32x2, .f32⟩ : BufTy).Contents (Elt F) :=
  select (val_main_v45 (F := F) x0 x1) (val_main_v48 (F := F) x0 x1) (val_main_v43 (F := F) x0 x1)

def val_main_cst_15 : (⟨S_, .f32⟩ : BufTy).Contents (Elt F) :=
  constant S_ .f32 0x00000000#32

def val_main_v50 (x0 x1 : (⟨S32x8x256x256, .f32⟩ : BufTy).Contents (Elt F)) : (⟨S2, .f32⟩ : BufTy).Contents (Elt F) :=
  Host.reduceAdd (val_main_v49 (F := F) x0 x1) (val_main_cst_15 (F := F)) reducesTo_S32x2_S2_d0 h_S_

def val_main_cst_16 : (⟨S_, .f32⟩ : BufTy).Contents (Elt F) :=
  constant S_ .f32 0x42000000#32

def val_main_v51 : (⟨S2, .f32⟩ : BufTy).Contents (Elt F) :=
  broadcastInDim S2 ![] bcast_S_S2 (val_main_cst_16 (F := F))

def val_main_v52 (x0 x1 : (⟨S32x8x256x256, .f32⟩ : BufTy).Contents (Elt F)) : (⟨S2, .f32⟩ : BufTy).Contents (Elt F) :=
  Host.divf (val_main_v50 (F := F) x0 x1) (val_main_v51 (F := F))

def val_main_cst_17 : (⟨S_, .f32⟩ : BufTy).Contents (Elt F) :=
  constant S_ .f32 0x3F333333#32

def val_main_v53 : (⟨S2, .f32⟩ : BufTy).Contents (Elt F) :=
  broadcastInDim S2 ![] bcast_S_S2 (val_main_cst_17 (F := F))

def val_main_v54 (x0 x1 : (⟨S32x8x256x256, .f32⟩ : BufTy).Contents (Elt F)) : (⟨S2, .f32⟩ : BufTy).Contents (Elt F) :=
  mulf (val_main_v53 (F := F)) (val_main_v25 (F := F) x0 x1)

def val_main_cst_18 : (⟨S_, .f32⟩ : BufTy).Contents (Elt F) :=
  constant S_ .f32 0x3E99999A#32

def val_main_v55 : (⟨S2, .f32⟩ : BufTy).Contents (Elt F) :=
  broadcastInDim S2 ![] bcast_S_S2 (val_main_cst_18 (F := F))

def val_main_v56 (x0 x1 : (⟨S32x8x256x256, .f32⟩ : BufTy).Contents (Elt F)) : (⟨S2, .f32⟩ : BufTy).Contents (Elt F) :=
  mulf (val_main_v55 (F := F)) (val_main_v52 (F := F) x0 x1)

def val_main_v57 (x0 x1 : (⟨S32x8x256x256, .f32⟩ : BufTy).Contents (Elt F)) : (⟨S2, .f32⟩ : BufTy).Contents (Elt F) :=
  addf (val_main_v54 (F := F) x0 x1) (val_main_v56 (F := F) x0 x1)

def val_main_cst_19 : (⟨S_, .f32⟩ : BufTy).Contents (Elt F) :=
  constant S_ .f32 0x00000000#32

def val_main_v58 (x0 x1 : (⟨S32x8x256x256, .f32⟩ : BufTy).Contents (Elt F)) : (⟨S_, .f32⟩ : BufTy).Contents (Elt F) :=
  Host.reduceAdd (val_main_v57 (F := F) x0 x1) (val_main_cst_19 (F := F)) reducesTo_S2_S_d0 h_S_

def val_main_cst_20 : (⟨S_, .f32⟩ : BufTy).Contents (Elt F) :=
  constant S_ .f32 0x40000000#32

def val_main_v59 (x0 x1 : (⟨S32x8x256x256, .f32⟩ : BufTy).Contents (Elt F)) : (⟨S_, .f32⟩ : BufTy).Contents (Elt F) :=
  Host.divf (val_main_v58 (F := F) x0 x1) (val_main_cst_20 (F := F))

end Cert.ReferenceIdeal.RefValue

end
-- ==== Proof.RefRun.lean ====
/-
  The reference program's run. Its body is a straight line of 89 host operations, so every weakly fair execution
  terminates and each buffer ends at the fold of the operations over the launch contents; read at the result
  buffer that fold is the last stage `val_main_v59` of the two argument arrays, and the arguments are unchanged.
-/
import proofs.«148723_j17265768529972_2_alg».proof.Proof.RefStages
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's 89 operations, in order; a called function's operations stand at its call, over the call's buffers. -/
abbrev ops : List (HloOp τ sig (Elt F)) :=
  [ reshape main_arg0 main_v0 rfl shapeCasts_S32x8x256x256_S32x2x4x256x256,
    reshape main_arg1 main_v1 rfl shapeCasts_S32x8x256x256_S32x2x4x256x256,
    unary main_v0 main_v2 ((extractStridedSlice S32x2x1x256x256 ![0, 0, 3, 0, 0] · slices_S32x2x4x256x256_S32x2x1x256x256_0_0_3_0_0) : (⟨S32x2x4x256x256, .f32⟩ : BufTy).Contents (Elt F) → (⟨S32x2x1x256x256, .f32⟩ : BufTy).Contents (Elt F)),
    reshape main_v2 main_v3 rfl shapeCasts_S32x2x1x256x256_S32x2x256x256,
    unary main_v3 main_v4 (Host.negf : (⟨S32x2x256x256, .f32⟩ : BufTy).Contents (Elt F) → (⟨S32x2x256x256, .f32⟩ : BufTy).Contents (Elt F)),
    unary main_v4 main_v5 (Host.exp : (⟨S32x2x256x256, .f32⟩ : BufTy).Contents (Elt F) → (⟨S32x2x256x256, .f32⟩ : BufTy).Contents (Elt F)),
    nullary main_cst (constant S_ .f32 0x3F800000#32),
    unary main_cst main_v6 (broadcastInDim S32x2x256x256 ![] bcast_S_S32x2x256x256 : (⟨S_, .f32⟩ : BufTy).Contents (Elt F) → (⟨S32x2x256x256, .f32⟩ : BufTy).Contents (Elt F)),
    binary main_v6 main_v5 main_v7 (addf : (⟨S32x2x256x256, .f32⟩ : BufTy).Contents (Elt F) → (⟨S32x2x256x256, .f32⟩ : BufTy).Contents (Elt F) → (⟨S32x2x256x256, .f32⟩ : BufTy).Contents (Elt F)),
    nullary main_cst_0 (constant S_ .f32 0x3F800000#32),
    unary main_cst_0 main_v8 (broadcastInDim S32x2x256x256 ![] bcast_S_S32x2x256x256 : (⟨S_, .f32⟩ : BufTy).Contents (Elt F) → (⟨S32x2x256x256, .f32⟩ : BufTy).Contents (Elt F)),
    binary main_v8 main_v7 main_v9 (Host.divf : (⟨S32x2x256x256, .f32⟩ : BufTy).Contents (Elt F) → (⟨S32x2x256x256, .f32⟩ : BufTy).Contents (Elt F) → (⟨S32x2x256x256, .f32⟩ : BufTy).Contents (Elt F)),
    unary main_v1 main_v10 ((extractStridedSlice S32x2x1x256x256 ![0, 0, 3, 0, 0] · slices_S32x2x4x256x256_S32x2x1x256x256_0_0_3_0_0) : (⟨S32x2x4x256x256, .f32⟩ : BufTy).Contents (Elt F) → (⟨S32x2x1x256x256, .f32⟩ : BufTy).Contents (Elt F)),
    reshape main_v10 main_v11 rfl shapeCasts_S32x2x1x256x256_S32x2x256x256,
    unary main_v9 main_v12 (Host.log : (⟨S32x2x256x256, .f32⟩ : BufTy).Contents (Elt F) → (⟨S32x2x256x256, .f32⟩ : BufTy).Contents (Elt F)),
    nullary main_cst_1 (constant S_ .f32 0xC2C80000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S32x2x256x256, .f32⟩) main_call0_v1) (broadcastInDim S32x2x256x256 ![] bcast_S_S32x2x256x256),
    TRef.binary (TRef.of (T := ⟨S32x2x256x256, .f32⟩) main_call0_v1) (TRef.of (T := ⟨S32x2x256x256, .f32⟩) main_v12) (TRef.of (T := ⟨S32x2x256x256, .f32⟩) main_v13) maximumf,
    unary main_v9 main_v14 (Host.negf : (⟨S32x2x256x256, .f32⟩ : BufTy).Contents (Elt F) → (⟨S32x2x256x256, .f32⟩ : BufTy).Contents (Elt F)),
    unary main_v14 main_v15 (Host.log1p : (⟨S32x2x256x256, .f32⟩ : BufTy).Contents (Elt F) → (⟨S32x2x256x256, .f32⟩ : BufTy).Contents (Elt F)),
    nullary main_cst_2 (constant S_ .f32 0xC2C80000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S32x2x256x256, .f32⟩) main_call1_v1) (broadcastInDim S32x2x256x256 ![] bcast_S_S32x2x256x256),
    TRef.binary (TRef.of (T := ⟨S32x2x256x256, .f32⟩) main_call1_v1) (TRef.of (T := ⟨S32x2x256x256, .f32⟩) main_v15) (TRef.of (T := ⟨S32x2x256x256, .f32⟩) main_v16) maximumf,
    binary main_v11 main_v13 main_v17 (mulf : (⟨S32x2x256x256, .f32⟩ : BufTy).Contents (Elt F) → (⟨S32x2x256x256, .f32⟩ : BufTy).Contents (Elt F) → (⟨S32x2x256x256, .f32⟩ : BufTy).Contents (Elt F)),
    nullary main_cst_3 (constant S_ .f32 0x3F800000#32),
    unary main_cst_3 main_v18 (broadcastInDim S32x2x256x256 ![] bcast_S_S32x2x256x256 : (⟨S_, .f32⟩ : BufTy).Contents (Elt F) → (⟨S32x2x256x256, .f32⟩ : BufTy).Contents (Elt F)),
    binary main_v18 main_v11 main_v19 (subf : (⟨S32x2x256x256, .f32⟩ : BufTy).Contents (Elt F) → (⟨S32x2x256x256, .f32⟩ : BufTy).Contents (Elt F) → (⟨S32x2x256x256, .f32⟩ : BufTy).Contents (Elt F)),
    binary main_v19 main_v16 main_v20 (mulf : (⟨S32x2x256x256, .f32⟩ : BufTy).Contents (Elt F) → (⟨S32x2x256x256, .f32⟩ : BufTy).Contents (Elt F) → (⟨S32x2x256x256, .f32⟩ : BufTy).Contents (Elt F)),
    binary main_v17 main_v20 main_v21 (addf : (⟨S32x2x256x256, .f32⟩ : BufTy).Contents (Elt F) → (⟨S32x2x256x256, .f32⟩ : BufTy).Contents (Elt F) → (⟨S32x2x256x256, .f32⟩ : BufTy).Contents (Elt F)),
    nullary main_cst_4 (constant S_ .f32 0x00000000#32),
    binary main_v21 main_cst_4 main_v22 ((fun x v => Host.reduceAdd x v reducesTo_S32x2x256x256_S2_d0_2_3 h_S_) : (⟨S32x2x256x256, .f32⟩ : BufTy).Contents (Elt F) → (⟨S_, .f32⟩ : BufTy).Contents (Elt F) → (⟨S2, .f32⟩ : BufTy).Contents (Elt F)),
    nullary main_cst_5 (constant S_ .f32 0x4A000000#32),
    unary main_cst_5 main_v23 (broadcastInDim S2 ![] bcast_S_S2 : (⟨S_, .f32⟩ : BufTy).Contents (Elt F) → (⟨S2, .f32⟩ : BufTy).Contents (Elt F)),
    binary main_v22 main_v23 main_v24 (Host.divf : (⟨S2, .f32⟩ : BufTy).Contents (Elt F) → (⟨S2, .f32⟩ : BufTy).Contents (Elt F) → (⟨S2, .f32⟩ : BufTy).Contents (Elt F)),
    unary main_v24 main_v25 (Host.negf : (⟨S2, .f32⟩ : BufTy).Contents (Elt F) → (⟨S2, .f32⟩ : BufTy).Contents (Elt F)),
    unary main_v0 main_v26 ((extractStridedSlice S32x2x3x256x256 ![0, 0, 0, 0, 0] · slices_S32x2x4x256x256_S32x2x3x256x256_0_0_0_0_0) : (⟨S32x2x4x256x256, .f32⟩ : BufTy).Contents (Elt F) → (⟨S32x2x3x256x256, .f32⟩ : BufTy).Contents (Elt F)),
    unary main_v1 main_v27 ((extractStridedSlice S32x2x3x256x256 ![0, 0, 0, 0, 0] · slices_S32x2x4x256x256_S32x2x3x256x256_0_0_0_0_0) : (⟨S32x2x4x256x256, .f32⟩ : BufTy).Contents (Elt F) → (⟨S32x2x3x256x256, .f32⟩ : BufTy).Contents (Elt F)),
    binary main_v26 main_v27 main_v28 (subf : (⟨S32x2x3x256x256, .f32⟩ : BufTy).Contents (Elt F) → (⟨S32x2x3x256x256, .f32⟩ : BufTy).Contents (Elt F) → (⟨S32x2x3x256x256, .f32⟩ : BufTy).Contents (Elt F)),
    binary main_v28 main_v28 main_v29 (mulf : (⟨S32x2x3x256x256, .f32⟩ : BufTy).Contents (Elt F) → (⟨S32x2x3x256x256, .f32⟩ : BufTy).Contents (Elt F) → (⟨S32x2x3x256x256, .f32⟩ : BufTy).Contents (Elt F)),
    nullary main_cst_6 (constant S_ .f32 0x00000000#32),
    binary main_v29 main_cst_6 main_v30 ((fun x v => Host.reduceAdd x v reducesTo_S32x2x3x256x256_S32x2x256x256_d2 h_S_) : (⟨S32x2x3x256x256, .f32⟩ : BufTy).Contents (Elt F) → (⟨S_, .f32⟩ : BufTy).Contents (Elt F) → (⟨S32x2x256x256, .f32⟩ : BufTy).Contents (Elt F)),
    unary main_v30 main_v31 (Host.sqrt : (⟨S32x2x256x256, .f32⟩ : BufTy).Contents (Elt F) → (⟨S32x2x256x256, .f32⟩ : BufTy).Contents (Elt F)),
    nullary main_cst_7 (constant S_ .f32 0x3F333333#32),
    unary main_cst_7 main_v32 (broadcastInDim S32x2x256x256 ![] bcast_S_S32x2x256x256 : (⟨S_, .f32⟩ : BufTy).Contents (Elt F) → (⟨S32x2x256x256, .f32⟩ : BufTy).Contents (Elt F)),
    binary main_v9 main_v32 main_v33 (cmpf .ogt : (⟨S32x2x256x256, .f32⟩ : BufTy).Contents (Elt F) → (⟨S32x2x256x256, .f32⟩ : BufTy).Contents (Elt F) → (⟨S32x2x256x256, .i1⟩ : BufTy).Contents (Elt F)),
    nullary main_cst_8 (constant S_ .f32 0x00000000#32),
    TRef.unary (TRef.of (T := ⟨S_, .f32⟩) main_cst_8) (TRef.of (T := ⟨S_, .f32⟩) main_call2_v0) id,
    TRef.unary (TRef.of (T := ⟨S_, .f32⟩) main_call2_v0) (TRef.of (T := ⟨S32x2x256x256, .f32⟩) main_call2_v1) (broadcastInDim S32x2x256x256 ![] bcast_S_S32x2x256x256),
    TRef.ternary (TRef.of (T := ⟨S32x2x256x256, .i1⟩) main_v33) (TRef.of (T := ⟨S32x2x256x256, .f32⟩) main_v31) (TRef.of (T := ⟨S32x2x256x256, .f32⟩) main_call2_v1) (TRef.of (T := ⟨S32x2x256x256, .f32⟩) main_v34) select,
    nullary main_cst_9 (constant S_ .f32 0x00000000#32),
    unary main_cst_9 main_v35 (broadcastInDim S32x2x256x256 ![] bcast_S_S32x2x256x256 : (⟨S_, .f32⟩ : BufTy).Contents (Elt F) → (⟨S32x2x256x256, .f32⟩ : BufTy).Contents (Elt F)),
    binary main_v34 main_v35 main_v36 (cmpf .une : (⟨S32x2x256x256, .f32⟩ : BufTy).Contents (Elt F) → (⟨S32x2x256x256, .f32⟩ : BufTy).Contents (Elt F) → (⟨S32x2x256x256, .i1⟩ : BufTy).Contents (Elt F)),
    unary main_v36 main_v37 ((extui 32 · natLt_1_32) : (⟨S32x2x256x256, .i1⟩ : BufTy).Contents (Elt F) → (⟨S32x2x256x256, .i32⟩ : BufTy).Contents (Elt F)),
    nullary main_c (constantI S_ 32 0#32),
    binary main_v37 main_c main_v38 ((fun x v => Host.reduce IntOp.addi x v reducesTo_S32x2x256x256_S32x2_d2_3 h_S_) : (⟨S32x2x256x256, .i32⟩ : BufTy).Contents (Elt F) → (⟨S_, .i32⟩ : BufTy).Contents (Elt F) → (⟨S32x2, .i32⟩ : BufTy).Contents (Elt F)),
    unary main_v38 main_v39 (sitofp .f32 : (⟨S32x2, .i32⟩ : BufTy).Contents (Elt F) → (⟨S32x2, .f32⟩ : BufTy).Contents (Elt F)),
    nullary main_cst_10 (constant S_ .f32 0x00000000#32),
    binary main_v34 main_cst_10 main_v40 ((fun x v => Host.reduceAdd x v reducesTo_S32x2x256x256_S32x2_d2_3 h_S_) : (⟨S32x2x256x256, .f32⟩ : BufTy).Contents (Elt F) → (⟨S_, .f32⟩ : BufTy).Contents (Elt F) → (⟨S32x2, .f32⟩ : BufTy).Contents (Elt F)),
    nullary main_cst_11 (constant S_ .f32 0x00000000#32),
    binary main_v31 main_cst_11 main_v41 ((fun x v => Host.reduceAdd x v reducesTo_S32x2x256x256_S32x2_d2_3 h_S_) : (⟨S32x2x256x256, .f32⟩ : BufTy).Contents (Elt F) → (⟨S_, .f32⟩ : BufTy).Contents (Elt F) → (⟨S32x2, .f32⟩ : BufTy).Contents (Elt F)),
    nullary main_cst_12 (constant S_ .f32 0x47800000#32),
    unary main_cst_12 main_v42 (broadcastInDim S32x2 ![] bcast_S_S32x2 : (⟨S_, .f32⟩ : BufTy).Contents (Elt F) → (⟨S32x2, .f32⟩ : BufTy).Contents (Elt F)),
    binary main_v41 main_v42 main_v43 (Host.divf : (⟨S32x2, .f32⟩ : BufTy).Contents (Elt F) → (⟨S32x2, .f32⟩ : BufTy).Contents (Elt F) → (⟨S32x2, .f32⟩ : BufTy).Contents (Elt F)),
    nullary main_cst_13 (constant S_ .f32 0x00000000#32),
    unary main_cst_13 main_v44 (broadcastInDim S32x2 ![] bcast_S_S32x2 : (⟨S_, .f32⟩ : BufTy).Contents (Elt F) → (⟨S32x2, .f32⟩ : BufTy).Contents (Elt F)),
    binary main_v39 main_v44 main_v45 (cmpf .ogt : (⟨S32x2, .f32⟩ : BufTy).Contents (Elt F) → (⟨S32x2, .f32⟩ : BufTy).Contents (Elt F) → (⟨S32x2, .i1⟩ : BufTy).Contents (Elt F)),
    nullary main_cst_14 (constant S_ .f32 0x3F800000#32),
    unary main_cst_14 main_v46 (broadcastInDim S32x2 ![] bcast_S_S32x2 : (⟨S_, .f32⟩ : BufTy).Contents (Elt F) → (⟨S32x2, .f32⟩ : BufTy).Contents (Elt F)),
    binary main_v39 main_v46 main_v47 (maximumf : (⟨S32x2, .f32⟩ : BufTy).Contents (Elt F) → (⟨S32x2, .f32⟩ : BufTy).Contents (Elt F) → (⟨S32x2, .f32⟩ : BufTy).Contents (Elt F)),
    binary main_v40 main_v47 main_v48 (Host.divf : (⟨S32x2, .f32⟩ : BufTy).Contents (Elt F) → (⟨S32x2, .f32⟩ : BufTy).Contents (Elt F) → (⟨S32x2, .f32⟩ : BufTy).Contents (Elt F)),
    TRef.ternary (TRef.of (T := ⟨S32x2, .i1⟩) main_v45) (TRef.of (T := ⟨S32x2, .f32⟩) main_v48) (TRef.of (T := ⟨S32x2, .f32⟩) main_v43) (TRef.of (T := ⟨S32x2, .f32⟩) main_v49) select,
    nullary main_cst_15 (constant S_ .f32 0x00000000#32),
    binary main_v49 main_cst_15 main_v50 ((fun x v => Host.reduceAdd x v reducesTo_S32x2_S2_d0 h_S_) : (⟨S32x2, .f32⟩ : BufTy).Contents (Elt F) → (⟨S_, .f32⟩ : BufTy).Contents (Elt F) → (⟨S2, .f32⟩ : BufTy).Contents (Elt F)),
    nullary main_cst_16 (constant S_ .f32 0x42000000#32),
    unary main_cst_16 main_v51 (broadcastInDim S2 ![] bcast_S_S2 : (⟨S_, .f32⟩ : BufTy).Contents (Elt F) → (⟨S2, .f32⟩ : BufTy).Contents (Elt F)),
    binary main_v50 main_v51 main_v52 (Host.divf : (⟨S2, .f32⟩ : BufTy).Contents (Elt F) → (⟨S2, .f32⟩ : BufTy).Contents (Elt F) → (⟨S2, .f32⟩ : BufTy).Contents (Elt F)),
    nullary main_cst_17 (constant S_ .f32 0x3F333333#32),
    unary main_cst_17 main_v53 (broadcastInDim S2 ![] bcast_S_S2 : (⟨S_, .f32⟩ : BufTy).Contents (Elt F) → (⟨S2, .f32⟩ : BufTy).Contents (Elt F)),
    binary main_v53 main_v25 main_v54 (mulf : (⟨S2, .f32⟩ : BufTy).Contents (Elt F) → (⟨S2, .f32⟩ : BufTy).Contents (Elt F) → (⟨S2, .f32⟩ : BufTy).Contents (Elt F)),
    nullary main_cst_18 (constant S_ .f32 0x3E99999A#32),
    unary main_cst_18 main_v55 (broadcastInDim S2 ![] bcast_S_S2 : (⟨S_, .f32⟩ : BufTy).Contents (Elt F) → (⟨S2, .f32⟩ : BufTy).Contents (Elt F)),
    binary main_v55 main_v52 main_v56 (mulf : (⟨S2, .f32⟩ : BufTy).Contents (Elt F) → (⟨S2, .f32⟩ : BufTy).Contents (Elt F) → (⟨S2, .f32⟩ : BufTy).Contents (Elt F)),
    binary main_v54 main_v56 main_v57 (addf : (⟨S2, .f32⟩ : BufTy).Contents (Elt F) → (⟨S2, .f32⟩ : BufTy).Contents (Elt F) → (⟨S2, .f32⟩ : BufTy).Contents (Elt F)),
    nullary main_cst_19 (constant S_ .f32 0x00000000#32),
    binary main_v57 main_cst_19 main_v58 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_20 (constant S_ .f32 0x40000000#32),
    binary main_v58 main_cst_20 main_v59 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., reshape_bufs_sub .., unary_bufs_sub .., reshape_bufs_sub .., unary_bufs_sub .., unary_bufs_sub .., nullary_bufs_sub .., unary_bufs_sub .., binary_bufs_sub .., nullary_bufs_sub .., unary_bufs_sub .., binary_bufs_sub .., unary_bufs_sub .., reshape_bufs_sub .., unary_bufs_sub .., nullary_bufs_sub .., unary_bufs_sub .., unary_bufs_sub .., binary_bufs_sub .., unary_bufs_sub .., unary_bufs_sub .., nullary_bufs_sub .., unary_bufs_sub .., unary_bufs_sub .., binary_bufs_sub .., binary_bufs_sub .., nullary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., binary_bufs_sub .., unary_bufs_sub .., nullary_bufs_sub .., binary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., ternary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., binary_bufs_sub .., nullary_bufs_sub .., binary_bufs_sub ..⟩

set_option maxRecDepth 8192 in
set_option maxHeartbeats 35600000 in
/-- On every device, for any float values, from any memory with zero counters: every weakly fair execution of
    the program terminates with the result buffer at the last stage of the two argument arrays and the arguments
    unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59)
          = val_main_v59 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v59).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefValue

end
-- ==== Proof.RefPixel.lean ====
/-
  The reference's per-pixel stages read at an index (b, g, h, w), at the ideal values.

  The [32, 8, 256, 256] arrays are viewed as [32, 2, 4, 256, 256]: entry (b, g, k, h, w) of the view is entry
  (b, 4g + k, h, w) of the array (both have the same row-major position). Slicing channel 3 of each group and
  dropping the unit axis gives the mask channel 4g + 3; slicing channels 0, 1, 2 gives the image channels 4g + k.
  Then, pixel by pixel: 1 / (1 + exp(-o)) is the logistic function of the mask logit o; the clipped logarithms and
  the two products are the cross-entropy term; the sum over the three image channels of the squared differences,
  under the square root, is the norm; the select keeps the norm where the probability exceeds the threshold; and
  the word of "kept norm ≠ 0", widened to 32 bits, is the indicator.
-/
import proofs.«148723_j17265768529972_2_alg».proof.Proof.RefStages
import proofs.«148723_j17265768529972_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-- An argument array at the ideal values. -/
abbrev IArr : Type := (⟨S32x8x256x256, .f32⟩ : BufTy).Contents (Elt Ideal)

/-- The word 0x3F800000 is the real number 1. -/
theorem ofBits_one : Ideal.ofBits .f32 0x3F800000#32 = 1 := IdealRules.sign_bit.ideal_onePat .f32

/-! ### The layout: channel 4g + k of group g -/

/-- Entry (b, g, k, h, w) of the five-axis view is entry (b, 4g + k, h, w) of the array. -/
theorem v0_at (x : IArr) (b : Fin 32) (g : Fin 2) (k : Fin 4) (h w : Fin 256) :
    val_main_v0 (F := Ideal) x (ix5 b g k h w) = x (ix4 b (⟨4 * g.val + k.val, by omega⟩ : Fin 8) h w) := by
  unfold val_main_v0
  refine shapeCast_apply x _ _ _ ?_
  rewrite [Shape.rowMajor_val_four, Shape.rowMajor_val_five]
  show ((b.val * 8 + (4 * g.val + k.val)) * 256 + h.val) * 256 + w.val
    = (((b.val * 2 + g.val) * 4 + k.val) * 256 + h.val) * 256 + w.val
  omega

theorem v1_at (x : IArr) (b : Fin 32) (g : Fin 2) (k : Fin 4) (h w : Fin 256) :
    val_main_v1 (F := Ideal) x (ix5 b g k h w) = x (ix4 b (⟨4 * g.val + k.val, by omega⟩ : Fin 8) h w) :=
  v0_at x b g k h w

/-- The mask channel of the output: entry (b, g, h, w) is entry (b, 4g + 3, h, w) of the array. -/
theorem v3_at (x : IArr) (b : Fin 32) (g : Fin 2) (h w : Fin 256) :
    val_main_v3 (F := Ideal) x (ix4 b g h w) = x (ix4 b (Spec.chM g) h w) := by
  unfold val_main_v3
  refine (shapeCast_apply (val_main_v2 (F := Ideal) x) _ (ix4 b g h w) (ix5 b g (0 : Fin 1) h w) ?_).trans ?_
  · rewrite [Shape.rowMajor_val_five, Shape.rowMajor_val_four]
    show (((b.val * 2 + g.val) * 1 + 0) * 256 + h.val) * 256 + w.val = ((b.val * 2 + g.val) * 256 + h.val) * 256 + w.val
    omega
  · unfold val_main_v2
    refine (extractStridedSlice_apply _ (val_main_v0 (F := Ideal) x) _ (ix5 b g (0 : Fin 1) h w) (ix5 b g (3 : Fin 4) h w)
      (fun a => ?_)).trans (v0_at x b g 3 h w)
    match a with
    | ⟨0, _⟩ => exact (Nat.zero_add _).symm
    | ⟨1, _⟩ => exact (Nat.zero_add _).symm
    | ⟨2, _⟩ => rfl
    | ⟨3, _⟩ => exact (Nat.zero_add _).symm
    | ⟨4, _⟩ => exact (Nat.zero_add _).symm

/-- The mask channel of the target. -/
theorem v11_at (x : IArr) (b : Fin 32) (g : Fin 2) (h w : Fin 256) :
    val_main_v11 (F := Ideal) x (ix4 b g h w) = x (ix4 b (Spec.chM g) h w) :=
  v3_at x b g h w

/-- The image channels of the output: entry (b, g, k, h, w), k < 3, is entry (b, 4g + k, h, w) of the array. -/
theorem v26_at (x : IArr) (b : Fin 32) (g : Fin 2) (k : Fin 3) (h w : Fin 256) :
    val_main_v26 (F := Ideal) x (ix5 b g k h w) = x (ix4 b (Spec.chI g k) h w) := by
  unfold val_main_v26
  refine (extractStridedSlice_apply _ (val_main_v0 (F := Ideal) x) _ (ix5 b g k h w) (ix5 b g (⟨k.val, by omega⟩ : Fin 4) h w)
    (fun a => ?_)).trans (v0_at x b g ⟨k.val, by omega⟩ h w)
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm
  | ⟨4, _⟩ => exact (Nat.zero_add _).symm

/-- The image channels of the target. -/
theorem v27_at (x : IArr) (b : Fin 32) (g : Fin 2) (k : Fin 3) (h w : Fin 256) :
    val_main_v27 (F := Ideal) x (ix5 b g k h w) = x (ix4 b (Spec.chI g k) h w) :=
  v26_at x b g k h w

end Cert.ReferenceIdeal.RefValue

end
-- ==== Proof.RefPoint.lean ====
/-
  The reference's per-pixel values at the ideal values, in the specification's words.

  At every index i of the [32, 2, 256, 256] pixel grid, with o the mask logit, t the mask target and x, y the three
  image channels of the two arrays there:
    1 / (1 + exp(-o)) is the logistic function of o (the word 0x3F800000 is 1);
    t · max(-100, log p) + (1 - t) · max(-100, log(1 + (-p))) is the cross-entropy term (max commutes);
    the host's sum over the channel axis from the zero word is the sum over k < 3, and its square root the norm;
    the select on "p > threshold" keeps the norm or the zero word, which is 0;
    "kept ≠ 0" (unordered-or-not-equal, which on the extended reals is not-equal) widened to 32 bits is the indicator word.
-/
import proofs.«148723_j17265768529972_2_alg».proof.Proof.RefPixel

noncomputable section

namespace Cert.ReferenceIdeal.RefValue

open Cert.ReferenceIdeal Cert.ReferenceIdeal.Gen Idealize.ShloMosaic Idealize.ShloMosaic.ValueIdx

/-- The probability stage is the logistic function of the mask-logit stage, pixel by pixel. -/
theorem v9_eq (x0 : IArr) (i : S32x2x256x256.Idx) :
    val_main_v9 (F := Ideal) x0 i = Spec.probAt (val_main_v3 (F := Ideal) x0 i) := by
  show Ideal.div (Ideal.ofBits .f32 0x3F800000#32)
      (Ideal.ofBits .f32 0x3F800000#32 + Ideal.exp (-(val_main_v3 (F := Ideal) x0 i))) = _
  rw [ofBits_one]
  rfl

/-- The cross-entropy stage, pixel by pixel. -/
theorem v21_eq (x0 x1 : IArr) (i : S32x2x256x256.Idx) :
    val_main_v21 (F := Ideal) x0 x1 i
      = Spec.bceAt (val_main_v3 (F := Ideal) x0 i) (val_main_v11 (F := Ideal) x1 i) := by
  show val_main_v11 (F := Ideal) x1 i * max Spec.wNegHundred (Ideal.log (val_main_v9 (F := Ideal) x0 i))
      + (Spec.wOne - val_main_v11 (F := Ideal) x1 i)
          * max Spec.wNegHundred (Ideal.log1p (-(val_main_v9 (F := Ideal) x0 i))) = _
  rw [v9_eq, max_comm Spec.wNegHundred, max_comm Spec.wNegHundred]
  rfl

/-- The channel sum: from the zero word, over the three image channels of the squared differences. -/
theorem v30_at (x0 x1 : IArr) (b : Fin 32) (g : Fin 2) (h w : Fin 256) :
    val_main_v30 (F := Ideal) x0 x1 (ix4 b g h w)
      = ∑ k : Fin 3, val_main_v29 (F := Ideal) x0 x1 (ix5 b g k h w) := by
  unfold val_main_v30
  generalize val_main_v29 (F := Ideal) x0 x1 = y0
  simp only [Host.reduceAdd, Ideal.hostReduceAdd_def]
  rw [Ideal.hostReduceAdd_single reducesTo_S32x2x3x256x256_S32x2x256x256_d2 (by decide)]
  refine (congrArg (· + _)
    (show val_main_cst_6 (F := Ideal) (Shape.Idx.first h_S_) = 0 from Ideal.ofBits_zero_f32)).trans ?_
  rw [zero_add]
  refine Finset.sum_congr rfl fun k _ => ?_
  exact congrArg y0 (funext fun a => Fin.ext (by
    match a with | ⟨0, _⟩ => rfl | ⟨1, _⟩ => rfl | ⟨2, _⟩ => rfl | ⟨3, _⟩ => rfl | ⟨4, _⟩ => rfl))

/-- The norm stage at (b, g, h, w) is the specification's norm. -/
theorem v31_at (x0 x1 : IArr) (b : Fin 32) (g : Fin 2) (h w : Fin 256) :
    val_main_v31 (F := Ideal) x0 x1 (ix4 b g h w) = Spec.dnorm x0 x1 b g h w := by
  show Ideal.sqrt (val_main_v30 (F := Ideal) x0 x1 (ix4 b g h w)) = _
  rw [v30_at]
  unfold Spec.dnorm Spec.dnormAt Spec.img
  refine congrArg Ideal.sqrt (Finset.sum_congr rfl fun k _ => ?_)
  show (val_main_v26 (F := Ideal) x0 (ix5 b g k h w) - val_main_v27 (F := Ideal) x1 (ix5 b g k h w))
      * (val_main_v26 (F := Ideal) x0 (ix5 b g k h w) - val_main_v27 (F := Ideal) x1 (ix5 b g k h w)) = _
  rw [v26_at, v27_at]

/-- The cross-entropy stage at (b, g, h, w) is the specification's. -/
theorem v21_at (x0 x1 : IArr) (b : Fin 32) (g : Fin 2) (h w : Fin 256) :
    val_main_v21 (F := Ideal) x0 x1 (ix4 b g h w) = Spec.bce x0 x1 b g h w := by
  rw [v21_eq, v3_at, v11_at]
  rfl

/-- The kept-norm stage at (b, g, h, w) is the specification's. -/
theorem v34_at (x0 x1 : IArr) (b : Fin 32) (g : Fin 2) (h w : Fin 256) :
    val_main_v34 (F := Ideal) x0 x1 (ix4 b g h w) = Spec.masked x0 x1 b g h w := by
  show Scalar.select (Ideal.cmp .ogt (val_main_v9 (F := Ideal) x0 (ix4 b g h w)) Spec.wPt7)
      (val_main_v31 (F := Ideal) x0 x1 (ix4 b g h w)) (Ideal.ofBits .f32 0x00000000#32) = _
  rw [v9_eq, v3_at, v31_at, Ideal.ofBits_zero_f32]
  rfl

/-- The indicator word at (b, g, h, w): "kept norm ≠ 0" widened to 32 bits. -/
theorem v37_at (x0 x1 : IArr) (b : Fin 32) (g : Fin 2) (h w : Fin 256) :
    val_main_v37 (F := Ideal) x0 x1 (ix4 b g h w)
      = ((Ideal.cmp .one (Spec.masked x0 x1 b g h w) 0).setWidth 32 : BitVec 32) := by
  show ((Ideal.cmp .une (val_main_v34 (F := Ideal) x0 x1 (ix4 b g h w)) (Ideal.ofBits .f32 0x00000000#32)).setWidth 32
      : BitVec 32) = _
  rw [v34_at, Ideal.ofBits_zero_f32]
  rfl

end Cert.ReferenceIdeal.RefValue

end
-- ==== Proof.LibCoordSums.lean ====
/-
  Sums over index sets, by coordinates.

  * A sum over every index of an [n0, n1, n2] array is the triple sum over its coordinates.
  * The host's sum over axes 1 and 3 of an [a, b, c, d] array, at (i, k), is the initial value plus the double sum over
    (p, q) of the entries (i, p, k, q); its sum over axes 0, 2 and 4 of an [n, a, b, c, d] array, at (i, k), is the
    initial value plus the triple sum over (m, p, q) of the entries (m, i, p, k, q). (The library reads a sum over ONE
    axis, or into a result with one entry; a patch pooling sums over two or three axes into a grid.)
  * A triple sum over three finite types is the sum over their triples, in whichever order the three are summed.
  * An [n0, n1, n2] array read at a NATURAL-number first coordinate (0 past the end), so that a running sum over the
    first axis can be written over Finset.range and extended step by step; over the whole axis it is the sum over Fin n0.
-/
import Idealize.ShloMosaic.Lib.ValueIdx
import Idealize.ShloMosaic.PureOps.Ideal.Laws

noncomputable section

namespace Idealize.ShloMosaic.CoordSums

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The indices of an [a, b, c, d] array that drop to (i, k) when axes 1 and 3 are removed are the (i, p, k, q): a sum
    over them is the double sum over (p, q). -/
theorem sum_filter_drop_13 {M : Type*} [AddCommMonoid M] {a b c d : Nat}
    (h : (⟨4, ![a, b, c, d]⟩ : Shape).ReducesTo [1, 3] ⟨2, ![a, c]⟩) (x : (⟨4, ![a, b, c, d]⟩ : Shape).Idx → M)
    (i : Fin a) (k : Fin c) :
    ∑ y ∈ Finset.univ.filter (fun y => h.drop y = ix2 i k), x y = ∑ p : Fin b, ∑ q : Fin d, x (ix4 i p k q) := by
  have hdrop : ∀ (p : Fin b) (q : Fin d), h.drop (ix4 i p k q) = ix2 i k := fun p q =>
    funext fun e => match e with | ⟨0, _⟩ => rfl | ⟨1, _⟩ => rfl
  have hinv : ∀ y ∈ Finset.univ.filter (fun y => h.drop y = ix2 i k), ix4 i (y 1 : Fin b) k (y 3 : Fin d) = y := by
    intro y hy
    have hy' := (Finset.mem_filter.mp hy).2
    have h0 : (y 0 : Fin a) = i := congrFun hy' 0
    have h2 : (y 2 : Fin c) = k := congrFun hy' 1
    funext e
    match e with
    | ⟨0, _⟩ => exact h0.symm
    | ⟨1, _⟩ => rfl
    | ⟨2, _⟩ => exact h2.symm
    | ⟨3, _⟩ => rfl
  refine (Finset.sum_nbij' (t := (Finset.univ : Finset (Fin b × Fin d))) (g := fun pq => x (ix4 i pq.1 k pq.2))
    (fun y => ((y 1 : Fin b), (y 3 : Fin d))) (fun pq => ix4 i pq.1 k pq.2) (fun _ _ => Finset.mem_univ _)
    (fun pq _ => Finset.mem_filter.mpr ⟨Finset.mem_univ _, hdrop pq.1 pq.2⟩) hinv (fun _ _ => rfl)
    (fun y hy => congrArg x (hinv y hy).symm)).trans ?_
  exact Fintype.sum_prod_type' (fun p q => x (ix4 i p k q))

/-- The host's float sum over axes 1 and 3 of an [a, b, c, d] array, read at (i, k). -/
theorem hostReduceAdd_13_apply {a b c d : Nat} (h : (⟨4, ![a, b, c, d]⟩ : Shape).ReducesTo [1, 3] ⟨2, ![a, c]⟩)
    (x : (⟨4, ![a, b, c, d]⟩ : Shape).Idx → EReal) (init : EReal) (i : Fin a) (k : Fin c) :
    Ideal.hostReduceAdd h x init (ix2 i k) = init + ∑ p : Fin b, ∑ q : Fin d, x (ix4 i p k q) := by
  unfold Ideal.hostReduceAdd
  rw [sum_filter_drop_13]

/-- The indices of an [n, a, b, c, d] array that drop to (i, k) when axes 0, 2 and 4 are removed are the
    (m, i, p, k, q): a sum over them is the triple sum over (m, p, q). -/
theorem sum_filter_drop_024 {M : Type*} [AddCommMonoid M] {n a b c d : Nat}
    (h : (⟨5, ![n, a, b, c, d]⟩ : Shape).ReducesTo [0, 2, 4] ⟨2, ![a, c]⟩) (x : (⟨5, ![n, a, b, c, d]⟩ : Shape).Idx → M)
    (i : Fin a) (k : Fin c) :
    ∑ y ∈ Finset.univ.filter (fun y => h.drop y = ix2 i k), x y
      = ∑ m : Fin n, ∑ p : Fin b, ∑ q : Fin d, x (ix5 m i p k q) := by
  have hdrop : ∀ (m : Fin n) (p : Fin b) (q : Fin d), h.drop (ix5 m i p k q) = ix2 i k := fun m p q =>
    funext fun e => match e with | ⟨0, _⟩ => rfl | ⟨1, _⟩ => rfl
  have hinv : ∀ y ∈ Finset.univ.filter (fun y => h.drop y = ix2 i k),
      ix5 (y 0 : Fin n) i (y 2 : Fin b) k (y 4 : Fin d) = y := by
    intro y hy
    have hy' := (Finset.mem_filter.mp hy).2
    have h1 : (y 1 : Fin a) = i := congrFun hy' 0
    have h3 : (y 3 : Fin c) = k := congrFun hy' 1
    funext e
    match e with
    | ⟨0, _⟩ => rfl
    | ⟨1, _⟩ => exact h1.symm
    | ⟨2, _⟩ => rfl
    | ⟨3, _⟩ => exact h3.symm
    | ⟨4, _⟩ => rfl
  refine (Finset.sum_nbij' (t := (Finset.univ : Finset (Fin n × Fin b × Fin d)))
    (g := fun z => x (ix5 z.1 i z.2.1 k z.2.2))
    (fun y => ((y 0 : Fin n), (y 2 : Fin b), (y 4 : Fin d))) (fun z => ix5 z.1 i z.2.1 k z.2.2)
    (fun _ _ => Finset.mem_univ _)
    (fun z _ => Finset.mem_filter.mpr ⟨Finset.mem_univ _, hdrop z.1 z.2.1 z.2.2⟩) hinv (fun _ _ => rfl)
    (fun y hy => congrArg x (hinv y hy).symm)).trans ?_
  rw [Fintype.sum_prod_type]
  refine Finset.sum_congr rfl fun m _ => ?_
  rw [Fintype.sum_prod_type]

/-- The host's float sum over axes 0, 2 and 4 of an [n, a, b, c, d] array, read at (i, k). -/
theorem hostReduceAdd_024_apply {n a b c d : Nat} (h : (⟨5, ![n, a, b, c, d]⟩ : Shape).ReducesTo [0, 2, 4] ⟨2, ![a, c]⟩)
    (x : (⟨5, ![n, a, b, c, d]⟩ : Shape).Idx → EReal) (init : EReal) (i : Fin a) (k : Fin c) :
    Ideal.hostReduceAdd h x init (ix2 i k) = init + ∑ m : Fin n, ∑ p : Fin b, ∑ q : Fin d, x (ix5 m i p k q) := by
  unfold Ideal.hostReduceAdd
  rw [sum_filter_drop_024]

/-! ## Triple sums over a product -/

/-- A triple sum is the sum over the triples. -/
theorem sum_triple {M : Type*} [AddCommMonoid M] {α β γ : Type*} [Fintype α] [Fintype β] [Fintype γ] (f : α → β → γ → M) :
    ∑ a, ∑ b, ∑ c, f a b c = ∑ z : α × β × γ, f z.1 z.2.1 z.2.2 := by
  rw [Fintype.sum_prod_type]
  refine Finset.sum_congr rfl fun a _ => ?_
  rw [Fintype.sum_prod_type]

/-- The same with the first variable summed innermost: the order of a finite sum does not matter. -/
theorem sum_triple_rot {M : Type*} [AddCommMonoid M] {α β γ : Type*} [Fintype α] [Fintype β] [Fintype γ] (f : α → β → γ → M) :
    ∑ b, ∑ c, ∑ a, f a b c = ∑ z : α × β × γ, f z.1 z.2.1 z.2.2 := by
  rw [← sum_triple]
  exact (Finset.sum_congr rfl fun b _ => Finset.sum_comm).trans Finset.sum_comm

/-! ## The first axis by natural numbers -/

/-- Entry (n, h, w) of an [n0, n1, n2] array at a natural-number n: 0 past the end of the first axis. -/
def row {M : Type*} [Zero M] {n0 n1 n2 : Nat} (x : (⟨3, ![n0, n1, n2]⟩ : Shape).Idx → M) (n : Nat) (h : Fin n1) (w : Fin n2) : M :=
  if hn : n < n0 then x (ix3 ⟨n, hn⟩ h w) else 0

theorem row_of_lt {M : Type*} [Zero M] {n0 n1 n2 : Nat} (x : (⟨3, ![n0, n1, n2]⟩ : Shape).Idx → M) {n : Nat} (hn : n < n0)
    (h : Fin n1) (w : Fin n2) : row x n h w = x (ix3 ⟨n, hn⟩ h w) := dif_pos hn

/-- Over the whole first axis the natural-number reading sums to the sum over its coordinates. -/
theorem sum_range_row {M : Type*} [AddCommMonoid M] {n0 n1 n2 : Nat} (x : (⟨3, ![n0, n1, n2]⟩ : Shape).Idx → M)
    (h : Fin n1) (w : Fin n2) : ∑ r ∈ Finset.range n0, row x r h w = ∑ n : Fin n0, x (ix3 n h w) := by
  rw [Finset.sum_range]
  exact Finset.sum_congr rfl fun n _ => row_of_lt x n.isLt h w

end Idealize.ShloMosaic.CoordSums

end
-- ==== Proof.RefSums.lean ====
/-
  The host's sums over two or three axes of a rank-4 array, by coordinates.

  * The indices of an [a, b, c, d] array that drop to (i, k) when axes 2 and 3 are removed are the (i, k, p, q): a sum
    over them, in any commutative monoid, is the double sum over (p, q). Hence the host's float sum over axes 2 and 3,
    read at (i, k), is the initial value plus that double sum; and its wrapping integer sum over the same axes is the
    initial word plus the double sum of the words.
  * Likewise the indices that drop to (k) when axes 0, 2 and 3 are removed are the (m, k, p, q), and the host's float
    sum over those axes at (k) is the initial value plus the triple sum over (m, p, q).
-/
import proofs.«148723_j17265768529972_2_alg».proof.Proof.LibCoordSums
import Idealize.ShloMosaic.PureOps.Reduce
import Mathlib.Data.BitVec

noncomputable section

namespace Idealize.ShloMosaic.CoordSums

open Idealize.ShloMosaic Idealize.ShloMosaic.ValueIdx

/-- The indices of an [a, b, c, d] array that drop to (i, k) when axes 2 and 3 are removed are the (i, k, p, q): a sum
    over them is the double sum over (p, q). -/
theorem sum_filter_drop_23 {M : Type*} [AddCommMonoid M] {a b c d : Nat}
    (h : (⟨4, ![a, b, c, d]⟩ : Shape).ReducesTo [2, 3] ⟨2, ![a, b]⟩) (x : (⟨4, ![a, b, c, d]⟩ : Shape).Idx → M)
    (i : Fin a) (k : Fin b) :
    ∑ y ∈ Finset.univ.filter (fun y => h.drop y = ix2 i k), x y = ∑ p : Fin c, ∑ q : Fin d, x (ix4 i k p q) := by
  have hdrop : ∀ (p : Fin c) (q : Fin d), h.drop (ix4 i k p q) = ix2 i k := fun p q =>
    funext fun e => match e with | ⟨0, _⟩ => rfl | ⟨1, _⟩ => rfl
  have hinv : ∀ y ∈ Finset.univ.filter (fun y => h.drop y = ix2 i k), ix4 i k (y 2 : Fin c) (y 3 : Fin d) = y := by
    intro y hy
    have hy' := (Finset.mem_filter.mp hy).2
    have h0 : (y 0 : Fin a) = i := congrFun hy' 0
    have h1 : (y 1 : Fin b) = k := congrFun hy' 1
    funext e
    match e with
    | ⟨0, _⟩ => exact h0.symm
    | ⟨1, _⟩ => exact h1.symm
    | ⟨2, _⟩ => rfl
    | ⟨3, _⟩ => rfl
  refine (Finset.sum_nbij' (t := (Finset.univ : Finset (Fin c × Fin d))) (g := fun pq => x (ix4 i k pq.1 pq.2))
    (fun y => ((y 2 : Fin c), (y 3 : Fin d))) (fun pq => ix4 i k pq.1 pq.2) (fun _ _ => Finset.mem_univ _)
    (fun pq _ => Finset.mem_filter.mpr ⟨Finset.mem_univ _, hdrop pq.1 pq.2⟩) hinv (fun _ _ => rfl)
    (fun y hy => congrArg x (hinv y hy).symm)).trans ?_
  exact Fintype.sum_prod_type' (fun p q => x (ix4 i k p q))

/-- The host's float sum over axes 2 and 3 of an [a, b, c, d] array, read at (i, k). -/
theorem hostReduceAdd_23_apply {a b c d : Nat} (h : (⟨4, ![a, b, c, d]⟩ : Shape).ReducesTo [2, 3] ⟨2, ![a, b]⟩)
    (x : (⟨4, ![a, b, c, d]⟩ : Shape).Idx → EReal) (init : EReal) (i : Fin a) (k : Fin b) :
    Ideal.hostReduceAdd h x init (ix2 i k) = init + ∑ p : Fin c, ∑ q : Fin d, x (ix4 i k p q) := by
  unfold Ideal.hostReduceAdd
  rw [sum_filter_drop_23]

/-- The host's wrapping integer sum over axes 2 and 3 of an [a, b, c, d] array of words, read at (i, k): the initial
    word plus the double sum of the words (in the words' own arithmetic). -/
theorem hostReduce_addi_23_apply {w a b c d : Nat} {u : Shape} (h : (⟨4, ![a, b, c, d]⟩ : Shape).ReducesTo [2, 3] ⟨2, ![a, b]⟩)
    (hu : 0 < u.numel) (x : (⟨4, ![a, b, c, d]⟩ : Shape).Idx → BitVec w) (init : u.Idx → BitVec w) (i : Fin a) (k : Fin b) :
    Host.reduce IntOp.addi x init h hu (ix2 i k)
      = init (Shape.Idx.first hu) + ∑ p : Fin c, ∑ q : Fin d, x (ix4 i k p q) := by
  rw [Host.reduce_eq_fold, ← sum_filter_drop_23 h x i k]
  induction (Finset.univ.filter fun y => h.drop y = ix2 i k) using Finset.cons_induction with
  | empty => simp
  | cons y S hy ih =>
    rw [Finset.fold_cons, Finset.sum_cons, ih]
    show x y + _ = _
    rw [add_left_comm]

/-- The indices of an [a, b, c, d] array that drop to (k) when axes 0, 2 and 3 are removed are the (m, k, p, q): a sum
    over them is the triple sum over (m, p, q). -/
theorem sum_filter_drop_023 {M : Type*} [AddCommMonoid M] {a b c d : Nat}
    (h : (⟨4, ![a, b, c, d]⟩ : Shape).ReducesTo [0, 2, 3] ⟨1, ![b]⟩) (x : (⟨4, ![a, b, c, d]⟩ : Shape).Idx → M)
    (k : Fin b) :
    ∑ y ∈ Finset.univ.filter (fun y => h.drop y = ix1 k), x y
      = ∑ m : Fin a, ∑ p : Fin c, ∑ q : Fin d, x (ix4 m k p q) := by
  have hdrop : ∀ (m : Fin a) (p : Fin c) (q : Fin d), h.drop (ix4 m k p q) = ix1 k := fun m p q =>
    funext fun e => match e with | ⟨0, _⟩ => rfl
  have hinv : ∀ y ∈ Finset.univ.filter (fun y => h.drop y = ix1 k),
      ix4 (y 0 : Fin a) k (y 2 : Fin c) (y 3 : Fin d) = y := by
    intro y hy
    have hy' := (Finset.mem_filter.mp hy).2
    have h1 : (y 1 : Fin b) = k := congrFun hy' 0
    funext e
    match e with
    | ⟨0, _⟩ => rfl
    | ⟨1, _⟩ => exact h1.symm
    | ⟨2, _⟩ => rfl
    | ⟨3, _⟩ => rfl
  refine (Finset.sum_nbij' (t := (Finset.univ : Finset (Fin a × Fin c × Fin d)))
    (g := fun z => x (ix4 z.1 k z.2.1 z.2.2))
    (fun y => ((y 0 : Fin a), (y 2 : Fin c), (y 3 : Fin d))) (fun z => ix4 z.1 k z.2.1 z.2.2)
    (fun _ _ => Finset.mem_univ _)
    (fun z _ => Finset.mem_filter.mpr ⟨Finset.mem_univ _, hdrop z.1 z.2.1 z.2.2⟩) hinv (fun _ _ => rfl)
    (fun y hy => congrArg x (hinv y hy).symm)).trans ?_
  rw [Fintype.sum_prod_type]
  refine Finset.sum_congr rfl fun m _ => ?_
  rw [Fintype.sum_prod_type]

/-- The host's float sum over axes 0, 2 and 3 of an [a, b, c, d] array, read at (k). -/
theorem hostReduceAdd_023_apply {a b c d : Nat} (h : (⟨4, ![a, b, c, d]⟩ : Shape).ReducesTo [0, 2, 3] ⟨1, ![b]⟩)
    (x : (⟨4, ![a, b, c, d]⟩ : Shape).Idx → EReal) (init : EReal) (k : Fin b) :
    Ideal.hostReduceAdd h x init (ix1 k) = init + ∑ m : Fin a, ∑ p : Fin c, ∑ q : Fin d, x (ix4 m k p q) := by
  unfold Ideal.hostReduceAdd
  rw [sum_filter_drop_023]

end Idealize.ShloMosaic.CoordSums

end
-- ==== Proof.RefCount.lean ====
/-
  Counting by a wrapping sum of words.

  Each word is a one-bit word widened to 32 bits, so it is 0 or 1. A sum of fewer than 2^32 such words does not wrap:
  its unsigned value is the number of ones (by induction on the index set, each step adding 0 or 1 below the modulus).
  With fewer than 2^31 words the signed value is the unsigned one. Hence the signed value of the sum, as a real
  number, is the sum of the signed values of the words.
-/
import Idealize.ShloMosaic.PureOps.Ideal
import Mathlib.Data.BitVec

namespace Cert.ReferenceIdeal.RefValue

/-- The unsigned value of a sum of fewer than 2^32 zero-or-one words is the sum of their unsigned values (and at
    most their number). -/
theorem toNat_sum_words {ι : Type*} (b : ι → BitVec 1) (S : Finset ι) (hS : S.card < 2 ^ 32) :
    (∑ i ∈ S, ((b i).setWidth 32 : BitVec 32)).toNat = ∑ i ∈ S, (b i).toNat ∧ ∑ i ∈ S, (b i).toNat ≤ S.card := by
  classical
  induction S using Finset.induction_on with
  | empty => simp
  | insert a S ha ih =>
    have hc : S.card < 2 ^ 32 := by rw [Finset.card_insert_of_notMem ha] at hS; omega
    obtain ⟨e, le⟩ := ih hc
    have h1 : (b a).toNat < 2 := (b a).isLt
    rw [Finset.sum_insert ha, Finset.sum_insert ha, Finset.card_insert_of_notMem ha]
    rw [Finset.card_insert_of_notMem ha] at hS
    refine ⟨?_, by omega⟩
    rw [BitVec.toNat_add, e, BitVec.toNat_setWidth]
    omega

/-- The real number of a finite sum of naturals, as an extended real, is the sum of the extended reals. -/
theorem coe_sum_nat {ι : Type*} (n : ι → ℕ) (S : Finset ι) :
    (((∑ i ∈ S, n i : ℕ) : ℝ) : EReal) = ∑ i ∈ S, (((n i : ℕ) : ℝ) : EReal) := by
  classical
  induction S using Finset.induction_on with
  | empty => simp
  | insert a S ha ih => rw [Finset.sum_insert ha, Finset.sum_insert ha, Nat.cast_add, EReal.coe_add, ih]

/-- A widened one-bit word's signed value is its bit. -/
theorem toInt_word (b : BitVec 1) : ((b.setWidth 32 : BitVec 32).toInt) = (b.toNat : ℤ) := by
  rcases BitVec.eq_zero_or_eq_one b with h | h <;> subst h <;> decide

/-- The signed value of a wrapping sum of fewer than 2^31 widened one-bit words, from the zero word, is the sum of
    the words' signed values. -/
theorem count_words {ι : Type*} [Fintype ι] (b : ι → BitVec 1) (hcard : Fintype.card ι < 2 ^ 31) (init : BitVec 32) (h0 : init = 0#32) :
    ((((init + ∑ i, ((b i).setWidth 32 : BitVec 32)).toInt : ℝ)) : EReal)
      = ∑ i, ((((((b i).setWidth 32 : BitVec 32)).toInt : ℝ)) : EReal) := by
  subst h0
  rw [BitVec.zero_add]
  obtain ⟨e, le⟩ := toNat_sum_words b Finset.univ (by rw [Finset.card_univ]; omega)
  rw [Finset.card_univ] at le
  have hi : (∑ i, ((b i).setWidth 32 : BitVec 32)).toInt = ((∑ i, (b i).toNat : ℕ) : ℤ) := by
    rw [BitVec.toInt_eq_toNat_cond, e]
    have : 2 * (∑ i, (b i).toNat) < 2 ^ 32 := by omega
    rw [if_pos this]
  rw [hi, Int.cast_natCast, coe_sum_nat]
  refine Finset.sum_congr rfl fun i _ => ?_
  rw [toInt_word, Int.cast_natCast]

end Cert.ReferenceIdeal.RefValue
-- ==== Proof.RefTables.lean ====
/-
  The four [32, 2] tables of pixel sums, and the per-group cross-entropy total, as the reference computes them.

  The host's float sums over the two pixel axes (from the zero word, which is 0) are the double sums over (h, w) of
  the kept norm and of the norm; its sum over the sample axis and the pixel axes is the triple sum over (b, h, w) of
  the cross-entropy term. The count is the signed value of the wrapping sum of the 65536 indicator words of a
  (sample, group), which is the number of ones since 65536 < 2^31.
-/
import proofs.«148723_j17265768529972_2_alg».proof.Proof.RefPoint
import proofs.«148723_j17265768529972_2_alg».proof.Proof.RefSums
import proofs.«148723_j17265768529972_2_alg».proof.Proof.RefCount

noncomputable section

namespace Cert.ReferenceIdeal.RefValue

open Cert.ReferenceIdeal Cert.ReferenceIdeal.Gen Idealize.ShloMosaic Idealize.ShloMosaic.ValueIdx

/-- The cross-entropy total of group g: the sum over samples of the specification's per-sample sums. -/
theorem v22_at (x0 x1 : IArr) (g : Fin 2) :
    val_main_v22 (F := Ideal) x0 x1 (ix1 g) = ∑ b : Fin 32, Spec.bceSum x0 x1 b g := by
  show Ideal.hostReduceAdd reducesTo_S32x2x256x256_S2_d0_2_3 (val_main_v21 (F := Ideal) x0 x1)
      (Ideal.ofBits .f32 0x00000000#32) (ix1 g) = _
  rw [Ideal.ofBits_zero_f32]
  refine (CoordSums.hostReduceAdd_023_apply _ _ _ g).trans ?_
  rw [zero_add]
  refine Finset.sum_congr rfl fun b _ => ?_
  show ∑ h : Fin 256, ∑ w : Fin 256, val_main_v21 (F := Ideal) x0 x1 (ix4 b g h w)
    = ∑ h : Fin 256, ∑ w : Fin 256, Spec.bce x0 x1 b g h w
  exact Finset.sum_congr rfl fun h _ => Finset.sum_congr rfl fun w _ => v21_at x0 x1 b g h w

/-- The kept-norm sums. -/
theorem v40_at (x0 x1 : IArr) (b : Fin 32) (g : Fin 2) :
    val_main_v40 (F := Ideal) x0 x1 (ix2 b g) = Spec.mSum x0 x1 b g := by
  show Ideal.hostReduceAdd reducesTo_S32x2x256x256_S32x2_d2_3 (val_main_v34 (F := Ideal) x0 x1)
      (Ideal.ofBits .f32 0x00000000#32) (ix2 b g) = _
  rw [Ideal.ofBits_zero_f32]
  refine (CoordSums.hostReduceAdd_23_apply _ _ _ b g).trans ?_
  rw [zero_add]
  exact Finset.sum_congr rfl fun h _ => Finset.sum_congr rfl fun w _ => v34_at x0 x1 b g h w

/-- The norm sums. -/
theorem v41_at (x0 x1 : IArr) (b : Fin 32) (g : Fin 2) :
    val_main_v41 (F := Ideal) x0 x1 (ix2 b g) = Spec.dSum x0 x1 b g := by
  show Ideal.hostReduceAdd reducesTo_S32x2x256x256_S32x2_d2_3 (val_main_v31 (F := Ideal) x0 x1)
      (Ideal.ofBits .f32 0x00000000#32) (ix2 b g) = _
  rw [Ideal.ofBits_zero_f32]
  refine (CoordSums.hostReduceAdd_23_apply _ _ _ b g).trans ?_
  rw [zero_add]
  exact Finset.sum_congr rfl fun h _ => Finset.sum_congr rfl fun w _ => v31_at x0 x1 b g h w

/-- The counts: the signed value of the wrapping sum of the indicator words is the number of kept pixels. -/
theorem v39_at (x0 x1 : IArr) (b : Fin 32) (g : Fin 2) :
    val_main_v39 (F := Ideal) x0 x1 (ix2 b g) = Spec.count x0 x1 b g := by
  show (((val_main_v38 (F := Ideal) x0 x1 (ix2 b g)).toInt : ℝ) : EReal) = _
  have e : val_main_v38 (F := Ideal) x0 x1 (ix2 b g)
      = (0#32 : BitVec 32) + ∑ p : Fin 256 × Fin 256,
          ((Ideal.cmp .one (Spec.masked x0 x1 b g p.1 p.2) 0).setWidth 32 : BitVec 32) := by
    refine (CoordSums.hostReduce_addi_23_apply reducesTo_S32x2x256x256_S32x2_d2_3 h_S_
      (val_main_v37 (F := Ideal) x0 x1) (val_main_c (F := Ideal)) b g).trans ?_
    refine congrArg ((0#32 : BitVec 32) + ·) ?_
    rw [Fintype.sum_prod_type]
    exact Finset.sum_congr rfl fun h _ => Finset.sum_congr rfl fun w _ => v37_at x0 x1 b g h w
  rw [e, count_words (fun p : Fin 256 × Fin 256 => Ideal.cmp .one (Spec.masked x0 x1 b g p.1 p.2) 0)
    (by rw [Fintype.card_prod, Fintype.card_fin]; norm_num) 0#32 rfl, Fintype.sum_prod_type]
  exact Finset.sum_congr rfl fun h _ => Finset.sum_congr rfl fun w _ => Spec.ind_word _

end Cert.ReferenceIdeal.RefValue

end
-- ==== Proof.RefTail.lean ====
/-
  From the four tables to the loss.

  The reference computes the per-group cross-entropy mean as -((Σ_{b,h,w} bce) / 2097152); the specification as
  (-((Σ_b bceSum) / 32)) / 65536. The three divisors are non-zero reals (the words 0x4A000000, 0x42000000,
  0x47800000 are 2097152, 32, 65536), division by a non-zero real c is multiplication by 1/c on every extended real,
  multiplication is associative, a sign leaves a product, and (1/32)·(1/65536) = 1/2097152.
  The rest is the specification's tail read stage by stage: the select between kept-norm mean and fallback per
  (sample, group), the host's sums over the sample axis and over the two groups from the zero word (each the sum
  over that axis's coordinates), and the final division by the word 2.
-/
import proofs.«148723_j17265768529972_2_alg».proof.Proof.RefTables

noncomputable section

namespace Cert.ReferenceIdeal.RefValue

open Cert.ReferenceIdeal Cert.ReferenceIdeal.Gen Idealize.ShloMosaic Idealize.ShloMosaic.ValueIdx

/-- The word 0x42000000 is 32. -/
theorem w32_val : Spec.w32 = ((32 : ℝ) : EReal) := by
  unfold Spec.w32
  simp [Ideal.ofBits, Ideal.ieee, -EReal.coe_mul] <;> norm_num

/-- The word 0x47800000 is 65536. -/
theorem w65536_val : Spec.w65536 = ((65536 : ℝ) : EReal) := by
  unfold Spec.w65536
  simp [Ideal.ofBits, Ideal.ieee, -EReal.coe_mul] <;> norm_num

/-- The word 0x4A000000 is 2097152 = 32 · 65536. -/
theorem w2097152_val : Ideal.ofBits .f32 0x4A000000#32 = ((2097152 : ℝ) : EReal) := by
  simp [Ideal.ofBits, Ideal.ieee, -EReal.coe_mul] <;> norm_num

/-- Dividing once by 2097152 and negating is dividing by 32, negating, and dividing by 65536, on every extended real. -/
theorem maskLoss_eq (S : EReal) :
    -(Ideal.div S (Ideal.ofBits .f32 0x4A000000#32)) = Ideal.div (-(Ideal.div S Spec.w32)) Spec.w65536 := by
  rw [w2097152_val, w32_val, w65536_val, Ideal.div_coe (by norm_num), Ideal.div_coe (by norm_num),
    Ideal.div_coe (by norm_num), EReal.neg_mul, mul_assoc, ← EReal.coe_mul]
  norm_num

/-- The per-(sample, group) image loss: the kept-norm mean where a pixel was kept, else the mean norm. -/
theorem v49_at (x0 x1 : IArr) (b : Fin 32) (g : Fin 2) :
    val_main_v49 (F := Ideal) x0 x1 (ix2 b g)
      = Spec.perSample (Spec.mSum x0 x1) (Spec.count x0 x1) (Spec.dSum x0 x1) b g := by
  show Scalar.select (Ideal.cmp .ogt (val_main_v39 (F := Ideal) x0 x1 (ix2 b g)) (Ideal.ofBits .f32 0x00000000#32))
      (Ideal.div (val_main_v40 (F := Ideal) x0 x1 (ix2 b g)) (max (val_main_v39 (F := Ideal) x0 x1 (ix2 b g)) Spec.wOne))
      (Ideal.div (val_main_v41 (F := Ideal) x0 x1 (ix2 b g)) Spec.w65536) = _
  rw [v39_at, v40_at, v41_at, Ideal.ofBits_zero_f32]
  rfl

/-- The sum over the sample axis of the per-(sample, group) image losses. -/
theorem v50_at (x0 x1 : IArr) (g : Fin 2) :
    val_main_v50 (F := Ideal) x0 x1 (ix1 g)
      = ∑ b : Fin 32, Spec.perSample (Spec.mSum x0 x1) (Spec.count x0 x1) (Spec.dSum x0 x1) b g := by
  show Ideal.hostReduceAdd reducesTo_S32x2_S2_d0 (val_main_v49 (F := Ideal) x0 x1)
      (Ideal.ofBits .f32 0x00000000#32) (ix1 g) = _
  rw [Ideal.ofBits_zero_f32, Ideal.hostReduceAdd_single reducesTo_S32x2_S2_d0 (by decide), zero_add]
  refine Finset.sum_congr rfl fun b _ => ?_
  refine Eq.trans (congrArg (val_main_v49 (F := Ideal) x0 x1) (funext fun a => Fin.ext (by
    match a with | ⟨0, _⟩ => rfl | ⟨1, _⟩ => rfl))) (v49_at x0 x1 b g)

/-- The weighted per-group loss. -/
theorem v57_at (x0 x1 : IArr) (g : Fin 2) :
    val_main_v57 (F := Ideal) x0 x1 (ix1 g)
      = Spec.wPt7 * Spec.maskLoss (Spec.bceSum x0 x1) g
        + Spec.wPt3 * Spec.nocs (Spec.mSum x0 x1) (Spec.count x0 x1) (Spec.dSum x0 x1) g := by
  show Spec.wPt7 * (-(Ideal.div (val_main_v22 (F := Ideal) x0 x1 (ix1 g)) (Ideal.ofBits .f32 0x4A000000#32)))
      + Spec.wPt3 * (Ideal.div (val_main_v50 (F := Ideal) x0 x1 (ix1 g)) Spec.w32) = _
  rw [v22_at, v50_at, maskLoss_eq]
  rfl

/-- A sum over every index of a one-axis array is the sum over its coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => (i 0 : Fin n), ix1, fun i => (eq_ix1 i).symm, fun _ => rfl⟩ _ _
    (fun i => congrArg f (eq_ix1 i))

/-- The sum over the two groups (a sum into a result with one entry: the sum over every index). -/
theorem v58_at (x0 x1 : IArr) (i : S_.Idx) :
    val_main_v58 (F := Ideal) x0 x1 i = ∑ g : Fin 2, val_main_v57 (F := Ideal) x0 x1 (ix1 g) := by
  show Ideal.hostReduceAdd reducesTo_S2_S_d0 (val_main_v57 (F := Ideal) x0 x1)
      (Ideal.ofBits .f32 0x00000000#32) i = _
  rw [Ideal.ofBits_zero_f32, Ideal.hostReduceAdd_total reducesTo_S2_S_d0 (fun b => b.elim0), zero_add]
  exact sum_idx1 _

/-- The reference's result is the specification's loss. -/
theorem v59_eq (x0 x1 : IArr) (i : S_.Idx) : val_main_v59 (F := Ideal) x0 x1 i = Spec.loss x0 x1 := by
  show Ideal.div (val_main_v58 (F := Ideal) x0 x1 i) Spec.wTwo = _
  rw [v58_at]
  unfold Spec.loss Spec.tail
  exact congrArg (Ideal.div · Spec.wTwo) (Finset.sum_congr rfl fun g _ => v57_at x0 x1 g)

end Cert.ReferenceIdeal.RefValue

end
-- ==== Proof.RefValue.lean ====
/-
  The reference program computes the specification's loss: its run ends with the result buffer holding, at its one
  index, the loss of the two argument arrays as the launch memory holds them, and leaves the arguments unchanged.
-/
import proofs.«148723_j17265768529972_2_alg».proof.Proof.RefRun
import proofs.«148723_j17265768529972_2_alg».proof.Proof.RefTail

noncomputable section

namespace Cert.ReferenceIdeal.RefValue

open Cert.ReferenceIdeal Cert.ReferenceIdeal.Gen Idealize.ShloMosaic Idealize.ShloMosaic.TcCoe Idealize.SL.Sem Idealize.ShloMosaic.StableHlo

theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v59) = (fun _ => Cert.Spec.loss (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono (fun _ h c => ⟨(h c).1.trans (funext fun i => v59_eq _ _ i), (h c).2⟩)
    (run_stages (F := Ideal) m ρ)

end Cert.ReferenceIdeal.RefValue

end
-- ==== Proof.lean ====
/-
  The certificate: the Pallas kernel computing the LP-mask loss (a sigmoid cross-entropy on the mask channel of each of two
  channel groups, the Euclidean norm of the three image channels' differences kept where the mask probability exceeds 0.7,
  their per-sample sums over the 256 × 256 pixels accumulated over eight row-blocks of the grid, and a short host epilogue)
  against its plain jnp reference, over the extended reals.

  Both idealized programs compute ONE function of the two argument arrays, `Cert.Spec.loss` (Proof/Spec.lean):
  - the reference (Proof/RefRun.lean … RefValue.lean): its 89 host operations read stage by stage; its reductions over
    (sample, row, column) and over (row, column) are the iterated sums of the specification; its integer count of the kept
    pixels, converted to a float, is the sum of the indicators; its mean over 32·65536 values is the kernel's mean over 32
    followed by the division by 65536 (division by a non-zero real is multiplication by its inverse on every extended real);
  - the kernel (Proof/FrameKernelIdeal, KPieces … KValue): the body run once per case of its three branches on the row-block
    index; the four accumulators after each point by recursion on the point, in closed form the sum of the row-blocks' tables;
    the result arrays from the blocks written back at the last row-block; the epilogue.
  No step needs the inputs finite: sums over the extended reals may be regrouped and reordered freely, and no distributivity
  or cancellation is used. The ideal pass rewrote nothing, so the `preserves` conjunct is `True`.
-/
import proofs.«148723_j17265768529972_2_alg».proof.Defs
import proofs.«148723_j17265768529972_2_alg».proof.Proof.Gen.Kernel
import proofs.«148723_j17265768529972_2_alg».proof.Proof.Gen.KernelIdeal
import proofs.«148723_j17265768529972_2_alg».proof.Proof.Gen.ReferenceIdeal
import proofs.«148723_j17265768529972_2_alg».proof.Proof.Gen.Pre_finite_inputs
import proofs.«148723_j17265768529972_2_alg».proof.Proof.FrameKernel.Frame
import proofs.«148723_j17265768529972_2_alg».proof.Proof.FrameKernelIdeal.Frame
import proofs.«148723_j17265768529972_2_alg».proof.Proof.KValue
import proofs.«148723_j17265768529972_2_alg».proof.Proof.RefValue

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- Both idealized programs end with the specification's loss of arguments that agree. -/
theorem algebraic : Cert.algebraic_KernelIdeal_ReferenceIdeal := by
  intro m ρ m' ρ' _ hagree
  refine ⟨fun c => fun _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Body.value_run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
